-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S8x512 : Shape := ⟨2, ![8, 512]⟩
abbrev S8x128 : Shape := ⟨2, ![8, 128]⟩
abbrev S8x1 : Shape := ⟨2, ![8, 1]⟩
abbrev S1x128 : Shape := ⟨2, ![1, 128]⟩
abbrev S8x512x1 : Shape := ⟨3, ![8, 512, 1]⟩
abbrev S8x512x128 : Shape := ⟨3, ![8, 512, 128]⟩
abbrev S8x1x128 : Shape := ⟨3, ![8, 1, 128]⟩
abbrev S8 : Shape := ⟨1, ![8]⟩
abbrev S1 : Shape := ⟨1, ![1]⟩
abbrev S_ : Shape := ⟨0, ![]⟩

abbrev nBuf : Space → Nat
  | .hbm => 9
  | .vmem => 15
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .local _ .vmem, ⟨0, _⟩ => ⟨S512x128, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x128, .f32⟩
  | .local _ .vmem, ⟨5, _⟩ => ⟨S8x128, .f32⟩
  | .local _ .vmem, ⟨6, _⟩ => ⟨S8x1, .i32⟩
  | .local _ .vmem, ⟨7, _⟩ => ⟨S8x1, .i32⟩
  | .local _ .vmem, ⟨8, _⟩ => ⟨S1x512, .i32⟩
  | .local _ .vmem, ⟨9, _⟩ => ⟨S1x128, .i32⟩
  | .local _ .vmem, ⟨10, _⟩ => ⟨S1x128, .i32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![64, 4], ![false, false]⟩

def k1_cond2 (i : grid1.Coords) : BitVec 1 :=
  let arg0 : BitVec 32 := BitVec.ofNat 32 (i 0).val
  let c63_i32 : BitVec 32 := 63#32
  let v84 : BitVec 1 := Scalar.cmpi .eq arg0 c63_i32
  let arg1 : BitVec 32 := BitVec.ofNat 32 (i 1).val
  let c3_i32 : BitVec 32 := 3#32
  let v85 : BitVec 1 := Scalar.cmpi .eq arg1 c3_i32
  let v86 : BitVec 1 := Scalar.andi v84 v85
  let v87 : BitVec 32 := Scalar.extui v86
  let c0_i32_27 : BitVec 32 := 0#32
  let v88 : BitVec 1 := Scalar.cmpi .ne v87 c0_i32_27
  v88

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S8x1_d0_w32 : S8x1.Iotas .tc 32 [0]
  iota_S1x512_d1_w32 : S1x512.Iotas .tc 32 [1]
  iota_S1x128_d1_w32 : S1x128.Iotas .tc 32 [1]
  broadcasts_S1x512_S8x512 : S1x512.Broadcasts S8x512
  broadcasts_S8x1_S8x512 : S8x1.Broadcasts S8x512
  broadcasts_S1x128_S8x128 : S1x128.Broadcasts S8x128
  broadcasts_S8x1_S8x128 : S8x1.Broadcasts S8x128
  natLt_1_32 : 1 < 32
  shapeCasts_S8x512_S8x512x1 : S8x512.ShapeCasts S8x512x1
  shapeCasts_S8x512x1_S8x512x1 : S8x512x1.ShapeCasts S8x512x1
  broadcasts_S8x512x1_S8x512x128 : S8x512x1.Broadcasts S8x512x128
  shapeCasts_S8x128_S8x1x128 : S8x128.ShapeCasts S8x1x128
  shapeCasts_S8x1x128_S8x1x128 : S8x1x128.ShapeCasts S8x1x128
  broadcasts_S8x1x128_S8x512x128 : S8x1x128.Broadcasts S8x512x128
  reduces_S8x512x128_S8x512 : S8x512x128.Reduces [2] S8x512
  reduces_S8x512_S8 : S8x512.Reduces [1] S8
  shapeCasts_S8_S8x1 : S8.ShapeCasts S8x1
  reduces_S8x1_S1 : S8x1.Reduces [0] S1
  shapeCasts_S1_S1x1 : S1.ShapeCasts S1x1
  reduces_S8x128_S8 : S8x128.Reduces [1] S8
  shapeCasts_S1x1_S_ : S1x1.ShapeCasts S_
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S512x512.size a
  hwx1_0 : ∀ i : grid1.Coords, EltTy.bits .f32 = 32 ∨ (Rect.block (s := S512x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S512x512.size a
  hwx1_1 : ∀ i : grid1.Coords, EltTy.bits .f32 = 32 ∨ (Rect.block (s := S512x512) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S512x1.size a
  hwx1_2 : ∀ i : grid1.Coords, EltTy.bits .i32 = 32 ∨ (Rect.block (s := S512x1) S8x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .i32 = 32 ∨ (Rect.block (s := S1x512) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S512x128 : Shape := ⟨2, ![512, 128]⟩
abbrev S512 : Shape := ⟨1, ![512]⟩
abbrev S512x1x128 : Shape := ⟨3, ![512, 1, 128]⟩
abbrev S1x512x128 : Shape := ⟨3, ![1, 512, 128]⟩
abbrev S512x512x128 : Shape := ⟨3, ![512, 512, 128]⟩
abbrev S_ : Shape := ⟨0, ![]⟩
abbrev S512x512 : Shape := ⟨2, ![512, 512]⟩
abbrev S512x1 : Shape := ⟨2, ![512, 1]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 52
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x1x128, .f32⟩
  | .hbm, ⟨3, _⟩ => ⟨S1x512x128, .f32⟩
  | .hbm, ⟨4, _⟩ => ⟨S512x512x128, .f32⟩
  | .hbm, ⟨5, _⟩ => ⟨S512x512x128, .f32⟩
  | .hbm, ⟨6, _⟩ => ⟨S512x512x128, .f32⟩
  | .hbm, ⟨7, _⟩ => ⟨S512x512x128, .f32⟩
  | .hbm, ⟨8, _⟩ => ⟨S_, .f32⟩
  | .hbm, ⟨9, _⟩ => ⟨S512x512, .f32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x1, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .i1⟩
  | .hbm, ⟨23, _⟩ => ⟨S512x512, .i1⟩
  | .hbm, ⟨24, _⟩ => ⟨S512x512, .i1⟩
  | .hbm, ⟨25, _⟩ => ⟨S512x512x1, .i1⟩
  | .hbm, ⟨26, _⟩ => ⟨S512x1x512, .i1⟩
  | .hbm, ⟨27, _⟩ => ⟨S512x512x512, .i1⟩
  | .hbm, ⟨28, _⟩ => ⟨S512x512x512, .i1⟩
  | .hbm, ⟨29, _⟩ => ⟨S512x512x512, .i1⟩
  | .hbm, ⟨30, _⟩ => ⟨S512x512x1, .f32⟩
  | .hbm, ⟨31, _⟩ => ⟨S512x1x512, .f32⟩
  | .hbm, ⟨32, _⟩ => ⟨S512x512x512, .f32⟩
  | .hbm, ⟨33, _⟩ => ⟨S512x512x512, .f32⟩
  | .hbm, ⟨34, _⟩ => ⟨S512x512x512, .f32⟩
  | .hbm, ⟨35, _⟩ => ⟨S_, .f32⟩
  | .hbm, ⟨36, _⟩ => ⟨S512x512x512, .f32⟩
  | .hbm, ⟨37, _⟩ => ⟨S512x512x512, .f32⟩
  | .hbm, ⟨38, _⟩ => ⟨S_, .f32⟩
  | .hbm, ⟨39, _⟩ => ⟨S512x512x512, .f32⟩
  | .hbm, ⟨40, _⟩ => ⟨S512x512x512, .f32⟩
  | .hbm, ⟨41, _⟩ => ⟨S_, .f32⟩
  | .hbm, ⟨42, _⟩ => ⟨S_, .f32⟩
  | .hbm, ⟨43, _⟩ => ⟨S512x512x512, .f32⟩
  | .hbm, ⟨44, _⟩ => ⟨S512x512x512, .f32⟩
  | .hbm, ⟨45, _⟩ => ⟨S_, .f32⟩
  | .hbm, ⟨46, _⟩ => ⟨S_, .f32⟩
  | .hbm, ⟨47, _⟩ => ⟨S512x512x512, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_call0_cst : Ref sig .tc := ⟨.hbm, 38, rfl⟩
abbrev main_call0_v0 : Ref sig .tc := ⟨.hbm, 39, rfl⟩
abbrev main_v33 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  reducesTo_S512x512x128_S512x512_d2 : S512x512x128.ReducesTo [2] S512x512
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  natLt_1_32 : 1 < 32

variable [Facts₀]

class Facts : Prop extends Facts₀ where

variable [Facts]
-- ==== Proof.BitsRegion0.lean ====
/- The first TensorCore region of the kernel program: the pairwise squared distances.

   The region is a one-point pipeline over two windows, each the whole of its array: window 0 the
   [512,128] input, window 1 the [512,512] output. Stated at a parameter `V`, the contents of the
   TensorCore's buffers when the region is entered, and generic in the float instance `F`:
   each window's block at a point, what the body leaves in the output window's buffer as a function of the
   input block, the body's triple, the pipeline's proof data and the body obligation at every point. -/
import proofs.«147143_j19576460935202_2_alg».proof.Proof.Gen.Kernel.Launch
import proofs.«147143_j19576460935202_2_alg».proof.Proof.Gen.Kernel.Skeleton
import proofs.«147143_j19576460935202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 512: the structural look recurses once per coordinate of an axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the window's block at every point, for any proof data whose
    input array is the entry contents and whose body leaves the input block where it was: the window is an
    input, never idle, and its block index never moves without a fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: both are whole blocks -/

/-- The rectangle of the one load of the input block: all of [512,128]. -/
abbrev r0_in : Rect S512x128 := Rect.unit (s := S512x128) ![0, 0] S512x128.size inb_S512x128_S512x128_0_0

/-- The rectangle of the one store (and of the unused load before it) of the output block: all of [512,512]. -/
abbrev r0_out : Rect S512x512 := Rect.unit (s := S512x512) ![0, 0] S512x512.size inb_S512x512_S512x512_0_0

/-! ## What the body leaves in the output window's buffer -/

/-- The output window's staging buffer after the body, from the input block `x0`: the one store's piece,
    whose payload is the clamped distance matrix of what the load read of `x0`. -/
def out0_1 (x0 : Vec F S512x128 .f32) : Vec F S512x512 .f32 :=
  View.canon [⟨r0_out, k0_pay1 (View.ld x0 r0_in)⟩]

/-- The one store's rectangle is the whole buffer, so it covers every index. -/
theorem cover0_1 (p0 : Vec F S512x512 .f32) (y : S512x512.Idx) :
    ∃ pc ∈ ([⟨r0_out, p0⟩] : List (View.Piece (Elt F) S512x512 .f32)), y ∈ pc.1.set :=
  View.cover_of_tiled [⟨r0_out, p0⟩] S512x512.size (by rfl) y

/-! ## The body's triple -/

set_option maxHeartbeats 1000000 in
/-- The kernel body at any grid coordinate, on whole staging memrefs, the input's at contents `x0` and the
    output's at anything, runs to the continuation holding the input's as it was and the output's at
    `out0_1 x0`. The load of the output block before the store reads whatever the buffer held and its value
    is used by nothing; the store then overwrites the whole buffer. -/
theorem sound_kernel0 (c : Dev nD) (E : Set ℕ) (i : grid0.Coords)
    (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point
    `t` the input's buffer at its block and the output's at `out0_1` of the input block; the invariant the
    untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Runs.lean ====
/-
  The second pallas_call (the triplet sums), what its three control cases share.

  The grid has 64 × 4 = 256 points in row-major order. The body zeroes its two one-element accumulators at the
  first point, adds the point's block totals to them at every point, and copies them to the two output blocks at
  the last point. Hence three cases: the first point (A), the points strictly between (B), the last point (C).
  Stated here: a window's block at a point as read off the array the region finds; that an input window's staging
  buffer holds that block at every point; the two conditions in closed form over the grid; where the output
  windows are idle; the staging and accumulator memrefs by name; the region's invariant with the accumulators
  spelled as owned memrefs.
-/
import proofs.«147143_j19576460935202_2_alg».proof.Proof.Gen.Kernel.Launch
import proofs.«147143_j19576460935202_2_alg».proof.Proof.Gen.Kernel.Skeleton
import proofs.«147143_j19576460935202_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the region's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": both grid coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

/-- "This is the last point": the coordinates are (63, 3). -/
abbrev cond1_1 (i : grid1.Coords) : Prop := k1_cond2 i = 1#1
theorem hcond1_1 : ∀ t : Fin cfg1.N, cond1_1 (grid1.coords t) ↔ t.val % 256 = 255 :=
  (by decide +kernel : ∀ t : Fin grid1.N, cond1_1 (grid1.coords t) ↔ t.val % 256 = 255)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last point the body stores nothing into the output windows, and the pipeline does not write them back. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
/-- At the last point they are live. -/
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The memrefs the body is called with -/

abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
abbrev ms1_0 (t : Fin cfg1.N) : Memref sig .tc .vmem S8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

/-- The first pallas_call's two staging buffers, which this region never touches, each whole at some contents. -/
abbrev otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant before the first point, with the accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.BitsRegion1RunB.lean ====
/-
  The triplet-sum body at a point strictly between the first and the last (case B): neither condition holds. The
  body reads its five input blocks and the two accumulators, and stores each accumulator once (old value plus the
  point's block total); the output blocks are not touched.
-/
import proofs.«147143_j19576460935202_2_alg».proof.Proof.BitsRegion1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B's run: on whole memrefs, the inputs at their contents, the two outputs at contents handed back untouched,
    the accumulators at what the point before left, the body runs to the continuation holding the inputs as they
    were and each accumulator with its pieces written. -/
noncomputable def kernelRun1_B (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.Kernel.Hand

end
-- ==== Proof.BitsRegion1RunA.lean ====
/-
  The triplet-sum body at the first point (case A): the accumulators are zeroed, then the point's block totals are
  added; what the accumulators held before does not matter. The output blocks are not touched.
-/
import proofs.«147143_j19576460935202_2_alg».proof.Proof.BitsRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A's run: the accumulators at anything; the body leaves each with its pieces written (the zero, then zero plus
    the block total). -/
noncomputable def kernelRun1_A (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (x0 : Vec F S8x512 .f32) (x1 : Vec F S8x128 .f32) (x2 : Vec F S8x1 .i32) (x3 : Vec F S1x512 .i32) (x4 : Vec F S1x128 .i32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.Kernel.Hand

end
-- ==== Proof.BitsRegion1RunC.lean ====
/-
  The triplet-sum body at the last point (case C): the point's block totals are added to the accumulators, and the
  accumulators are then copied to the two output blocks.
-/
import proofs.«147143_j19576460935202_2_alg».proof.Proof.BitsRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C's run: the accumulators at what the point before left, the outputs at anything; the body leaves the
    accumulators and the outputs each with its pieces written. -/
noncomputable def kernelRun1_C (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    Σ' (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexists _; iexact HS0
    iexists _; iexact HS1

end Cert.Kernel.Hand

end
-- ==== Proof.BitsRegion1.lean ====
/-
  The second pallas_call (the triplet sums): what its accumulators and output blocks hold point by point, the
  pipeline's proof data, and the body obligation.

  After point n the two accumulators hold the running totals of the block sums over the points 0..n (the first point
  starts them from zero); the two output blocks are written once, at the last point, with the accumulators' final
  values. The region's invariant carries the accumulators at those named contents from one point to the next.
  Windows 0 and 1 read one array and windows 3 and 4 another: the proof data hold each pair at the two halves of the
  full share.
-/
import proofs.«147143_j19576460935202_2_alg».proof.Proof.BitsRegion1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulators and the outputs -/

theorem scover1_A_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) (y : S1x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1x1.size (by sl_kernel_rfl) y
theorem scover1_A_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) (y : S1x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1x1.size (by sl_kernel_rfl) y
/-- What the first point leaves in the two accumulators. -/
def sout1_A_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) : Vec F S1x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
def sout1_A_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) : Vec F S1x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)

theorem scover1_B_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).1 S1x1.size (by sl_kernel_rfl) y
theorem scover1_B_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.1 S1x1.size (by sl_kernel_rfl) y
/-- What a middle point leaves in the two accumulators, from what the point before left. -/
def sout1_B_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1).1)
def sout1_B_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1).2.1)

theorem cover1_C_5 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).1 S1x1.size (by sl_kernel_rfl) y
theorem cover1_C_6 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.1 S1x1.size (by sl_kernel_rfl) y
theorem scover1_C_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.1 S1x1.size (by sl_kernel_rfl) y
theorem scover1_C_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.2.1 S1x1.size (by sl_kernel_rfl) y
/-- What the last point leaves in the two output blocks and in the two accumulators. -/
def out1_C_5 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1).1)
def out1_C_6 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 xs0 xs1).2.1)
def sout1_C_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1).2.2.1)
def sout1_C_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1).2.2.2.1)

/-- A placeholder for an output block at a point that neither stores into it nor writes it back: nothing reads it. -/
def idleOut : Vec F S1x1 .f32 := VO1_5.read (Elt F) VO1_5.junk

/-! ## The accumulation, point by point -/

theorem lt256 {n : ℕ} (hn : n < cfg1.N) : n < 256 := lt_of_lt_of_eq hn (show cfg1.N = 256 from N_1)
theorem ncond0_succ {n : ℕ} (hn : n + 1 < cfg1.N) : ¬cond1_0 (grid1.coords ⟨n + 1, hn⟩) :=
  fun h => absurd ((hcond1_0 ⟨n + 1, hn⟩).mp h) (by have := lt256 hn; show ¬(n + 1) % 256 = 0; omega)
theorem ncond1_zero (hn : 0 < cfg1.N) : ¬cond1_1 (grid1.coords ⟨0, hn⟩) :=
  fun h => absurd ((hcond1_1 ⟨0, hn⟩).mp h) (show ¬(0 % 256 = 255) by decide)

/-- After point n: ((output 5, output 6), (accumulator 0, accumulator 1)). -/
def outsAt1 (c : Dev nD) : (n : ℕ) → n < cfg1.N → (Vec F S1x1 .f32 × Vec F S1x1 .f32) × (Vec F S1x1 .f32 × Vec F S1x1 .f32)
  | 0, hn => ((idleOut, idleOut),
      (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩) (iblk1 V c 4 ⟨0, hn⟩),
       sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩) (iblk1 V c 4 ⟨0, hn⟩)))
  | n + 1, hn =>
    if h1 : (n + 1) % 256 = 255 then
      ((out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2))
    else
      ((idleOut, idleOut),
       (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2))

/-- At the first point: the zeroed accumulators plus the block totals. -/
theorem outsAt1_A (c : Dev nD) (t : Fin cfg1.N) (h0 : t.val % 256 = 0) (h1 : ¬t.val % 256 = 255) :
    outsAt1 V c t.val t.isLt = ((idleOut, idleOut),
      (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
       sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))) := by
  obtain ⟨n, hn⟩ := t
  cases n with
  | zero => exact rfl
  | succ n => exact (by exfalso; have := lt256 hn; (try dsimp only at h0); omega)

/-- At a middle point: what the point before left plus the block totals. -/
theorem outsAt1_B (c : Dev nD) (t : Fin cfg1.N) (h0 : ¬t.val % 256 = 0) (h1 : ¬t.val % 256 = 255) :
    outsAt1 V c t.val t.isLt = ((idleOut, idleOut),
      (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
       sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h1).trans rfl

/-- At the last point: the same, and the outputs take the accumulators' final values. -/
theorem outsAt1_C (c : Dev nD) (t : Fin cfg1.N) (h0 : ¬t.val % 256 = 0) (h1 : t.val % 256 = 255) :
    outsAt1 V c t.val t.isLt =
      ((out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2),
       (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_pos h1).trans rfl

/-! ## The region's invariant -/

/-- Before position n: before the first point every scoped buffer no window stages is at anything; afterwards the two
    accumulators are at what the point before left. The generator register rides along. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The arrays as the region finds them; after the body at a point each input's buffer at its block and the outputs' at
    the accumulation's components; the invariant above; nothing owed; the two shared arrays split between their two
    windows at the halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1.1
    | ⟨6, _⟩ => (outsAt1 V c t.val t.isLt).1.2
  Φ t := PhiS1 V c t.val (Nat.le_of_lt_succ t.isLt)
  q w := match w with
    | ⟨0, _⟩ => fullShare.left
    | ⟨1, _⟩ => fullShare.right
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1.1 := by dsimp only [dat1]
theorem after1_6 (c : Dev nD) (t : Fin cfg1.N) : (dat1 V c).after 6 t = (outsAt1 V c t.val t.isLt).1.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the closed forms say which case the point is in; the
    invariant hands the body the accumulators at what the point before left (at anything at the first point) and takes
    them back at this point's contents; off the last point the output buffers go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt256 t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 256 = 0
  · have h1 : ¬t.val % 256 = 255 := by omega
    have hc1 : ¬cond1_1 (grid1.coords t) := fun h => h1 ((hcond1_1 t).mp h)
    have hz : t.val = 0 := by omega
    rw [Dat.leavesExact_idle (dat1 V c) 5 t (idleAt1_5 t hc1) (noFlush1_5 t hc1),
      Dat.leavesExact_idle (dat1 V c) 6 t (idleAt1_6 t hc1) (noFlush1_6 t hc1)]
    rw [outsAt1_A V c t h0 h1]
    unfold sout1_A_0 sout1_A_1; (try dsimp only)
    rw [PhiS1_castSucc V c t, PhiS1_zero V c _ _ hz, PhiA1_eq]
    iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [R0 R1 HS0 HS1 Hg]
    · isplitl [R0 R1 HS0 HS1]
      · isplitl [R0]; · iexact R0
        isplitl [R1]; · iexact R1
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 256 = 255
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_5 out1_C_6 sout1_C_0 sout1_C_1; (try dsimp only)
      rw [PhiS1_castSucc V c t, PhiS1_pos V c _ _ hz]
      iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [R0 R1 HS0 HS1 Hg]
      · isplitl [R0 R1 HS0 HS1]
        · isplitl [R0]; · iexact R0
          isplitl [R1]; · iexact R1
          isplitl [HS0]
          · unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
          · unfold owns; iexists _; isplitr
            swap; · iexact HS1
            ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
      · unfold owns; iexists _; isplitr
        swap; · iexact H6
        ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
    · have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [outsAt1_B V c t h0 h1]
      unfold sout1_B_0 sout1_B_1; (try dsimp only)
      rw [PhiS1_castSucc V c t, PhiS1_pos V c _ _ hz]
      iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 HS0 HS1 Hg]
      · isplitl [R0 R1 HS0 HS1]
        · isplitl [R0]; · iexact R0
          isplitl [R1]; · iexact R1
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped buffers back, the accumulators' named contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, HS0, HS1⟩, Hg⟩
  isplitl [R0 R1 HS0 HS1]
  · isplitl [R0]; · iexact R0
    isplitl [R1]; · iexact R1
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.LibSharedFibers.lean ====
/-
  Several windows of a pipeline on one array, for any number of shared arrays.

  A pallas_call may be handed one array through several of its windows, and it may be handed several such arrays. The
  buffers behind the windows' arrays are then fewer than the windows: the map `w ↦ arrRef w` from windows to buffers is
  not injective, and its FIBERS — for a buffer `b`, the windows `w` with `arrRef w = b` — say which windows sit on which
  buffer. What the launch holds is each DISTINCT buffer whole at the full share (`Pipeline.arrBufs`); what the pipeline's
  proof data want is one points-to per WINDOW, at the window's share (`Pipeline.Dat.arrays`). The two agree as soon as,
  buffer by buffer, the full share is dealt among the windows of the buffer's fiber:

  * `bigSep_fibers`: for any finite set `S` of values of a map `f`, the separating conjunction over `j ∈ S` of the
    conjunctions over the fiber of `j` is the conjunction over all indices whose value lies in `S` (induction on `S`:
    the indices with value in `insert j S` are the disjoint union of the fiber of `j` and the indices with value in `S`);
  * `bigSep_image_fiber`: hence a conjunction over the image of `f` whose term at each value is the conjunction of the
    indices' terms over that value's fiber is the conjunction over all indices;
  * `split_halves`: a buffer whole at the full share is the same at the left half and the same at the right half of
    the full share;
  * `arrays_of_fibers`: `arrBufs = Dat.arrays` at the same contents, given for each buffer behind a window's array that
    the buffer at the full share is the conjunction, over the windows on it, of the buffer at each window's share — an
    equality, so it serves a region's entry (deal the shares out) and its exit (gather them again);
  * `arrays_of_unscopedBufs_of_eq`, `unscopedBufs_of_arrays_of_eq`: the two forms a region's entry and exit use — a
    core's unscoped buffers at a valuation are the pipeline's arrays and the unscoped rest, and back at a valuation
    updated at the arrays — with the equality `arrBufs = Dat.arrays` as a hypothesis, whatever the sharing pattern.

  Generic in the configuration, the proof data and the element values; no program is imported.
-/
import Idealize.ShloMosaic.Lib.Pipeline.Launch

noncomputable section

namespace SharedFibers

open Idealize.ShloMosaic Idealize.ShloMosaic.TcCoe Idealize.ShloMosaic.Pipeline
open Idealize.SL Idealize.SL.RA
open Idealize.SL.BI (sProp bigSep bigSep_insert bigSep_congr bigSep_union)
open scoped Idealize.SL.BI
open Idealize.SL.BI.BIBase Idealize.SL.BI.Laws Idealize.SL.Sem

section BigSep

variable {I J : Type} [Fintype I] [DecidableEq I] [DecidableEq J] {M : Type} [URA M]

/-- Over any finite set `S` of values of `f`: the conjunction over `j ∈ S` of the conjunctions over the fiber of `j` is
    the conjunction over the indices whose value lies in `S`. -/
theorem bigSep_fibers (f : I → J) (Ψ : I → sProp M) (S : Finset J) :
    bigSep S (fun j => bigSep (Finset.univ.filter fun i => f i = j) Ψ)
      = bigSep (Finset.univ.filter fun i => f i ∈ S) Ψ := by
  induction S using Finset.induction_on with
  | empty => simp
  | insert j S hj ih =>
    have hsplit : (Finset.univ.filter fun i => f i ∈ insert j S)
        = (Finset.univ.filter fun i => f i = j) ∪ (Finset.univ.filter fun i => f i ∈ S) := by
      ext i
      simp only [Finset.mem_filter, Finset.mem_univ, true_and, Finset.mem_insert, Finset.mem_union]
    have hdisj : Disjoint (Finset.univ.filter fun i => f i = j) (Finset.univ.filter fun i => f i ∈ S) :=
      Finset.disjoint_left.mpr fun {i} h1 h2 =>
        hj ((Finset.mem_filter.mp h1).2 ▸ (Finset.mem_filter.mp h2).2)
    rw [bigSep_insert hj, ih, hsplit, bigSep_union hdisj]

/-- A conjunction over the image of `f` whose term at each value is the conjunction of the indices' terms over that
    value's fiber is the conjunction over all indices. -/
theorem bigSep_image_fiber (f : I → J) (Φ : J → sProp M) (Ψ : I → sProp M)
    (h : ∀ j ∈ Finset.univ.image f, Φ j = bigSep (Finset.univ.filter fun i => f i = j) Ψ) :
    bigSep (Finset.univ.image f) Φ = bigSep Finset.univ Ψ := by
  rw [bigSep_congr h, bigSep_fibers]
  refine congrArg (fun T => bigSep T Ψ) ?_
  ext i
  simp only [Finset.mem_filter, Finset.mem_univ, true_and, Finset.mem_image, iff_true]
  exact ⟨i, rfl⟩

end BigSep

section Arrays

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels}

local notation "𝕄" => MT nD τ sig Ix Val Name U Lvl

/-- A buffer whole at the full share is the same at the left half and the same at the right half of the full share. -/
theorem split_halves (ℓ : Loc nD τ sig) (f : Buf Val ℓ) :
    (ℓ ↦{fullShare} f : sProp 𝕄) = iprop((ℓ ↦{fullShare.left} f) ∗ (ℓ ↦{fullShare.right} f)) := by
  have hsh := pointsTo_share (nD := nD) (τ := τ) (sig := sig) (Ix := Ix) (Val := Val) (Name := Name) (U := U) (Lvl := Lvl)
    (ℓ := ℓ) (I := Finset.univ) (f := f) (PosShare.mem_left_op_right fullShare)
  exact Idealize.SL.BI.equiv_iff.mp ⟨hsh.1, hsh.2⟩

/-- THE FIBERS. Every window's array a whole buffer; for each buffer `b` behind a window's array, the buffer whole at the
    full share at contents `V b` is the conjunction, over the windows `w` on `b`, of the buffer at the share the proof data
    hold window `w`'s array at. Then the distinct buffers behind the arrays, each whole at the full share at contents `V`,
    ARE the proof data's arrays at the contents `F` read off `V`. -/
theorem arrays_of_fibers {cfg : Cfg sig Λ₀} {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.spec w).arr.view.loc (c.tc : Thread nD τ))) (hF : ∀ w, F w = V (arrRef cfg.spec w))
    (hfib : ∀ b ∈ Finset.univ.image (arrRef cfg.spec),
      ((c.tc : Thread nD τ).loc b ↦{fullShare} V b : sProp 𝕄)
        = bigSep (Finset.univ.filter fun w => arrRef cfg.spec w = b)
            fun w => ((c.tc : Thread nD τ).loc b ↦{dat.share w} V b : sProp 𝕄)) :
    (arrBufs cfg.spec c V : sProp 𝕄) = dat.arrays F := by
  unfold arrBufs Dat.arrays
  refine bigSep_image_fiber (arrRef cfg.spec) _ _ fun b hb => ?_
  rw [hfib b hb]
  refine bigSep_congr fun w hw => ?_
  have hwb : arrRef cfg.spec w = b := (Finset.mem_filter.mp hw).2
  subst hwb
  rw [(harr w).set_eq_univ, hF w]

variable {P : Type} [Fintype P]

/-- ENTRY. A core's unscoped buffers at contents `V` are the pipeline's arrays at the proof data's entry contents —
    those being read off `V` (`hA`) — and the unscoped rest, given that the buffers behind the arrays at `V` are the
    proof data's arrays at any contents read off `V` (`h`). -/
theorem arrays_of_unscopedBufs_of_eq (cfgs : P → Cfg sig Λ₀) (p : P)
    (hun : ∀ w, (arrRef (cfgs p).spec w).isScoped = false) {c : Dev nD} (dat : Dat τ Val Ix Name U Lvl (cfgs p) c)
    (V : (b : Ref sig .tc) → Buf Val ((c.tc : Thread nD τ).loc b))
    (h : ∀ F : (w : Fin (cfgs p).W) → Buf Val (((cfgs p).spec w).arr.view.loc (c.tc : Thread nD τ)),
      (∀ w, F w = V (arrRef (cfgs p).spec w)) → (arrBufs (cfgs p).spec c V : sProp 𝕄) = dat.arrays F)
    (hA : ∀ w, dat.A w = V (arrRef (cfgs p).spec w)) :
    (unscopedBufs c V : sProp 𝕄) ⊢ iprop(dat.arrays (dat.arrAt · 0) ∗ unscopedRest (cfgs p).spec c V) := by
  rw [unscopedBufs_split₀ cfgs p hun c V,
    h (dat.arrAt · 0) (fun w => by rw [show dat.arrAt w 0 = dat.A w from rfl, hA])]

/-- EXIT. The pipeline's arrays at contents `F` and the unscoped rest at `V` are the core's unscoped buffers at any
    valuation `V'` that has the arrays at `F` (`hF`) and agrees with `V` off them (`hrest`), given that the buffers behind
    the arrays at `V'` are the proof data's arrays at any contents read off `V'` (`h`). -/
theorem unscopedBufs_of_arrays_of_eq (cfgs : P → Cfg sig Λ₀) (p : P)
    (hun : ∀ w, (arrRef (cfgs p).spec w).isScoped = false) {c : Dev nD} (dat : Dat τ Val Ix Name U Lvl (cfgs p) c)
    (V V' : (b : Ref sig .tc) → Buf Val ((c.tc : Thread nD τ).loc b))
    (h : ∀ F : (w : Fin (cfgs p).W) → Buf Val (((cfgs p).spec w).arr.view.loc (c.tc : Thread nD τ)),
      (∀ w, F w = V' (arrRef (cfgs p).spec w)) → (arrBufs (cfgs p).spec c V' : sProp 𝕄) = dat.arrays F)
    (F : (w : Fin (cfgs p).W) → Buf Val (((cfgs p).spec w).arr.view.loc (c.tc : Thread nD τ)))
    (hF : ∀ w, F w = V' (arrRef (cfgs p).spec w))
    (hrest : ∀ b, b ∉ Finset.univ.image (arrRef (cfgs p).spec) → V' b = V b) :
    iprop(dat.arrays F ∗ unscopedRest (cfgs p).spec c V) ⊢ (unscopedBufs c V' : sProp 𝕄) := by
  rw [unscopedBufs_split₀ cfgs p hun c V', ← h F hF]
  refine sep_mono .rfl (Entails.of_eq ?_)
  unfold unscopedRest
  exact bigSep_congr fun b hb => by rw [hrest b (Finset.mem_sdiff.mp hb).2]

end Arrays

end SharedFibers

end
-- ==== Proof.BitsShared1.lean ====
/-
  The second pallas_call's arrays: two arrays, each handed to the kernel through two windows.

  The call has seven windows on five arrays: windows 0 and 1 sit on one array, windows 3 and 4 on another, and windows
  2, 5 and 6 each on an array of their own (5 and 6 are the outputs). The map from windows to the buffers behind their
  arrays therefore has the fibers {0, 1}, {2}, {3, 4}, {5}, {6}. The launch holds each of the five buffers whole at the
  full share; the pipeline's proof data hold one points-to per window. When the proof data hold windows 0 and 3 at the
  left half of the full share, windows 1 and 4 at the right half, and window 2 at the full share (an output window is
  held at the full share by definition), the two agree: on each shared buffer the full share splits into its two halves,
  and on each other buffer there is nothing to split.

  * `arrRef1_image`, `arrRef1_fiber_*`: the image and the fibers of the map from windows to buffers, by evaluation;
  * `arrays1`: the five buffers whole at the full share at contents `V` ARE the proof data's arrays at the contents
    read off `V`;
  * `arrays_of_unscopedBufs1`, `unscopedBufs_of_arrays1`: the forms a region's entry and exit use.

  Stated for proof data over any index, name, ghost and level types.
-/
import proofs.«147143_j19576460935202_2_alg».proof.Proof.Gen.Kernel.Launch
import proofs.«147143_j19576460935202_2_alg».proof.Proof.LibSharedFibers

noncomputable section

namespace Cert.Kernel.Hand

open Cert.Kernel Cert.Kernel.Gen
open Idealize.ShloMosaic Idealize.ShloMosaic.TcCoe
open Idealize.SL Idealize.SL.RA
open Idealize.SL.BI (sProp bigSep bigSep_insert bigSep_singleton)
open scoped Idealize.SL.BI
open Idealize.SL.BI.BIBase Idealize.SL.Sem

variable {F : FTy → Type} [FloatOps F]
variable {Ix : Type} [DecidableEq Ix] {Name : Type} [DecidableEq Name] {U : Type} [URA U] {Lvl : Type}

local notation "𝕄" => MT nD τ sig Ix (Elt F) Name U Lvl

/-! ## Which windows sit on which buffer -/

/-- The buffers behind the seven windows' arrays are five. -/
theorem arrRef1_image :
    Finset.univ.image (Pipeline.arrRef spec1) = {main_v0, main_v1, main_v2, main_v3_0, main_v3_1} := by decide

/-- Windows 0 and 1 sit on the first shared array; -/
theorem arrRef1_fiber_v0 : (Finset.univ.filter fun w : Fin 7 => Pipeline.arrRef spec1 w = main_v0) = {0, 1} := by decide
/-- window 2 on an array of its own; -/
theorem arrRef1_fiber_v1 : (Finset.univ.filter fun w : Fin 7 => Pipeline.arrRef spec1 w = main_v1) = {2} := by decide
/-- windows 3 and 4 on the second shared array; -/
theorem arrRef1_fiber_v2 : (Finset.univ.filter fun w : Fin 7 => Pipeline.arrRef spec1 w = main_v2) = {3, 4} := by decide
/-- and the output windows 5 and 6 each on an array of its own. -/
theorem arrRef1_fiber_v3_0 : (Finset.univ.filter fun w : Fin 7 => Pipeline.arrRef spec1 w = main_v3_0) = {5} := by decide
theorem arrRef1_fiber_v3_1 : (Finset.univ.filter fun w : Fin 7 => Pipeline.arrRef spec1 w = main_v3_1) = {6} := by decide

/-! ## The five buffers are the seven windows' arrays -/

/-- The five buffers behind the second call's arrays, each whole at the full share at contents `V`, ARE the proof data's
    arrays at the contents `G` read off `V`, when the proof data hold windows 0 and 3 at the left half of the full share,
    windows 1 and 4 at the right half and window 2 at the full share. -/
theorem arrays1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V : (b : Ref sig .tc) → Buf (Elt F) ((c.tc : Thread nD τ).loc b))
    (G : (w : Fin 7) → Buf (Elt F) ((spec1 w).arr.view.loc (c.tc : Thread nD τ)))
    (hG : ∀ w, G w = V (Pipeline.arrRef spec1 w)) :
    (Pipeline.arrBufs spec1 c V : sProp 𝕄) = dat.arrays G := by
  have s0 : dat.share 0 = fullShare.left := (if_neg (by decide)).trans h0
  have s1 : dat.share 1 = fullShare.right := (if_neg (by decide)).trans h1
  have s2 : dat.share 2 = fullShare := (if_neg (by decide)).trans h2
  have s3 : dat.share 3 = fullShare.left := (if_neg (by decide)).trans h3
  have s4 : dat.share 4 = fullShare.right := (if_neg (by decide)).trans h4
  have s5 : dat.share 5 = fullShare := if_pos (by decide)
  have s6 : dat.share 6 = fullShare := if_pos (by decide)
  refine SharedFibers.arrays_of_fibers dat arr_whole1 V G hG fun b hb => ?_
  rw [arrRef1_image] at hb
  simp only [Finset.mem_insert, Finset.mem_singleton] at hb
  rcases hb with rfl | rfl | rfl | rfl | rfl
  · rw [arrRef1_fiber_v0, bigSep_insert (by decide), bigSep_singleton, s0, s1]
    exact SharedFibers.split_halves _ _
  · rw [arrRef1_fiber_v1, bigSep_singleton, s2]
  · rw [arrRef1_fiber_v2, bigSep_insert (by decide), bigSep_singleton, s3, s4]
    exact SharedFibers.split_halves _ _
  · rw [arrRef1_fiber_v3_0, bigSep_singleton, s5]
  · rw [arrRef1_fiber_v3_1, bigSep_singleton, s6]

/-! ## A region's entry and exit -/

/-- ENTRY. A core's unscoped buffers at contents `V` are the second call's arrays at the proof data's entry contents —
    those being read off `V` (`hA`) — and the unscoped rest. -/
theorem arrays_of_unscopedBufs1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V : (b : Ref sig .tc) → Buf (Elt F) ((c.tc : Thread nD τ).loc b))
    (hA : ∀ w, dat.A w = V (Pipeline.arrRef spec1 w)) :
    (unscopedBufs c V : sProp 𝕄) ⊢ iprop(dat.arrays (dat.arrAt · 0) ∗ Pipeline.unscopedRest spec1 c V) :=
  SharedFibers.arrays_of_unscopedBufs_of_eq (fun _ : Unit => cfg1) () winFacts₀1.arr_unscoped dat V
    (fun G hG => arrays1 dat h0 h1 h2 h3 h4 V G hG) hA

/-- EXIT. The second call's arrays at contents `G` and the unscoped rest at `V` are the core's unscoped buffers at any
    valuation `V'` that has the arrays at `G` (`hG`) and agrees with `V` off the five buffers (`hrest`). -/
theorem unscopedBufs_of_arrays1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V V' : (b : Ref sig .tc) → Buf (Elt F) ((c.tc : Thread nD τ).loc b))
    (G : (w : Fin 7) → Buf (Elt F) ((spec1 w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) :=
  SharedFibers.unscopedBufs_of_arrays_of_eq (fun _ : Unit => cfg1) () winFacts₀1.arr_unscoped dat V V'
    (fun G hG => arrays1 dat h0 h1 h2 h3 h4 V' G hG) G hG hrest

end Cert.Kernel.Hand

end
-- ==== Proof.BitsFrame.lean ====
/- The run of the kernel program, assembled from its four items.

   @main is a kernel region (the pairwise squared distances), two reshapes of the labels, a second kernel
   region (the triplet sums) and a division followed by a reshape. Written here, generic in the float
   instance: the contents of a core's buffers at each boundary between two items, as a fold from the launch
   memory; the two regions as segments over the thread state "every unscoped buffer whole at the boundary's
   contents, the generator register at some state, nothing owed"; the two host stretches as segments; and the
   run: every weakly fair execution terminates, the result buffer ends at the last boundary's contents and the
   two arguments end as launched. -/
import proofs.«147143_j19576460935202_2_alg».proof.Proof.BitsRegion0
import proofs.«147143_j19576460935202_2_alg».proof.Proof.BitsRegion1
import proofs.«147143_j19576460935202_2_alg».proof.Proof.BitsShared1
import proofs.«147143_j19576460935202_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch: the first region is entered from them. -/
abbrev B0 : Dev nD → Valuation τ sig (Elt F) := fun c b => (s₀ m ρ).mem ((c : Dev nD), b)
/-- The same read at the TensorCore's references: the first region's entry contents. -/
abbrev E0 : (c : Dev nD) → (b : Ref sig .tc) → Buf (Elt F) ((c : Thread nD τ).loc b) := fun c b => B0 m ρ c b

/-- At the first region's exit: its two arrays at what the pipeline leaves (the input as entered, the output's
    write-backs folded), every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references: the first region's exit contents. -/
abbrev X1 : (c : Dev nD) → (b : Ref sig .tc) → Buf (Elt F) ((c : Thread nD τ).loc b) := fun c b => B1 m ρ c b
/-- At the first region's exit each of its arrays holds what the pipeline leaves, -/
theorem hG0 (c : Dev nD) (w : Fin cfg0.W) : (dat0 (E0 m ρ) c).arrAt w cfg0.N = X1 m ρ c (Pipeline.arrRef spec0 w) :=
  (B1_arr m ρ c w).symm
/-- and every other buffer what it held at entry. -/
theorem hrest0 (c : Dev nD) : ∀ b, b ∉ Finset.univ.image (Pipeline.arrRef spec0) → X1 m ρ c b = E0 m ρ c b :=
  fun b hb => B1_of_ne m ρ c b fun w e => hb (Finset.mem_image.mpr ⟨w, Finset.mem_univ _, e⟩)

/-- After the two reshapes of the labels: the second region is entered from them. -/
abbrev B2 : Dev nD → Valuation τ sig (Elt F) := fun c => StableHlo.after hostOps1 (B1 m ρ c)
/-- The same read at the TensorCore's references: the second region's entry contents. -/
abbrev E1 : (c : Dev nD) → (b : Ref sig .tc) → Buf (Elt F) ((c : Thread nD τ).loc b) := fun c b => B2 m ρ c b

/-- At the second region's exit: its two output arrays at what the pipeline leaves, every other buffer as
    entered. (Two of its arrays are each read through two windows, so the exit contents are written buffer by
    buffer, not window by window.) -/
def B3 (c : Dev nD) : Valuation τ sig (Elt F) :=
  Function.update (Function.update (B2 m ρ c) (Proc.devRef .tc main_v3_0) ((dat1 (E1 m ρ) c).arrAt 5 cfg1.N))
    (Proc.devRef .tc main_v3_1) ((dat1 (E1 m ρ) c).arrAt 6 cfg1.N)
/-- The same read at the TensorCore's references: the second region's exit contents. -/
abbrev X3 : (c : Dev nD) → (b : Ref sig .tc) → Buf (Elt F) ((c : Thread nD τ).loc b) := fun c b => B3 m ρ c b

/-- A buffer that is neither of the second region's outputs is at its exit as at its entry. -/
theorem B3_of_ne (c : Dev nD) (b : Ref sig .tc) (h0 : b ≠ main_v3_0) (h1 : b ≠ main_v3_1) :
    B3 m ρ c (Proc.devRef .tc b) = B2 m ρ c (Proc.devRef .tc b) := by
  unfold B3
  rw [Function.update_of_ne (StableHlo.devRef_ne_of_ne h1), Function.update_of_ne (StableHlo.devRef_ne_of_ne h0)]

/-- At the second region's exit each window's array holds what the pipeline leaves: an output its folded
    write-backs, an input its entry contents, -/
theorem hG1 (c : Dev nD) (w : Fin cfg1.W) : (dat1 (E1 m ρ) c).arrAt w cfg1.N = X3 m ρ c (Pipeline.arrRef spec1 w) := by
  match w with
  | ⟨0, _⟩ => exact (((dat1 (E1 m ρ) c).arrAt_in 0 rfl _).trans (A_eq1 (E1 m ρ) c 0)).trans (B3_of_ne m ρ c _ (by decide) (by decide)).symm
  | ⟨1, _⟩ => exact (((dat1 (E1 m ρ) c).arrAt_in 1 rfl _).trans (A_eq1 (E1 m ρ) c 1)).trans (B3_of_ne m ρ c _ (by decide) (by decide)).symm
  | ⟨2, _⟩ => exact (((dat1 (E1 m ρ) c).arrAt_in 2 rfl _).trans (A_eq1 (E1 m ρ) c 2)).trans (B3_of_ne m ρ c _ (by decide) (by decide)).symm
  | ⟨3, _⟩ => exact (((dat1 (E1 m ρ) c).arrAt_in 3 rfl _).trans (A_eq1 (E1 m ρ) c 3)).trans (B3_of_ne m ρ c _ (by decide) (by decide)).symm
  | ⟨4, _⟩ => exact (((dat1 (E1 m ρ) c).arrAt_in 4 rfl _).trans (A_eq1 (E1 m ρ) c 4)).trans (B3_of_ne m ρ c _ (by decide) (by decide)).symm
  | ⟨5, _⟩ =>
    show _ = B3 m ρ c (Proc.devRef .tc main_v3_0)
    unfold B3
    rw [Function.update_of_ne (StableHlo.devRef_ne_of_ne (by decide)), Function.update_self]
    rfl
  | ⟨6, _⟩ =>
    show _ = B3 m ρ c (Proc.devRef .tc main_v3_1)
    unfold B3
    rw [Function.update_self]
    rfl
/-- and every buffer behind none of its windows what it held at entry. -/
theorem hrest1 (c : Dev nD) : ∀ b, b ∉ Finset.univ.image (Pipeline.arrRef spec1) → X3 m ρ c b = E1 m ρ c b :=
  fun b hb => B3_of_ne m ρ c b
    (fun e => hb (Finset.mem_image.mpr ⟨5, Finset.mem_univ _, e.symm⟩))
    (fun e => hb (Finset.mem_image.mpr ⟨6, Finset.mem_univ _, e.symm⟩))

/-- After the division and the reshape of its quotient: what the launch reads at the end. -/
abbrev B4 : Dev nD → Valuation τ sig (Elt F) := fun c => StableHlo.after hostOps2 (B3 m ρ c)

/-! ### The arguments end as launched

No host operation writes an argument and no region changes one: the first region reads the embeddings through
an input window and never sees the labels; the second region sees neither. -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 _ hostOps2_writes (by decide)
    _ = B2 m ρ c (Proc.devRef .tc main_arg0) := B3_of_ne m ρ c main_arg0 (by decide) (by decide)
    _ = B1 m ρ c (Proc.devRef .tc main_arg0) := StableHlo.after_of_writes_sub hostOps1 _ hostOps1_writes (by decide)
    _ = B0 m ρ c (Proc.devRef .tc main_arg0) :=
          (B1_arr m ρ c 0).trans (((dat0 (E0 m ρ) c).arrAt_in 0 rfl _).trans (A_eq0 (E0 m ρ) c 0))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 _ hostOps2_writes (by decide)
    _ = B2 m ρ c (Proc.devRef .tc main_arg1) := B3_of_ne m ρ c main_arg1 (by decide) (by decide)
    _ = B1 m ρ c (Proc.devRef .tc main_arg1) := StableHlo.after_of_writes_sub hostOps1 _ hostOps1_writes (by decide)
    _ = B0 m ρ c (Proc.devRef .tc main_arg1) := B1_of_ne m ρ c main_arg1 (by decide)
    _ = m ((c : Thread nD τ).loc main_arg1) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what
    it owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding
    along: it leaves those references at the operations' results over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- THE FIRST REGION over the thread state: entered from every unscoped buffer at `B0`, left at `B1`. Its two
    arrays are split out of the unscoped buffers at entry and put back at their exit contents; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X1 m ρ c) ((pdats m ρ 0 c).arrAt · cfg0.N) (hG0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `B2`, left at `B3`. Two of
    its five arrays are each read through two windows, which hold the array at the two halves of the full
    share: the arrays are split out of the unscoped buffers, and put back, buffer by buffer. The generator
    register and the scoped buffers go into the invariant, which carries the two accumulators from point to
    point, and come back after the last point; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := arrays_of_unscopedBufs1 (pdats m ρ 1 c) rfl rfl rfl rfl rfl (E1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (E1 m ρ) c) ?_
    unfold Pipeline.ΦA
    iintro ⟨Hr, Hp⟩
    isplitl [Hp]; · iexact Hp
    isplitr; · iempintro
    iexact Hr
  hexit c := by
    have hjoin := unscopedBufs_of_arrays1 (pdats m ρ 1 c) rfl rfl rfl rfl rfl
      (E1 m ρ c) (X3 m ρ c) ((pdats m ρ 1 c).arrAt · cfg1.N) (hG1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: a region per kernel call, a host segment per stretch from its boundary's
    contents. -/
abbrev runSegs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)) ]
/-- @main is the run of the segments. -/
theorem main_run (c : Dev nD) : main (F := F) c = Pipeline.Seg.run (runSegs m ρ) := (main_chain c).trans (by chain_rfl)

set_option backward.isDefEq.respectTransparency.types false in
/-- THE RUN WITH THE RESULT: at the compiled mesh, from any memory with zero counters, every weakly fair execution
    of @main on the TensorCores terminates, nothing faulting, and every final state has the result buffer at the
    last boundary's contents and the two argument arrays as launched. -/
theorem run_value : θ_run defs (onTc (τ := τ) (main (F := F))) ⟨m, fun _ => 0, ρ⟩ (fun r => ∀ c : Dev nD,
      r.2.mem ((c.tc : Thread nD τ).loc main_v5) = B4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (B4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨h c _ (mem_uc main_v5 (by decide)),
        (h c _ (mem_uc main_arg0 (by decide))).trans (B4_main_arg0 m ρ c),
        (h c _ (mem_uc main_arg1 (by decide))).trans (B4_main_arg1 m ρ c)⟩)

/-- THE FRAME: the same run, read for the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Hand

end
-- ==== Proof.IdealRegion0.lean ====
/- The first TensorCore region of the idealized kernel program: the pairwise squared distances.

   The region is a one-point pipeline over two windows, each the whole of its array: window 0 the
   [512,128] input, window 1 the [512,512] output. Stated at a parameter `V`, the contents of the
   TensorCore's buffers when the region is entered, and generic in the float instance `F`:
   each window's block at a point, what the body leaves in the output window's buffer as a function of the
   input block, the body's triple, the pipeline's proof data and the body obligation at every point. -/
import proofs.«147143_j19576460935202_2_alg».proof.Proof.Gen.KernelIdeal.Launch
import proofs.«147143_j19576460935202_2_alg».proof.Proof.Gen.KernelIdeal.Skeleton
import proofs.«147143_j19576460935202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 512: the structural look recurses once per coordinate of an axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the window's block at every point, for any proof data whose
    input array is the entry contents and whose body leaves the input block where it was: the window is an
    input, never idle, and its block index never moves without a fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: both are whole blocks -/

/-- The rectangle of the one load of the input block: all of [512,128]. -/
abbrev r0_in : Rect S512x128 := Rect.unit (s := S512x128) ![0, 0] S512x128.size inb_S512x128_S512x128_0_0

/-- The rectangle of the one store (and of the unused load before it) of the output block: all of [512,512]. -/
abbrev r0_out : Rect S512x512 := Rect.unit (s := S512x512) ![0, 0] S512x512.size inb_S512x512_S512x512_0_0

/-! ## What the body leaves in the output window's buffer -/

/-- The output window's staging buffer after the body, from the input block `x0`: the one store's piece,
    whose payload is the clamped distance matrix of what the load read of `x0`. -/
def out0_1 (x0 : Vec F S512x128 .f32) : Vec F S512x512 .f32 :=
  View.canon [⟨r0_out, k0_pay1 (View.ld x0 r0_in)⟩]

/-- The one store's rectangle is the whole buffer, so it covers every index. -/
theorem cover0_1 (p0 : Vec F S512x512 .f32) (y : S512x512.Idx) :
    ∃ pc ∈ ([⟨r0_out, p0⟩] : List (View.Piece (Elt F) S512x512 .f32)), y ∈ pc.1.set :=
  View.cover_of_tiled [⟨r0_out, p0⟩] S512x512.size (by rfl) y

/-! ## The body's triple -/

set_option maxHeartbeats 1000000 in
/-- The kernel body at any grid coordinate, on whole staging memrefs, the input's at contents `x0` and the
    output's at anything, runs to the continuation holding the input's as it was and the output's at
    `out0_1 x0`. The load of the output block before the store reads whatever the buffer held and its value
    is used by nothing; the store then overwrites the whole buffer. -/
theorem sound_kernel0 (c : Dev nD) (E : Set ℕ) (i : grid0.Coords)
    (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point
    `t` the input's buffer at its block and the output's at `out0_1` of the input block; the invariant the
    untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1Runs.lean ====
/-
  The second pallas_call (the triplet sums), what its three control cases share.

  The grid has 64 × 4 = 256 points in row-major order. The body zeroes its two one-element accumulators at the
  first point, adds the point's block totals to them at every point, and copies them to the two output blocks at
  the last point. Hence three cases: the first point (A), the points strictly between (B), the last point (C).
  Stated here: a window's block at a point as read off the array the region finds; that an input window's staging
  buffer holds that block at every point; the two conditions in closed form over the grid; where the output
  windows are idle; the staging and accumulator memrefs by name; the region's invariant with the accumulators
  spelled as owned memrefs.
-/
import proofs.«147143_j19576460935202_2_alg».proof.Proof.Gen.KernelIdeal.Launch
import proofs.«147143_j19576460935202_2_alg».proof.Proof.Gen.KernelIdeal.Skeleton
import proofs.«147143_j19576460935202_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the region's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": both grid coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

/-- "This is the last point": the coordinates are (63, 3). -/
abbrev cond1_1 (i : grid1.Coords) : Prop := k1_cond2 i = 1#1
theorem hcond1_1 : ∀ t : Fin cfg1.N, cond1_1 (grid1.coords t) ↔ t.val % 256 = 255 :=
  (by decide +kernel : ∀ t : Fin grid1.N, cond1_1 (grid1.coords t) ↔ t.val % 256 = 255)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last point the body stores nothing into the output windows, and the pipeline does not write them back. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
/-- At the last point they are live. -/
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The memrefs the body is called with -/

abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
abbrev ms1_0 (t : Fin cfg1.N) : Memref sig .tc .vmem S8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

/-- The first pallas_call's two staging buffers, which this region never touches, each whole at some contents. -/
abbrev otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant before the first point, with the accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.IdealRegion1RunB.lean ====
/-
  The triplet-sum body at a point strictly between the first and the last (case B): neither condition holds. The
  body reads its five input blocks and the two accumulators, and stores each accumulator once (old value plus the
  point's block total); the output blocks are not touched.
-/
import proofs.«147143_j19576460935202_2_alg».proof.Proof.IdealRegion1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B's run: on whole memrefs, the inputs at their contents, the two outputs at contents handed back untouched,
    the accumulators at what the point before left, the body runs to the continuation holding the inputs as they
    were and each accumulator with its pieces written. -/
noncomputable def kernelRun1_B (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.KernelIdeal.Hand

end
-- ==== Proof.IdealRegion1RunA.lean ====
/-
  The triplet-sum body at the first point (case A): the accumulators are zeroed, then the point's block totals are
  added; what the accumulators held before does not matter. The output blocks are not touched.
-/
import proofs.«147143_j19576460935202_2_alg».proof.Proof.IdealRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A's run: the accumulators at anything; the body leaves each with its pieces written (the zero, then zero plus
    the block total). -/
noncomputable def kernelRun1_A (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (x0 : Vec F S8x512 .f32) (x1 : Vec F S8x128 .f32) (x2 : Vec F S8x1 .i32) (x3 : Vec F S1x512 .i32) (x4 : Vec F S1x128 .i32) :
    Σ' (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.KernelIdeal.Hand

end
-- ==== Proof.IdealRegion1RunC.lean ====
/-
  The triplet-sum body at the last point (case C): the point's block totals are added to the accumulators, and the
  accumulators are then copied to the two output blocks.
-/
import proofs.«147143_j19576460935202_2_alg».proof.Proof.IdealRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C's run: the accumulators at what the point before left, the outputs at anything; the body leaves the
    accumulators and the outputs each with its pieces written. -/
noncomputable def kernelRun1_C (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    Σ' (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__triplet_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexists _; iexact HS0
    iexists _; iexact HS1

end Cert.KernelIdeal.Hand

end
-- ==== Proof.IdealRegion1.lean ====
/-
  The second pallas_call (the triplet sums): what its accumulators and output blocks hold point by point, the
  pipeline's proof data, and the body obligation.

  After point n the two accumulators hold the running totals of the block sums over the points 0..n (the first point
  starts them from zero); the two output blocks are written once, at the last point, with the accumulators' final
  values. The region's invariant carries the accumulators at those named contents from one point to the next.
  Windows 0 and 1 read one array and windows 3 and 4 another: the proof data hold each pair at the two halves of the
  full share.
-/
import proofs.«147143_j19576460935202_2_alg».proof.Proof.IdealRegion1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulators and the outputs -/

theorem scover1_A_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) (y : S1x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1x1.size (by sl_kernel_rfl) y
theorem scover1_A_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) (y : S1x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1x1.size (by sl_kernel_rfl) y
/-- What the first point leaves in the two accumulators. -/
def sout1_A_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) : Vec F S1x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
def sout1_A_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i) (x0 : Vec F S8x512 .f32) (x1 : Vec F S8x128 .f32) (x2 : Vec F S8x1 .i32) (x3 : Vec F S1x512 .i32) (x4 : Vec F S1x128 .i32) : Vec F S1x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)

theorem scover1_B_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).1 S1x1.size (by sl_kernel_rfl) y
theorem scover1_B_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.1 S1x1.size (by sl_kernel_rfl) y
/-- What a middle point leaves in the two accumulators, from what the point before left. -/
def sout1_B_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1).1)
def sout1_B_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1).2.1)

theorem cover1_C_5 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).1 S1x1.size (by sl_kernel_rfl) y
theorem cover1_C_6 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.1 S1x1.size (by sl_kernel_rfl) y
theorem scover1_C_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.1 S1x1.size (by sl_kernel_rfl) y
theorem scover1_C_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.2.1 S1x1.size (by sl_kernel_rfl) y
/-- What the last point leaves in the two output blocks and in the two accumulators. -/
def out1_C_5 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1).1)
def out1_C_6 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 xs0 xs1).2.1)
def sout1_C_0 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1).2.2.1)
def sout1_C_1 (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i) (x0 : Vec F S8x512 .f32) (x1 : Vec F S8x128 .f32) (x2 : Vec F S8x1 .i32) (x3 : Vec F S1x512 .i32) (x4 : Vec F S1x128 .i32) (xs0 xs1 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1).2.2.2.1)

/-- A placeholder for an output block at a point that neither stores into it nor writes it back: nothing reads it. -/
def idleOut : Vec F S1x1 .f32 := VO1_5.read (Elt F) VO1_5.junk

/-! ## The accumulation, point by point -/

theorem lt256 {n : ℕ} (hn : n < cfg1.N) : n < 256 := lt_of_lt_of_eq hn (show cfg1.N = 256 from N_1)
theorem ncond0_succ {n : ℕ} (hn : n + 1 < cfg1.N) : ¬cond1_0 (grid1.coords ⟨n + 1, hn⟩) :=
  fun h => absurd ((hcond1_0 ⟨n + 1, hn⟩).mp h) (by have := lt256 hn; show ¬(n + 1) % 256 = 0; omega)
theorem ncond1_zero (hn : 0 < cfg1.N) : ¬cond1_1 (grid1.coords ⟨0, hn⟩) :=
  fun h => absurd ((hcond1_1 ⟨0, hn⟩).mp h) (show ¬(0 % 256 = 255) by decide)

/-- After point n: ((output 5, output 6), (accumulator 0, accumulator 1)). -/
def outsAt1 (c : Dev nD) : (n : ℕ) → n < cfg1.N → (Vec F S1x1 .f32 × Vec F S1x1 .f32) × (Vec F S1x1 .f32 × Vec F S1x1 .f32)
  | 0, hn => ((idleOut, idleOut),
      (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩) (iblk1 V c 4 ⟨0, hn⟩),
       sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩) (iblk1 V c 4 ⟨0, hn⟩)))
  | n + 1, hn =>
    if h1 : (n + 1) % 256 = 255 then
      ((out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2))
    else
      ((idleOut, idleOut),
       (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (ncond0_succ hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2))

/-- At the first point: the zeroed accumulators plus the block totals. -/
theorem outsAt1_A (c : Dev nD) (t : Fin cfg1.N) (h0 : t.val % 256 = 0) (h1 : ¬t.val % 256 = 255) :
    outsAt1 V c t.val t.isLt = ((idleOut, idleOut),
      (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
       sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))) := by
  obtain ⟨n, hn⟩ := t
  cases n with
  | zero => exact rfl
  | succ n => exact (by exfalso; have := lt256 hn; (try dsimp only at h0); omega)

/-- At a middle point: what the point before left plus the block totals. -/
theorem outsAt1_B (c : Dev nD) (t : Fin cfg1.N) (h0 : ¬t.val % 256 = 0) (h1 : ¬t.val % 256 = 255) :
    outsAt1 V c t.val t.isLt = ((idleOut, idleOut),
      (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
       sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h1).trans rfl

/-- At the last point: the same, and the outputs take the accumulators' final values. -/
theorem outsAt1_C (c : Dev nD) (t : Fin cfg1.N) (h0 : ¬t.val % 256 = 0) (h1 : t.val % 256 = 255) :
    outsAt1 V c t.val t.isLt =
      ((out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2),
       (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_pos h1).trans rfl

/-! ## The region's invariant -/

/-- Before position n: before the first point every scoped buffer no window stages is at anything; afterwards the two
    accumulators are at what the point before left. The generator register rides along. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The arrays as the region finds them; after the body at a point each input's buffer at its block and the outputs' at
    the accumulation's components; the invariant above; nothing owed; the two shared arrays split between their two
    windows at the halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1.1
    | ⟨6, _⟩ => (outsAt1 V c t.val t.isLt).1.2
  Φ t := PhiS1 V c t.val (Nat.le_of_lt_succ t.isLt)
  q w := match w with
    | ⟨0, _⟩ => fullShare.left
    | ⟨1, _⟩ => fullShare.right
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1.1 := by dsimp only [dat1]
theorem after1_6 (c : Dev nD) (t : Fin cfg1.N) : (dat1 V c).after 6 t = (outsAt1 V c t.val t.isLt).1.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the closed forms say which case the point is in; the
    invariant hands the body the accumulators at what the point before left (at anything at the first point) and takes
    them back at this point's contents; off the last point the output buffers go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt256 t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 256 = 0
  · have h1 : ¬t.val % 256 = 255 := by omega
    have hc1 : ¬cond1_1 (grid1.coords t) := fun h => h1 ((hcond1_1 t).mp h)
    have hz : t.val = 0 := by omega
    rw [Dat.leavesExact_idle (dat1 V c) 5 t (idleAt1_5 t hc1) (noFlush1_5 t hc1),
      Dat.leavesExact_idle (dat1 V c) 6 t (idleAt1_6 t hc1) (noFlush1_6 t hc1)]
    rw [outsAt1_A V c t h0 h1]
    unfold sout1_A_0 sout1_A_1; (try dsimp only)
    rw [PhiS1_castSucc V c t, PhiS1_zero V c _ _ hz, PhiA1_eq]
    iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [R0 R1 HS0 HS1 Hg]
    · isplitl [R0 R1 HS0 HS1]
      · isplitl [R0]; · iexact R0
        isplitl [R1]; · iexact R1
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 256 = 255
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_5 out1_C_6 sout1_C_0 sout1_C_1; (try dsimp only)
      rw [PhiS1_castSucc V c t, PhiS1_pos V c _ _ hz]
      iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [R0 R1 HS0 HS1 Hg]
      · isplitl [R0 R1 HS0 HS1]
        · isplitl [R0]; · iexact R0
          isplitl [R1]; · iexact R1
          isplitl [HS0]
          · unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
          · unfold owns; iexists _; isplitr
            swap; · iexact HS1
            ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
      · unfold owns; iexists _; isplitr
        swap; · iexact H6
        ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
    · have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [outsAt1_B V c t h0 h1]
      unfold sout1_B_0 sout1_B_1; (try dsimp only)
      rw [PhiS1_castSucc V c t, PhiS1_pos V c _ _ hz]
      iintro ⟨⟨⟨R0, R1, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 HS0 HS1 Hg]
      · isplitl [R0 R1 HS0 HS1]
        · isplitl [R0]; · iexact R0
          isplitl [R1]; · iexact R1
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped buffers back, the accumulators' named contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, HS0, HS1⟩, Hg⟩
  isplitl [R0 R1 HS0 HS1]
  · isplitl [R0]; · iexact R0
    isplitl [R1]; · iexact R1
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.IdealShared1.lean ====
/-
  The second pallas_call's arrays: two arrays, each handed to the kernel through two windows.

  The call has seven windows on five arrays: windows 0 and 1 sit on one array, windows 3 and 4 on another, and windows
  2, 5 and 6 each on an array of their own (5 and 6 are the outputs). The map from windows to the buffers behind their
  arrays therefore has the fibers {0, 1}, {2}, {3, 4}, {5}, {6}. The launch holds each of the five buffers whole at the
  full share; the pipeline's proof data hold one points-to per window. When the proof data hold windows 0 and 3 at the
  left half of the full share, windows 1 and 4 at the right half, and window 2 at the full share (an output window is
  held at the full share by definition), the two agree: on each shared buffer the full share splits into its two halves,
  and on each other buffer there is nothing to split.

  * `arrRef1_image`, `arrRef1_fiber_*`: the image and the fibers of the map from windows to buffers, by evaluation;
  * `arrays1`: the five buffers whole at the full share at contents `V` ARE the proof data's arrays at the contents
    read off `V`;
  * `arrays_of_unscopedBufs1`, `unscopedBufs_of_arrays1`: the forms a region's entry and exit use.

  Stated for proof data over any index, name, ghost and level types.
-/
import proofs.«147143_j19576460935202_2_alg».proof.Proof.Gen.KernelIdeal.Launch
import proofs.«147143_j19576460935202_2_alg».proof.Proof.LibSharedFibers

noncomputable section

namespace Cert.KernelIdeal.Hand

open Cert.KernelIdeal Cert.KernelIdeal.Gen
open Idealize.ShloMosaic Idealize.ShloMosaic.TcCoe
open Idealize.SL Idealize.SL.RA
open Idealize.SL.BI (sProp bigSep bigSep_insert bigSep_singleton)
open scoped Idealize.SL.BI
open Idealize.SL.BI.BIBase Idealize.SL.Sem

variable {F : FTy → Type} [FloatOps F]
variable {Ix : Type} [DecidableEq Ix] {Name : Type} [DecidableEq Name] {U : Type} [URA U] {Lvl : Type}

local notation "𝕄" => MT nD τ sig Ix (Elt F) Name U Lvl

/-! ## Which windows sit on which buffer -/

/-- The buffers behind the seven windows' arrays are five. -/
theorem arrRef1_image :
    Finset.univ.image (Pipeline.arrRef spec1) = {main_v0, main_v1, main_v2, main_v3_0, main_v3_1} := by decide

/-- Windows 0 and 1 sit on the first shared array; -/
theorem arrRef1_fiber_v0 : (Finset.univ.filter fun w : Fin 7 => Pipeline.arrRef spec1 w = main_v0) = {0, 1} := by decide
/-- window 2 on an array of its own; -/
theorem arrRef1_fiber_v1 : (Finset.univ.filter fun w : Fin 7 => Pipeline.arrRef spec1 w = main_v1) = {2} := by decide
/-- windows 3 and 4 on the second shared array; -/
theorem arrRef1_fiber_v2 : (Finset.univ.filter fun w : Fin 7 => Pipeline.arrRef spec1 w = main_v2) = {3, 4} := by decide
/-- and the output windows 5 and 6 each on an array of its own. -/
theorem arrRef1_fiber_v3_0 : (Finset.univ.filter fun w : Fin 7 => Pipeline.arrRef spec1 w = main_v3_0) = {5} := by decide
theorem arrRef1_fiber_v3_1 : (Finset.univ.filter fun w : Fin 7 => Pipeline.arrRef spec1 w = main_v3_1) = {6} := by decide

/-! ## The five buffers are the seven windows' arrays -/

/-- The five buffers behind the second call's arrays, each whole at the full share at contents `V`, ARE the proof data's
    arrays at the contents `G` read off `V`, when the proof data hold windows 0 and 3 at the left half of the full share,
    windows 1 and 4 at the right half and window 2 at the full share. -/
theorem arrays1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V : (b : Ref sig .tc) → Buf (Elt F) ((c.tc : Thread nD τ).loc b))
    (G : (w : Fin 7) → Buf (Elt F) ((spec1 w).arr.view.loc (c.tc : Thread nD τ)))
    (hG : ∀ w, G w = V (Pipeline.arrRef spec1 w)) :
    (Pipeline.arrBufs spec1 c V : sProp 𝕄) = dat.arrays G := by
  have s0 : dat.share 0 = fullShare.left := (if_neg (by decide)).trans h0
  have s1 : dat.share 1 = fullShare.right := (if_neg (by decide)).trans h1
  have s2 : dat.share 2 = fullShare := (if_neg (by decide)).trans h2
  have s3 : dat.share 3 = fullShare.left := (if_neg (by decide)).trans h3
  have s4 : dat.share 4 = fullShare.right := (if_neg (by decide)).trans h4
  have s5 : dat.share 5 = fullShare := if_pos (by decide)
  have s6 : dat.share 6 = fullShare := if_pos (by decide)
  refine SharedFibers.arrays_of_fibers dat arr_whole1 V G hG fun b hb => ?_
  rw [arrRef1_image] at hb
  simp only [Finset.mem_insert, Finset.mem_singleton] at hb
  rcases hb with rfl | rfl | rfl | rfl | rfl
  · rw [arrRef1_fiber_v0, bigSep_insert (by decide), bigSep_singleton, s0, s1]
    exact SharedFibers.split_halves _ _
  · rw [arrRef1_fiber_v1, bigSep_singleton, s2]
  · rw [arrRef1_fiber_v2, bigSep_insert (by decide), bigSep_singleton, s3, s4]
    exact SharedFibers.split_halves _ _
  · rw [arrRef1_fiber_v3_0, bigSep_singleton, s5]
  · rw [arrRef1_fiber_v3_1, bigSep_singleton, s6]

/-! ## A region's entry and exit -/

/-- ENTRY. A core's unscoped buffers at contents `V` are the second call's arrays at the proof data's entry contents —
    those being read off `V` (`hA`) — and the unscoped rest. -/
theorem arrays_of_unscopedBufs1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V : (b : Ref sig .tc) → Buf (Elt F) ((c.tc : Thread nD τ).loc b))
    (hA : ∀ w, dat.A w = V (Pipeline.arrRef spec1 w)) :
    (unscopedBufs c V : sProp 𝕄) ⊢ iprop(dat.arrays (dat.arrAt · 0) ∗ Pipeline.unscopedRest spec1 c V) :=
  SharedFibers.arrays_of_unscopedBufs_of_eq (fun _ : Unit => cfg1) () winFacts₀1.arr_unscoped dat V
    (fun G hG => arrays1 dat h0 h1 h2 h3 h4 V G hG) hA

/-- EXIT. The second call's arrays at contents `G` and the unscoped rest at `V` are the core's unscoped buffers at any
    valuation `V'` that has the arrays at `G` (`hG`) and agrees with `V` off the five buffers (`hrest`). -/
theorem unscopedBufs_of_arrays1 {c : Dev nD} (dat : Pipeline.Dat τ (Elt F) Ix Name U Lvl cfg1 c)
    (h0 : dat.q 0 = fullShare.left) (h1 : dat.q 1 = fullShare.right) (h2 : dat.q 2 = fullShare)
    (h3 : dat.q 3 = fullShare.left) (h4 : dat.q 4 = fullShare.right)
    (V V' : (b : Ref sig .tc) → Buf (Elt F) ((c.tc : Thread nD τ).loc b))
    (G : (w : Fin 7) → Buf (Elt F) ((spec1 w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) :=
  SharedFibers.unscopedBufs_of_arrays_of_eq (fun _ : Unit => cfg1) () winFacts₀1.arr_unscoped dat V V'
    (fun G hG => arrays1 dat h0 h1 h2 h3 h4 V' G hG) G hG hrest

end Cert.KernelIdeal.Hand

end
-- ==== Proof.IdealFrame.lean ====
/- The run of the idealized kernel program, assembled from its four items.

   @main is a kernel region (the pairwise squared distances), two reshapes of the labels, a second kernel
   region (the triplet sums) and a division followed by a reshape. Written here, generic in the float
   instance: the contents of a core's buffers at each boundary between two items, as a fold from the launch
   memory; the two regions as segments over the thread state "every unscoped buffer whole at the boundary's
   contents, the generator register at some state, nothing owed"; the two host stretches as segments; and the
   run: every weakly fair execution terminates, the result buffer ends at the last boundary's contents and the
   two arguments end as launched. -/
import proofs.«147143_j19576460935202_2_alg».proof.Proof.IdealRegion0
import proofs.«147143_j19576460935202_2_alg».proof.Proof.IdealRegion1
import proofs.«147143_j19576460935202_2_alg».proof.Proof.IdealShared1
import proofs.«147143_j19576460935202_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch: the first region is entered from them. -/
abbrev B0 : Dev nD → Valuation τ sig (Elt F) := fun c b => (s₀ m ρ).mem ((c : Dev nD), b)
/-- The same read at the TensorCore's references: the first region's entry contents. -/
abbrev E0 : (c : Dev nD) → (b : Ref sig .tc) → Buf (Elt F) ((c : Thread nD τ).loc b) := fun c b => B0 m ρ c b

/-- At the first region's exit: its two arrays at what the pipeline leaves (the input as entered, the output's
    write-backs folded), every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references: the first region's exit contents. -/
abbrev X1 : (c : Dev nD) → (b : Ref sig .tc) → Buf (Elt F) ((c : Thread nD τ).loc b) := fun c b => B1 m ρ c b
/-- At the first region's exit each of its arrays holds what the pipeline leaves, -/
theorem hG0 (c : Dev nD) (w : Fin cfg0.W) : (dat0 (E0 m ρ) c).arrAt w cfg0.N = X1 m ρ c (Pipeline.arrRef spec0 w) :=
  (B1_arr m ρ c w).symm
/-- and every other buffer what it held at entry. -/
theorem hrest0 (c : Dev nD) : ∀ b, b ∉ Finset.univ.image (Pipeline.arrRef spec0) → X1 m ρ c b = E0 m ρ c b :=
  fun b hb => B1_of_ne m ρ c b fun w e => hb (Finset.mem_image.mpr ⟨w, Finset.mem_univ _, e⟩)

/-- After the two reshapes of the labels: the second region is entered from them. -/
abbrev B2 : Dev nD → Valuation τ sig (Elt F) := fun c => StableHlo.after hostOps1 (B1 m ρ c)
/-- The same read at the TensorCore's references: the second region's entry contents. -/
abbrev E1 : (c : Dev nD) → (b : Ref sig .tc) → Buf (Elt F) ((c : Thread nD τ).loc b) := fun c b => B2 m ρ c b

/-- At the second region's exit: its two output arrays at what the pipeline leaves, every other buffer as
    entered. (Two of its arrays are each read through two windows, so the exit contents are written buffer by
    buffer, not window by window.) -/
def B3 (c : Dev nD) : Valuation τ sig (Elt F) :=
  Function.update (Function.update (B2 m ρ c) (Proc.devRef .tc main_v3_0) ((dat1 (E1 m ρ) c).arrAt 5 cfg1.N))
    (Proc.devRef .tc main_v3_1) ((dat1 (E1 m ρ) c).arrAt 6 cfg1.N)
/-- The same read at the TensorCore's references: the second region's exit contents. -/
abbrev X3 : (c : Dev nD) → (b : Ref sig .tc) → Buf (Elt F) ((c : Thread nD τ).loc b) := fun c b => B3 m ρ c b

/-- A buffer that is neither of the second region's outputs is at its exit as at its entry. -/
theorem B3_of_ne (c : Dev nD) (b : Ref sig .tc) (h0 : b ≠ main_v3_0) (h1 : b ≠ main_v3_1) :
    B3 m ρ c (Proc.devRef .tc b) = B2 m ρ c (Proc.devRef .tc b) := by
  unfold B3
  rw [Function.update_of_ne (StableHlo.devRef_ne_of_ne h1), Function.update_of_ne (StableHlo.devRef_ne_of_ne h0)]

/-- At the second region's exit each window's array holds what the pipeline leaves: an output its folded
    write-backs, an input its entry contents, -/
theorem hG1 (c : Dev nD) (w : Fin cfg1.W) : (dat1 (E1 m ρ) c).arrAt w cfg1.N = X3 m ρ c (Pipeline.arrRef spec1 w) := by
  match w with
  | ⟨0, _⟩ => exact (((dat1 (E1 m ρ) c).arrAt_in 0 rfl _).trans (A_eq1 (E1 m ρ) c 0)).trans (B3_of_ne m ρ c _ (by decide) (by decide)).symm
  | ⟨1, _⟩ => exact (((dat1 (E1 m ρ) c).arrAt_in 1 rfl _).trans (A_eq1 (E1 m ρ) c 1)).trans (B3_of_ne m ρ c _ (by decide) (by decide)).symm
  | ⟨2, _⟩ => exact (((dat1 (E1 m ρ) c).arrAt_in 2 rfl _).trans (A_eq1 (E1 m ρ) c 2)).trans (B3_of_ne m ρ c _ (by decide) (by decide)).symm
  | ⟨3, _⟩ => exact (((dat1 (E1 m ρ) c).arrAt_in 3 rfl _).trans (A_eq1 (E1 m ρ) c 3)).trans (B3_of_ne m ρ c _ (by decide) (by decide)).symm
  | ⟨4, _⟩ => exact (((dat1 (E1 m ρ) c).arrAt_in 4 rfl _).trans (A_eq1 (E1 m ρ) c 4)).trans (B3_of_ne m ρ c _ (by decide) (by decide)).symm
  | ⟨5, _⟩ =>
    show _ = B3 m ρ c (Proc.devRef .tc main_v3_0)
    unfold B3
    rw [Function.update_of_ne (StableHlo.devRef_ne_of_ne (by decide)), Function.update_self]
    rfl
  | ⟨6, _⟩ =>
    show _ = B3 m ρ c (Proc.devRef .tc main_v3_1)
    unfold B3
    rw [Function.update_self]
    rfl
/-- and every buffer behind none of its windows what it held at entry. -/
theorem hrest1 (c : Dev nD) : ∀ b, b ∉ Finset.univ.image (Pipeline.arrRef spec1) → X3 m ρ c b = E1 m ρ c b :=
  fun b hb => B3_of_ne m ρ c b
    (fun e => hb (Finset.mem_image.mpr ⟨5, Finset.mem_univ _, e.symm⟩))
    (fun e => hb (Finset.mem_image.mpr ⟨6, Finset.mem_univ _, e.symm⟩))

/-- After the division and the reshape of its quotient: what the launch reads at the end. -/
abbrev B4 : Dev nD → Valuation τ sig (Elt F) := fun c => StableHlo.after hostOps2 (B3 m ρ c)

/-! ### The arguments end as launched

No host operation writes an argument and no region changes one: the first region reads the embeddings through
an input window and never sees the labels; the second region sees neither. -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 _ hostOps2_writes (by decide)
    _ = B2 m ρ c (Proc.devRef .tc main_arg0) := B3_of_ne m ρ c main_arg0 (by decide) (by decide)
    _ = B1 m ρ c (Proc.devRef .tc main_arg0) := StableHlo.after_of_writes_sub hostOps1 _ hostOps1_writes (by decide)
    _ = B0 m ρ c (Proc.devRef .tc main_arg0) :=
          (B1_arr m ρ c 0).trans (((dat0 (E0 m ρ) c).arrAt_in 0 rfl _).trans (A_eq0 (E0 m ρ) c 0))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 _ hostOps2_writes (by decide)
    _ = B2 m ρ c (Proc.devRef .tc main_arg1) := B3_of_ne m ρ c main_arg1 (by decide) (by decide)
    _ = B1 m ρ c (Proc.devRef .tc main_arg1) := StableHlo.after_of_writes_sub hostOps1 _ hostOps1_writes (by decide)
    _ = B0 m ρ c (Proc.devRef .tc main_arg1) := B1_of_ne m ρ c main_arg1 (by decide)
    _ = m ((c : Thread nD τ).loc main_arg1) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what
    it owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding
    along: it leaves those references at the operations' results over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- THE FIRST REGION over the thread state: entered from every unscoped buffer at `B0`, left at `B1`. Its two
    arrays are split out of the unscoped buffers at entry and put back at their exit contents; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X1 m ρ c) ((pdats m ρ 0 c).arrAt · cfg0.N) (hG0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `B2`, left at `B3`. Two of
    its five arrays are each read through two windows, which hold the array at the two halves of the full
    share: the arrays are split out of the unscoped buffers, and put back, buffer by buffer. The generator
    register and the scoped buffers go into the invariant, which carries the two accumulators from point to
    point, and come back after the last point; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := arrays_of_unscopedBufs1 (pdats m ρ 1 c) rfl rfl rfl rfl rfl (E1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (E1 m ρ) c) ?_
    unfold Pipeline.ΦA
    iintro ⟨Hr, Hp⟩
    isplitl [Hp]; · iexact Hp
    isplitr; · iempintro
    iexact Hr
  hexit c := by
    have hjoin := unscopedBufs_of_arrays1 (pdats m ρ 1 c) rfl rfl rfl rfl rfl
      (E1 m ρ c) (X3 m ρ c) ((pdats m ρ 1 c).arrAt · cfg1.N) (hG1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: a region per kernel call, a host segment per stretch from its boundary's
    contents. -/
abbrev runSegs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)) ]
/-- @main is the run of the segments. -/
theorem main_run (c : Dev nD) : main (F := F) c = Pipeline.Seg.run (runSegs m ρ) := (main_chain c).trans (by chain_rfl)

set_option backward.isDefEq.respectTransparency.types false in
/-- THE RUN WITH THE RESULT: at the compiled mesh, from any memory with zero counters, every weakly fair execution
    of @main on the TensorCores terminates, nothing faulting, and every final state has the result buffer at the
    last boundary's contents and the two argument arrays as launched. -/
theorem run_value : θ_run defs (onTc (τ := τ) (main (F := F))) ⟨m, fun _ => 0, ρ⟩ (fun r => ∀ c : Dev nD,
      r.2.mem ((c.tc : Thread nD τ).loc main_v5) = B4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (B4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨h c _ (mem_uc main_v5 (by decide)),
        (h c _ (mem_uc main_arg0 (by decide))).trans (B4_main_arg0 m ρ c),
        (h c _ (mem_uc main_arg1 (by decide))).trans (B4_main_arg1 m ρ c)⟩)

/-- THE FRAME: the same run, read for the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Hand

end
-- ==== Proof.IdealHostGlue.lean ====
/-
  The host operations around the two kernel regions of the idealized program, read at an index.
  Between the regions the program reshapes the label vector [512] into a column [512, 1] and a row
  [1, 512]; after the second region it divides the two [1, 1] results pointwise and reshapes the
  quotient to rank 0. Here each buffer these operations touch is expressed through the launch memory
  and through what the regions leave in their outputs: the column at (i, 0) and the row at (0, j) are
  the label vector at i and at j, and the final scalar is the quotient of the two region outputs at
  (0, 0). The arguments are never written, so they hold their launch contents throughout.
-/
import proofs.«147143_j19576460935202_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ) (outs : Outs (F := F))

/-- The first argument is as launched after the first host stretch. -/
theorem V2_main_arg0 (c : Dev nD) : V2 m outs c main_arg0 = m ((c : Thread nD τ).loc main_arg0) :=
  (V2_of m outs c main_arg0 (by decide)).trans <| (V1_of m outs c main_arg0 (by decide)).trans rfl

/-- The label vector is as launched after the first host stretch. -/
theorem V2_main_arg1 (c : Dev nD) : V2 m outs c main_arg1 = m ((c : Thread nD τ).loc main_arg1) :=
  (V2_of m outs c main_arg1 (by decide)).trans <| (V1_of m outs c main_arg1 (by decide)).trans rfl

/-- The first region's output is what that region left, after the first host stretch. -/
theorem V2_main_v0 (c : Dev nD) : V2 m outs c main_v0 = outs 1 main_v0 c :=
  (V2_of m outs c main_v0 (by decide)).trans (Function.update_self ..)

/-- The first argument is as launched after the second region. -/
theorem V3_main_arg0 (c : Dev nD) : V3 m outs c main_arg0 = m ((c : Thread nD τ).loc main_arg0) :=
  (V3_of m outs c main_arg0 (by decide)).trans (V2_main_arg0 m outs c)

/-- The label vector is as launched after the second region. -/
theorem V3_main_arg1 (c : Dev nD) : V3 m outs c main_arg1 = m ((c : Thread nD τ).loc main_arg1) :=
  (V3_of m outs c main_arg1 (by decide)).trans (V2_main_arg1 m outs c)

/-- The column buffer is the label vector cast to [512, 1]. -/
theorem V2_main_v1_eq (c : Dev nD) :
    (V2 m outs c main_v1 : S512x1.Idx → BitVec 32)
      = shapeCast S512x1 (m ((c : Thread nD τ).loc main_arg1) : S512.Idx → BitVec 32) shapeCasts_S512_S512x1 := by
  show StableHlo.after hostOps1 _ (Proc.devRef .tc main_v1) = _
  after_results
  rfl

/-- The row buffer is the label vector cast to [1, 512]. -/
theorem V2_main_v2_eq (c : Dev nD) :
    (V2 m outs c main_v2 : S1x512.Idx → BitVec 32)
      = shapeCast S1x512 (m ((c : Thread nD τ).loc main_arg1) : S512.Idx → BitVec 32) shapeCasts_S512_S1x512 := by
  show StableHlo.after hostOps1 _ (Proc.devRef .tc main_v2) = _
  after_results
  rfl

/-- A vector of length n cast to a column [n, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column buffer at (i, 0) is the label vector at i. -/
theorem V2_main_v1_apply (c : Dev nD) (i : Fin 512) :
    (V2 m outs c main_v1 : S512x1.Idx → BitVec 32) (ix2 i 0) = (m ((c : Thread nD τ).loc main_arg1) : S512.Idx → BitVec 32) (ix1 i) := by
  rw [V2_main_v1_eq]
  exact shapeCast_a_a1_apply _ _ i 0

/-- The row buffer at (0, j) is the label vector at j. -/
theorem V2_main_v2_apply (c : Dev nD) (j : Fin 512) :
    (V2 m outs c main_v2 : S1x512.Idx → BitVec 32) (ix2 0 j) = (m ((c : Thread nD τ).loc main_arg1) : S512.Idx → BitVec 32) (ix1 j) := by
  rw [V2_main_v2_eq]
  exact shapeCast_a_1a_apply _ _ 0 j

/-- The second region's second output is what that region left. -/
theorem V3_main_v3_1 (c : Dev nD) : V3 m outs c main_v3_1 = outs 3 main_v3_1 c := Function.update_self ..

/-- The second region's first output is what that region left. -/
theorem V3_main_v3_0 (c : Dev nD) : V3 m outs c main_v3_0 = outs 3 main_v3_0 c :=
  (Function.update_of_ne (StableHlo.devRef_ne_of_ne (by decide) : (Proc.devRef .tc main_v3_0 : DevRef τ sig) ≠ Proc.devRef .tc main_v3_1) ..).trans
    (Function.update_self ..)

/-- The final scalar buffer is the pointwise quotient of the second region's two outputs, cast to rank 0. -/
theorem V4_main_v5_eq (c : Dev nD) :
    (V4 m outs c main_v5 : S_.Idx → F .f32)
      = shapeCast S_ (Host.divf (outs 3 main_v3_0 c : S1x1.Idx → F .f32) (outs 3 main_v3_1 c : S1x1.Idx → F .f32)) shapeCasts_S1x1_S_ := by
  show StableHlo.after hostOps2 _ (Proc.devRef .tc main_v5) = _
  after_results
  rw [V3_main_v3_0, V3_main_v3_1]
  rfl

/-- A [1, 1] array cast to rank 0 reads, at its one index, the operand at (0, 0). -/
theorem shapeCast_11_0_apply {α : Type} (x : (⟨2, ![1, 1]⟩ : Shape).Idx → α) (h : (⟨2, ![1, 1]⟩ : Shape).ShapeCasts ⟨0, ![]⟩) :
    shapeCast ⟨0, ![]⟩ x h ix0 = x (ix2 (0 : Fin 1) (0 : Fin 1)) :=
  shapeCast_apply x h _ _ (by
    rw [Shape.rowMajor_val_two]
    show 0 * 1 + 0 = (Shape.rowMajorPi _ _).val
    rw [Shape.rowMajorPi_zero])

/-- Over the extended reals the final scalar is the quotient of the second region's two outputs at (0, 0). -/
theorem V4_main_v5_apply (m : (ℓ : Loc nD τ sig) → Buf (Elt Ideal) ℓ) (outs : Outs (F := Ideal)) (c : Dev nD) :
    (V4 m outs c main_v5 : S_.Idx → EReal) ix0
      = Ideal.div ((outs 3 main_v3_0 c : S1x1.Idx → EReal) (ix2 0 0)) ((outs 3 main_v3_1 c : S1x1.Idx → EReal) (ix2 0 0)) := by
  rw [V4_main_v5_eq]
  exact shapeCast_11_0_apply _ _

/-! ## The host stretches over an arbitrary starting valuation -/

section AnyValuation

variable (W : Valuation τ sig (Elt F))

/-- The first host stretch leaves every buffer other than the column and the row as it was. -/
theorem after_hostOps1_of (r : Ref sig .tc) (h : r ∉ hostOps1_W) :
    StableHlo.after hostOps1 W (Proc.devRef .tc r) = W (Proc.devRef .tc r) :=
  StableHlo.after_of_writes_sub hostOps1 W hostOps1_writes h

/-- After the first host stretch the column buffer is the label vector cast to [512, 1]. -/
theorem after_hostOps1_main_v1_eq :
    (StableHlo.after hostOps1 W (Proc.devRef .tc main_v1) : S512x1.Idx → BitVec 32)
      = shapeCast S512x1 (W (Proc.devRef .tc main_arg1) : S512.Idx → BitVec 32) shapeCasts_S512_S512x1 := by
  after_results
  rfl

/-- After the first host stretch the row buffer is the label vector cast to [1, 512]. -/
theorem after_hostOps1_main_v2_eq :
    (StableHlo.after hostOps1 W (Proc.devRef .tc main_v2) : S1x512.Idx → BitVec 32)
      = shapeCast S1x512 (W (Proc.devRef .tc main_arg1) : S512.Idx → BitVec 32) shapeCasts_S512_S1x512 := by
  after_results
  rfl

/-- After the first host stretch the column buffer at (i, 0) is the label vector at i. -/
theorem after_hostOps1_main_v1_apply (i : Fin 512) :
    (StableHlo.after hostOps1 W (Proc.devRef .tc main_v1) : S512x1.Idx → BitVec 32) (ix2 i 0)
      = (W (Proc.devRef .tc main_arg1) : S512.Idx → BitVec 32) (ix1 i) := by
  rw [after_hostOps1_main_v1_eq]
  exact shapeCast_a_a1_apply _ _ i 0

/-- After the first host stretch the row buffer at (0, j) is the label vector at j. -/
theorem after_hostOps1_main_v2_apply (j : Fin 512) :
    (StableHlo.after hostOps1 W (Proc.devRef .tc main_v2) : S1x512.Idx → BitVec 32) (ix2 0 j)
      = (W (Proc.devRef .tc main_arg1) : S512.Idx → BitVec 32) (ix1 j) := by
  rw [after_hostOps1_main_v2_eq]
  exact shapeCast_a_1a_apply _ _ 0 j

/-- The second host stretch leaves every buffer other than the quotient and the final scalar as it was. -/
theorem after_hostOps2_of (r : Ref sig .tc) (h : r ∉ hostOps2_W) :
    StableHlo.after hostOps2 W (Proc.devRef .tc r) = W (Proc.devRef .tc r) :=
  StableHlo.after_of_writes_sub hostOps2 W hostOps2_writes h

/-- After the second host stretch the final scalar buffer is the pointwise quotient of the two [1, 1] buffers, cast to rank 0. -/
theorem after_hostOps2_main_v5_eq :
    (StableHlo.after hostOps2 W (Proc.devRef .tc main_v5) : S_.Idx → F .f32)
      = shapeCast S_ (Host.divf (W (Proc.devRef .tc main_v3_0) : S1x1.Idx → F .f32) (W (Proc.devRef .tc main_v3_1) : S1x1.Idx → F .f32)) shapeCasts_S1x1_S_ := by
  after_results
  rfl

end AnyValuation

/-- Over the extended reals, after the second host stretch the final scalar is the quotient of the two [1, 1] buffers at (0, 0). -/
theorem after_hostOps2_main_v5_apply (W : Valuation τ sig (Elt Ideal)) :
    (StableHlo.after hostOps2 W (Proc.devRef .tc main_v5) : S_.Idx → EReal) ix0
      = Ideal.div ((W (Proc.devRef .tc main_v3_0) : S1x1.Idx → EReal) (ix2 0 0)) ((W (Proc.devRef .tc main_v3_1) : S1x1.Idx → EReal) (ix2 0 0)) := by
  rw [after_hostOps2_main_v5_eq]
  exact shapeCast_11_0_apply _ _

end Cert.KernelIdeal.Hand

end
-- ==== Proof.LibTripletLoss.lean ====
/-
  The batch-all triplet loss on the extended reals, in two arrangements.

  For embeddings e : ι → κ → EReal (row i is the i-th embedding) and labels lab : ι → BitVec 32:

  * the textbook arrangement: the squared distance dist i j = Σ_d (e i d − e j d)², the positive pairs
    pos i p (p ≠ i, same label), the negative pairs neg i k (k ≠ i, other label), the sum
    loss = Σ_{i,p,k} [pos i p ∧ neg i k] · max (dist i p − dist i k + 1) 0, the number cnt of valid
    triplets, and result = loss / cnt;
  * the fused arrangement: the distance as norms minus twice the inner product, floored at zero,
    kdist i j = max ((|e i|² + |e j|²) − 2·⟨e i, e j⟩) 0, the masks as the numbers 0 and 1 multiplied in,
    kloss = Σ_{i,p,k} (max (kdist i p − kdist i k + 1) 0 · [pos i p]) · [neg i k], and the count as a sum of
    products of row totals, kcnt = Σ_i (Σ_p [pos i p]) · (Σ_k [neg i k]).

  Only the definitions live here; no program is imported. Generic in the finite index types.
-/
import Idealize.ShloMosaic.PureOps.Ideal

noncomputable section

namespace TripletLoss

open Idealize.ShloMosaic

variable {ι κ : Type} [Fintype ι] [DecidableEq ι] [Fintype κ]

/-- The squared Euclidean distance between rows i and j. -/
def dist (e : ι → κ → EReal) (i j : ι) : EReal := ∑ d, (e i d - e j d) * (e i d - e j d)

/-- A valid positive pair: another index with the same label. -/
def pos (lab : ι → BitVec 32) (i p : ι) : Prop := p ≠ i ∧ lab p = lab i

/-- A valid negative pair: another index with a different label. -/
def neg (lab : ι → BitVec 32) (i k : ι) : Prop := k ≠ i ∧ lab k ≠ lab i

instance (lab : ι → BitVec 32) (i p : ι) : Decidable (pos lab i p) := by unfold pos; infer_instance
instance (lab : ι → BitVec 32) (i k : ι) : Decidable (neg lab i k) := by unfold neg; infer_instance

/-- The hinge term of a triplet. -/
def term (e : ι → κ → EReal) (i p k : ι) : EReal := max (dist e i p - dist e i k + 1) 0

/-- The sum of the hinge terms over the valid triplets. -/
def loss (e : ι → κ → EReal) (lab : ι → BitVec 32) : EReal :=
  ∑ i, ∑ p, ∑ k, if pos lab i p ∧ neg lab i k then term e i p k else 0

/-- The number of valid triplets. -/
def cnt (lab : ι → BitVec 32) : ℕ :=
  (Finset.univ.filter fun t : ι × ι × ι => pos lab t.1 t.2.1 ∧ neg lab t.1 t.2.2).card

/-- The mean hinge term over the valid triplets. -/
def result (e : ι → κ → EReal) (lab : ι → BitVec 32) : EReal :=
  Ideal.div (loss e lab) (((cnt lab : ℕ) : ℝ) : EReal)

/-- A proposition as the number 1 or 0. -/
def ind (P : Prop) [Decidable P] : EReal := if P then 1 else 0

/-- The squared norm of row i. -/
def nrm (e : ι → κ → EReal) (i : ι) : EReal := ∑ d, e i d * e i d

/-- The inner product of rows i and j. -/
def cross (e : ι → κ → EReal) (i j : ι) : EReal := ∑ d, e i d * e j d

/-- The distance as norms minus twice the inner product, floored at zero. -/
def kdist (e : ι → κ → EReal) (i j : ι) : EReal := max ((nrm e i + nrm e j) - 2 * cross e i j) 0

/-- The fused sum: masks multiplied in as numbers. -/
def kloss (e : ι → κ → EReal) (lab : ι → BitVec 32) : EReal :=
  ∑ i, ∑ p, ∑ k, (max (kdist e i p - kdist e i k + 1) 0 * ind (pos lab i p)) * ind (neg lab i k)

/-- The fused count: per anchor, the product of its numbers of positives and of negatives. -/
def kcnt (lab : ι → BitVec 32) : EReal :=
  ∑ i, (∑ p, ind (pos lab i p)) * (∑ k, ind (neg lab i k))

end TripletLoss

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.IdealDist.lean ====
/- The value of the first TensorCore region of the idealized kernel program.

   The region's grid has one point and both windows' blocks are the whole arrays, so the output array after
   the region is the body's result on the whole input array; and on the extended reals that result is, entry
   by entry, the fused squared distance: the two rows' squared norms added, minus twice the rows' inner product,
   floored at zero. -/
import proofs.«147143_j19576460935202_2_alg».proof.Proof.IdealRegion0
import proofs.«147143_j19576460935202_2_alg».proof.Proof.LibTripletLoss
import proofs.«147143_j19576460935202_2_alg».proof.Proof.LibDotRows
import proofs.«147143_j19576460935202_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's result on the extended reals, entry by entry -/

/-- The two zero offsets of a whole-block rectangle, as the constant function. -/
theorem offs_zero : (![0, 0] : Fin 2 → Nat) = fun _ => 0 := funext fun a => by fin_cases a <;> rfl

/-- The f32 word 0x40000000 is the number 2. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The product's dimension numbers: a [512,128] operand against a [512,128] operand, both contracted on
    their second axis. -/
theorem dot_eq : dot_S512x128_S512x128_S512x512_1_1_0_0_n_n = DotDims.transposedRhs 512 128 512 := rfl

/-- The squared norms kept as a column: its entry (r, 0) is the sum over d of x (r, d) squared. -/
theorem normCol_apply (x0 : FVec Ideal S512x128 .f32) (r : Fin 512) (u : Fin 1) :
    shapeCast S512x1 (multiReduction .add [1] S512 (mulf x0 x0) 0x00000000#32 reduces_S512x128_S512 (.inl rfl) rfl)
        shapeCasts_S512_S512x1 (ix2 r u)
      = ∑ d : Fin 128, x0 (ix2 r d) * x0 (ix2 r d) :=
  Keepdims.rowSumKeep_apply (mulf x0 x0) 0x00000000#32 reduces_S512x128_S512 (.inl rfl) rfl shapeCasts_S512_S512x1 r u

/-- The body's arithmetic at entry (i, j): the fused squared distance between rows i and j. -/
theorem pay_apply (x0 : Vec Ideal S512x128 .f32) (i j : Fin 512) :
    k0_pay1 (F := Ideal) x0 (ix2 i j)
      = TripletLoss.kdist (ι := Fin 512) (κ := Fin 128) (fun a d => x0 (ix2 a d)) i j := by
  unfold k0_pay1
  dsimp only
  rw [maximumf_apply, subf_apply, addf_apply, mulf_apply, broadcast_apply, broadcast_apply]
  rw [Keepdims.broadcastTo_a1_ab_apply, normCol_apply, broadcastTo_1b_ab_apply, transpose_ix2_apply, normCol_apply]
  rw [dot_eq]
  rw [show matmul (DotDims.transposedRhs 512 128 512) (some ContractPrecision.fp32) x0 x0
        (constant (F := Ideal) S512x512 .f32 0x00000000#32) (ix2 i j) = ∑ k : Fin 128, x0 (ix2 i k) * x0 (ix2 j k)
      from DotRows.matmul_zero_apply 512 128 512 (some .fp32) x0 x0 (ix2 i j)]
  rw [show (FloatOps.ofBits .f32 0x40000000#32 : Ideal .f32) = 2 from ofBits_two_f32,
    show (FloatOps.ofBits .f32 0x00000000#32 : Ideal .f32) = 0 from Ideal.ofBits_zero_f32]
  rfl

/-- The output window's buffer after the body, entry by entry on the extended reals: the fused squared
    distance between rows i and j of the input block. -/
theorem out0_1_apply (x0 : Vec Ideal S512x128 .f32) (i j : Fin 512) :
    out0_1 x0 (ix2 i j)
      = TripletLoss.kdist (ι := Fin 512) (κ := Fin 128) (fun a d => x0 (ix2 a d)) i j := by
  unfold out0_1
  rw [View.canon_unit_zero offs_zero, View.ld_unit_zero (S := S512x128) offs_zero]
  exact pay_apply x0 i j

/-! ## From the one block to the array -/

section Array

variable {F : FTy → Type} [FloatOps F]
variable (V : (c : Dev nD) → (b : Ref sig .tc) → Buf (Elt F) ((c : Thread nD τ).loc b))

/-- The grid's one point reads the input through zero offsets of the array's own extents: the input window's
    block is the whole input array. -/
theorem iblk0_in (c : Dev nD) (t : Fin cfg0.N) : (iblk0 V c 0 t : Vec F S512x128 .f32) = V c main_arg0 := by
  obtain rfl := fin_N0 t
  have hz : (fun a => win0_0.index t0_0 a * main_arg0.ty.shape.size a) = fun _ => 0 :=
    funext fun a => by fin_cases a <;> decide
  exact Memref.read_access_unit_zero (Elt F) main_arg0 hz (fun a => by rw [congrFun hz a]; simp) (V c main_arg0)

/-- The one write-back writes the body's result on the whole input array, and its block, read through zero
    offsets of the output array's own extents, is the whole of any array. -/
theorem flushed0_1_eq (c : Dev nD) (t : Fin cfg0.N) (hf : (cfg0.win 1).flush t = true) :
    (dat0 V c).flushed 1 t
      = ((cfg0.win 1).blk t).view.read (Elt F) (out0_1 (V c main_arg0) : Buf (Elt F) ((c : Thread nD τ).loc main_v0)) := by
  obtain rfl := fin_N0 t
  show (cfg0.win 1).cut (grid0.coords t0_0) ((dat0 V c).after 1 t0_0) = _
  rw [after0_1, iblk0_in]
  have hz : (fun a => win0_1.index t0_0 a * main_v0.ty.shape.size a) = fun _ => 0 :=
    funext fun a => by fin_cases a <;> decide
  exact (Memref.read_access_unit_zero (Elt F) main_v0 hz (fun a => by rw [congrFun hz a]; simp) _).symm

/-- Every index of the output array lies in the one point's block: on each axis the block starts at 0 and
    is 512 long. -/
theorem mem_blk0_1 (i : S512x512.Idx) : i ∈ ((cfg0.win 1).blk t0_0).view.set := by
  show i ∈ ((View.whole main_v0).slice (win0_1.rect t0_0)).set
  rw [View.set_slice_whole, Rect.mem_set_unit]
  have hoff : ∀ a : Fin 2, win0_1.index t0_0 a * win0_1.size a = 0 := by decide +kernel
  have hext : ∀ a : Fin 2, win0_1.xsize (grid0.coords t0_0) a = 512 := by decide +kernel
  intro a
  have hlt : (i a : Nat) < 512 := by
    have h := (i a).isLt
    match a with
    | ⟨0, _⟩ => exact h
    | ⟨1, _⟩ => exact h
  rw [hoff a, hext a]
  omega

/-- The output array after the region: the body's result on the whole input array as the region finds it. -/
theorem arr_out (c : Dev nD) :
    (dat0 V c).arrAt 1 cfg0.N = (out0_1 (V c main_arg0) : Buf (Elt F) ((c : Thread nD τ).loc main_v0)) :=
  (dat0 V c).arrAt_eq_of_cover 1 _ (flushed0_1_eq V c) fun i => ⟨t0_0, flush0_1 t0_0, mem_blk0_1 i⟩

end Array

/-! ## The output array after the region, on the extended reals -/

/-- Entry (i, j) of the output array after the region is the fused squared distance between rows i and j of
    the input array as the region finds it. -/
theorem arr_out_apply (V : (c : Dev nD) → (b : Ref sig .tc) → Buf (Elt Ideal) ((c : Thread nD τ).loc b)) (c : Dev nD)
    (i j : Fin 512) :
    ((dat0 V c).arrAt 1 cfg0.N : S512x512.Idx → EReal) (ix2 i j)
      = TripletLoss.kdist (ι := Fin 512) (κ := Fin 128)
          (fun a d => (V c main_arg0 : S512x128.Idx → EReal) (ix2 a d)) i j := by
  rw [arr_out]
  exact out0_1_apply _ i j

end Cert.KernelIdeal.Hand

end
-- ==== Proof.IdealOut1.lean ====
/-
  The two output arrays of the second TensorCore region after the region.

  Each output window's block is the whole [1, 1] array and is written back at the last grid point only, so after
  the region each array holds what the body left in its window at that last point.
-/
import proofs.«147143_j19576460935202_2_alg».proof.Proof.IdealRegion1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

/-- A point whose write-back flag for window 5 is set is the last one. -/
theorem val_of_flush1_5 (t : Fin cfg1.N) (hf : (cfg1.win 5).flush t = true) : t.val = 255 := by
  have h1 := (flush1_5 t).mp hf
  have h2 := lt256 t.isLt
  omega

/-- A point whose write-back flag for window 6 is set is the last one. -/
theorem val_of_flush1_6 (t : Fin cfg1.N) (hf : (cfg1.win 6).flush t = true) : t.val = 255 := by
  have h1 := (flush1_6 t).mp hf
  have h2 := lt256 t.isLt
  omega

/-- Window 5's block index is (0, 0) at every grid point. -/
theorem idx1_5 : ∀ t : Fin cfg1.N, win1_5.index t (0 : Fin 2) = 0 ∧ win1_5.index t (1 : Fin 2) = 0 :=
  (by decide +kernel : ∀ t : Fin grid1.N, _)

/-- Window 6's block index is (0, 0) at every grid point. -/
theorem idx1_6 : ∀ t : Fin cfg1.N, win1_6.index t (0 : Fin 2) = 0 ∧ win1_6.index t (1 : Fin 2) = 0 :=
  (by decide +kernel : ∀ t : Fin grid1.N, _)

/-- What the region's points leave depends on the point's number only. -/
theorem outsAt1_congr (c : Dev nD) {n n' : ℕ} (e : n = n') (hn : n < cfg1.N) (hn' : n' < cfg1.N) :
    outsAt1 V c n hn = outsAt1 V c n' hn' := by subst e; rfl

/-- What a write-back of window 5 writes: the block, through the window's rectangle, of what the last grid point
    left in the window. -/
theorem flushed1_5_eq (c : Dev nD) (h : 255 < cfg1.N) (t : Fin cfg1.N) (hf : (cfg1.win 5).flush t = true) :
    (dat1 V c).flushed 5 t
      = ((cfg1.win 5).blk t).view.read (Elt F) ((outsAt1 V c 255 h).1.1 : Buf (Elt F) ((c : Thread nD τ).loc main_v3_0)) := by
  show (cfg1.win 5).cut (grid1.coords t) ((dat1 V c).after 5 t) = _
  rw [after1_5, outsAt1_congr V c (val_of_flush1_5 t hf) t.isLt h]
  funext j
  show (outsAt1 V c 255 h).1.1 j = (outsAt1 V c 255 h).1.1 (((cfg1.win 5).blk t).view.emb j)
  refine congrArg _ ?_
  funext a; apply Fin.ext
  obtain ⟨e0, e1⟩ := idx1_5 t
  match a with
  | ⟨0, _⟩ => show (j 0).val = win1_5.index t (0 : Fin 2) * 1 + 1 * (j 0).val; omega
  | ⟨1, _⟩ => show (j 1).val = win1_5.index t (1 : Fin 2) * 1 + 1 * (j 1).val; omega

/-- What a write-back of window 6 writes: the block, through the window's rectangle, of what the last grid point
    left in the window. -/
theorem flushed1_6_eq (c : Dev nD) (h : 255 < cfg1.N) (t : Fin cfg1.N) (hf : (cfg1.win 6).flush t = true) :
    (dat1 V c).flushed 6 t
      = ((cfg1.win 6).blk t).view.read (Elt F) ((outsAt1 V c 255 h).1.2 : Buf (Elt F) ((c : Thread nD τ).loc main_v3_1)) := by
  show (cfg1.win 6).cut (grid1.coords t) ((dat1 V c).after 6 t) = _
  rw [after1_6, outsAt1_congr V c (val_of_flush1_6 t hf) t.isLt h]
  funext j
  show (outsAt1 V c 255 h).1.2 j = (outsAt1 V c 255 h).1.2 (((cfg1.win 6).blk t).view.emb j)
  refine congrArg _ ?_
  funext a; apply Fin.ext
  obtain ⟨e0, e1⟩ := idx1_6 t
  match a with
  | ⟨0, _⟩ => show (j 0).val = win1_6.index t (0 : Fin 2) * 1 + 1 * (j 0).val; omega
  | ⟨1, _⟩ => show (j 1).val = win1_6.index t (1 : Fin 2) * 1 + 1 * (j 1).val; omega

/-- The one index of the [1, 1] array lies in every point's block of window 5. -/
theorem mem_blk1_5 (t : Fin cfg1.N) (i : S1x1.Idx) : i ∈ ((cfg1.win 5).blk t).view.set := by
  show i ∈ ((View.whole main_v3_0).slice (win1_5.rect t)).set
  rw [View.set_slice_whole, Rect.mem_set_unit]
  obtain ⟨e0, e1⟩ := idx1_5 t
  intro a
  match a with
  | ⟨0, _⟩ =>
    show win1_5.index t (0 : Fin 2) * 1 ≤ (i 0).val ∧ (i 0).val < win1_5.index t (0 : Fin 2) * 1 + 1
    have hi : (i 0).val < 1 := (i 0).isLt
    omega
  | ⟨1, _⟩ =>
    show win1_5.index t (1 : Fin 2) * 1 ≤ (i 1).val ∧ (i 1).val < win1_5.index t (1 : Fin 2) * 1 + 1
    have hi : (i 1).val < 1 := (i 1).isLt
    omega

/-- The one index of the [1, 1] array lies in every point's block of window 6. -/
theorem mem_blk1_6 (t : Fin cfg1.N) (i : S1x1.Idx) : i ∈ ((cfg1.win 6).blk t).view.set := by
  show i ∈ ((View.whole main_v3_1).slice (win1_6.rect t)).set
  rw [View.set_slice_whole, Rect.mem_set_unit]
  obtain ⟨e0, e1⟩ := idx1_6 t
  intro a
  match a with
  | ⟨0, _⟩ =>
    show win1_6.index t (0 : Fin 2) * 1 ≤ (i 0).val ∧ (i 0).val < win1_6.index t (0 : Fin 2) * 1 + 1
    have hi : (i 0).val < 1 := (i 0).isLt
    omega
  | ⟨1, _⟩ =>
    show win1_6.index t (1 : Fin 2) * 1 ≤ (i 1).val ∧ (i 1).val < win1_6.index t (1 : Fin 2) * 1 + 1
    have hi : (i 1).val < 1 := (i 1).isLt
    omega

/-- The first output array after the region: what the last grid point left in its window. -/
theorem arr_out5 (c : Dev nD) (h : 255 < cfg1.N) :
    (dat1 V c).arrAt 5 cfg1.N = ((outsAt1 V c 255 h).1.1 : Buf (Elt F) ((c : Thread nD τ).loc main_v3_0)) :=
  (dat1 V c).arrAt_eq_of_cover 5 _ (flushed1_5_eq V c h) fun i =>
    ⟨⟨255, h⟩, (flush1_5 ⟨255, h⟩).mpr (by show 255 % 256 = 255; rfl), mem_blk1_5 ⟨255, h⟩ i⟩

/-- The second output array after the region: what the last grid point left in its window. -/
theorem arr_out6 (c : Dev nD) (h : 255 < cfg1.N) :
    (dat1 V c).arrAt 6 cfg1.N = ((outsAt1 V c 255 h).1.2 : Buf (Elt F) ((c : Thread nD τ).loc main_v3_1)) :=
  (dat1 V c).arrAt_eq_of_cover 6 _ (flushed1_6_eq V c h) fun i =>
    ⟨⟨255, h⟩, (flush1_6 ⟨255, h⟩).mpr (by show 255 % 256 = 255; rfl), mem_blk1_6 ⟨255, h⟩ i⟩

end Cert.KernelIdeal.Hand

end
-- ==== Proof.IdealAccum.lean ====
/-
  What the second pallas_call's two accumulators hold, as the body's pure payloads.

  The body keeps two one-element accumulators across the grid's 256 points: a running total of the hinge terms and a
  running count of the terms that entered it. At every point it forms, from its five input blocks, the point's two
  block totals and adds them to the accumulators; at the first point it zeroes the accumulators first, and at the last
  point it also copies the accumulators' new values into the two output blocks.

  Each of these is one store through the whole one-element buffer, so what a case leaves is the payload of its last
  store, with the loads inside the payload read as the buffers' contents:

  * first point: the hinge accumulator ends at the new-total payload over the input blocks and the ZERO payload (the
    zero just stored is what the later load reads back); likewise the count accumulator;
  * a middle point and the last point: the same payloads over the input blocks and what the point before left;
  * last point: each output block holds what its accumulator was just given (the store's payload read back).

  From these, the accumulation point by point satisfies the recurrence one expects: after point 0 the accumulators are
  the payloads over point 0's blocks and zero; after point n + 1 they are the payloads over point n + 1's blocks and
  what they were after point n — the same formula at a middle point and at the last; and after the last point the two
  output blocks equal the two accumulators.

  Generic in the float family.
-/
import proofs.«147143_j19576460935202_2_alg».proof.Proof.IdealRegion1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The offsets of every load and store of the body are zero: each goes through its whole buffer. -/
theorem hz2 : (![0, 0] : Fin 2 → Nat) = fun _ => 0 := funext fun a => by fin_cases a <;> rfl

/-! ## What each case leaves, as payloads -/

/-- First point, hinge accumulator: zeroed, then given the new total over the point's blocks and that zero. -/
theorem first_hinge (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (x0 : Vec F S8x512 .f32) (x1 : Vec F S8x128 .f32) (x2 : Vec F S8x1 .i32) (x3 : Vec F S1x512 .i32) (x4 : Vec F S1x128 .i32) :
    sout1_A_0 c i arg2 harg2 arg3 harg3 arg4 harg4 arg5 harg5 arg6 harg6 arg7 harg7 arg8 harg8 arg9 harg9 arg10 harg10 hc0 hc1 x0 x1 x2 x3 x4
      = k1_pay10 (k1_pay3 x0) (k1_pay4 x1) (k1_pay7 i x2 x4) (k1_pay8 i x2 x3) k1_pay1 := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- First point, count accumulator: zeroed, then given the new count over the point's blocks and that zero. -/
theorem first_count (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (x0 : Vec F S8x512 .f32) (x1 : Vec F S8x128 .f32) (x2 : Vec F S8x1 .i32) (x3 : Vec F S1x512 .i32) (x4 : Vec F S1x128 .i32) :
    sout1_A_1 c i arg2 harg2 arg3 harg3 arg4 harg4 arg5 harg5 arg6 harg6 arg7 harg7 arg8 harg8 arg9 harg9 arg10 harg10 hc0 hc1 x0 x1 x2 x3 x4
      = k1_pay11 (k1_pay7 i x2 x4) (k1_pay8 i x2 x3) k1_pay2 := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- A middle point, hinge accumulator: the new total over the point's blocks and what the point before left. -/
theorem middle_hinge (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    sout1_B_0 c i arg2 harg2 arg3 harg3 arg4 harg4 arg5 harg5 arg6 harg6 arg7 harg7 arg8 harg8 arg9 harg9 arg10 harg10 hc0 hc1 x0 x1 x2 x3 x4 xs0 xs1
      = k1_pay10 (k1_pay3 x0) (k1_pay4 x1) (k1_pay7 i x2 x4) (k1_pay8 i x2 x3) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1)]
  unfold kernelRun1_B
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- A middle point, count accumulator: the new count over the point's blocks and what the point before left. -/
theorem middle_count (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    sout1_B_1 c i arg2 harg2 arg3 harg3 arg4 harg4 arg5 harg5 arg6 harg6 arg7 harg7 arg8 harg8 arg9 harg9 arg10 harg10 hc0 hc1 x0 x1 x2 x3 x4 xs0 xs1
      = k1_pay11 (k1_pay7 i x2 x4) (k1_pay8 i x2 x3) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1)]
  unfold kernelRun1_B
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- The last point, hinge accumulator: as at a middle point. -/
theorem last_hinge (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    sout1_C_0 c i arg2 harg2 arg3 harg3 arg4 harg4 arg5 harg5 arg6 harg6 arg7 harg7 arg8 harg8 arg9 harg9 arg10 harg10 hc0 hc1 x0 x1 x2 x3 x4 xs0 xs1
      = k1_pay10 (k1_pay3 x0) (k1_pay4 x1) (k1_pay7 i x2 x4) (k1_pay8 i x2 x3) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- The last point, count accumulator: as at a middle point. -/
theorem last_count (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    sout1_C_1 c i arg2 harg2 arg3 harg3 arg4 harg4 arg5 harg5 arg6 harg6 arg7 harg7 arg8 harg8 arg9 harg9 arg10 harg10 hc0 hc1 x0 x1 x2 x3 x4 xs0 xs1
      = k1_pay11 (k1_pay7 i x2 x4) (k1_pay8 i x2 x3) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- The last point, first output block: the hinge accumulator's new value, read back. -/
theorem last_out_hinge (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    out1_C_5 c i arg2 harg2 arg3 harg3 arg4 harg4 arg5 harg5 arg6 harg6 arg7 harg7 arg8 harg8 arg9 harg9 arg10 harg10 hc0 hc1 x0 x1 x2 x3 x4 xs0 xs1
      = k1_pay10 (k1_pay3 x0) (k1_pay4 x1) (k1_pay7 i x2 x4) (k1_pay8 i x2 x3) xs0 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-- The last point, second output block: the count accumulator's new value, read back. -/
theorem last_out_count (c : Dev nD) (i : grid1.Coords) (arg2 : Memref sig .tc .vmem S8x512 .f32) (harg2 : arg2.IsWhole) (arg3 : Memref sig .tc .vmem S8x128 .f32) (harg3 : arg3.IsWhole) (arg4 : Memref sig .tc .vmem S8x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (x0 : Vec F S8x512 .f32) (x1 : Vec F S8x128 .f32) (x2 : Vec F S8x1 .i32) (x3 : Vec F S1x512 .i32) (x4 : Vec F S1x128 .i32) (xs0 xs1 : Vec F S1x1 .f32) :
    out1_C_6 c i arg2 harg2 arg3 harg3 arg4 harg4 arg5 harg5 arg6 harg6 arg7 harg7 arg8 harg8 arg9 harg9 arg10 harg10 hc0 hc1 x0 x1 x2 x3 x4 xs0 xs1
      = k1_pay11 (k1_pay7 i x2 x4) (k1_pay8 i x2 x3) xs1 := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S8x512) hz2, View.ld_unit_zero (S := S8x128) hz2, View.ld_unit_zero (S := S8x1) hz2, View.ld_unit_zero (S := S1x512) hz2, View.ld_unit_zero (S := S1x128) hz2, View.ld_unit_zero (S := S1x1) hz2]

/-! ## The recurrence of the accumulation -/

/-- After point 0 the hinge accumulator is the new total over point 0's blocks and zero. -/
theorem acc_zero_hinge (c : Dev nD) (h : 0 < cfg1.N) :
    (outsAt1 V c 0 h).2.1 = k1_pay10 (k1_pay3 (iblk1 V c 0 ⟨0, h⟩)) (k1_pay4 (iblk1 V c 1 ⟨0, h⟩)) (k1_pay7 (grid1.coords ⟨0, h⟩) (iblk1 V c 2 ⟨0, h⟩) (iblk1 V c 4 ⟨0, h⟩)) (k1_pay8 (grid1.coords ⟨0, h⟩) (iblk1 V c 2 ⟨0, h⟩) (iblk1 V c 3 ⟨0, h⟩)) k1_pay1 :=
  first_hinge c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) scM1_0 (Memref.isWhole_whole _) scM1_1 (Memref.isWhole_whole _) ((hcond1_0 ⟨0, h⟩).mpr (Nat.zero_mod _)) (ncond1_zero h) (iblk1 V c 0 ⟨0, h⟩) (iblk1 V c 1 ⟨0, h⟩) (iblk1 V c 2 ⟨0, h⟩) (iblk1 V c 3 ⟨0, h⟩) (iblk1 V c 4 ⟨0, h⟩)

/-- After point 0 the count accumulator is the new count over point 0's blocks and zero. -/
theorem acc_zero_count (c : Dev nD) (h : 0 < cfg1.N) :
    (outsAt1 V c 0 h).2.2 = k1_pay11 (k1_pay7 (grid1.coords ⟨0, h⟩) (iblk1 V c 2 ⟨0, h⟩) (iblk1 V c 4 ⟨0, h⟩)) (k1_pay8 (grid1.coords ⟨0, h⟩) (iblk1 V c 2 ⟨0, h⟩) (iblk1 V c 3 ⟨0, h⟩)) k1_pay2 :=
  first_count c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) scM1_0 (Memref.isWhole_whole _) scM1_1 (Memref.isWhole_whole _) ((hcond1_0 ⟨0, h⟩).mpr (Nat.zero_mod _)) (ncond1_zero h) (iblk1 V c 0 ⟨0, h⟩) (iblk1 V c 1 ⟨0, h⟩) (iblk1 V c 2 ⟨0, h⟩) (iblk1 V c 3 ⟨0, h⟩) (iblk1 V c 4 ⟨0, h⟩)

/-- After point 0: both accumulators. -/
theorem acc_zero (c : Dev nD) (h : 0 < cfg1.N) :
    (outsAt1 V c 0 h).2.1 = k1_pay10 (k1_pay3 (iblk1 V c 0 ⟨0, h⟩)) (k1_pay4 (iblk1 V c 1 ⟨0, h⟩)) (k1_pay7 (grid1.coords ⟨0, h⟩) (iblk1 V c 2 ⟨0, h⟩) (iblk1 V c 4 ⟨0, h⟩)) (k1_pay8 (grid1.coords ⟨0, h⟩) (iblk1 V c 2 ⟨0, h⟩) (iblk1 V c 3 ⟨0, h⟩)) k1_pay1
    ∧ (outsAt1 V c 0 h).2.2 = k1_pay11 (k1_pay7 (grid1.coords ⟨0, h⟩) (iblk1 V c 2 ⟨0, h⟩) (iblk1 V c 4 ⟨0, h⟩)) (k1_pay8 (grid1.coords ⟨0, h⟩) (iblk1 V c 2 ⟨0, h⟩) (iblk1 V c 3 ⟨0, h⟩)) k1_pay2 :=
  ⟨acc_zero_hinge V c h, acc_zero_count V c h⟩

/-- After point n + 1 the hinge accumulator is the new total over that point's blocks and its value after point n —
    at a middle point and at the last point alike. -/
theorem acc_succ_hinge (c : Dev nD) (n : ℕ) (h : n + 1 < cfg1.N) :
    (outsAt1 V c (n + 1) h).2.1 = k1_pay10 (k1_pay3 (iblk1 V c 0 ⟨n + 1, h⟩)) (k1_pay4 (iblk1 V c 1 ⟨n + 1, h⟩)) (k1_pay7 (grid1.coords ⟨n + 1, h⟩) (iblk1 V c 2 ⟨n + 1, h⟩) (iblk1 V c 4 ⟨n + 1, h⟩)) (k1_pay8 (grid1.coords ⟨n + 1, h⟩) (iblk1 V c 2 ⟨n + 1, h⟩) (iblk1 V c 3 ⟨n + 1, h⟩)) (outsAt1 V c n (Nat.lt_of_succ_lt h)).2.1 := by
  have h0 : ¬(⟨n + 1, h⟩ : Fin cfg1.N).val % 256 = 0 := by have := lt256 h; dsimp only; omega
  by_cases h1 : (⟨n + 1, h⟩ : Fin cfg1.N).val % 256 = 255
  · have e : outsAt1 V c (n + 1) h = _ := outsAt1_C V c ⟨n + 1, h⟩ h0 h1
    rw [e]
    exact last_hinge c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) scM1_1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2
  · have e : outsAt1 V c (n + 1) h = _ := outsAt1_B V c ⟨n + 1, h⟩ h0 h1
    rw [e]
    exact middle_hinge c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) scM1_1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2

/-- After point n + 1 the count accumulator is the new count over that point's blocks and its value after point n. -/
theorem acc_succ_count (c : Dev nD) (n : ℕ) (h : n + 1 < cfg1.N) :
    (outsAt1 V c (n + 1) h).2.2 = k1_pay11 (k1_pay7 (grid1.coords ⟨n + 1, h⟩) (iblk1 V c 2 ⟨n + 1, h⟩) (iblk1 V c 4 ⟨n + 1, h⟩)) (k1_pay8 (grid1.coords ⟨n + 1, h⟩) (iblk1 V c 2 ⟨n + 1, h⟩) (iblk1 V c 3 ⟨n + 1, h⟩)) (outsAt1 V c n (Nat.lt_of_succ_lt h)).2.2 := by
  have h0 : ¬(⟨n + 1, h⟩ : Fin cfg1.N).val % 256 = 0 := by have := lt256 h; dsimp only; omega
  by_cases h1 : (⟨n + 1, h⟩ : Fin cfg1.N).val % 256 = 255
  · have e : outsAt1 V c (n + 1) h = _ := outsAt1_C V c ⟨n + 1, h⟩ h0 h1
    rw [e]
    exact last_count c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) scM1_1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2
  · have e : outsAt1 V c (n + 1) h = _ := outsAt1_B V c ⟨n + 1, h⟩ h0 h1
    rw [e]
    exact middle_count c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) scM1_1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2

/-- After point n + 1: both accumulators. -/
theorem acc_succ (c : Dev nD) (n : ℕ) (h : n + 1 < cfg1.N) :
    (outsAt1 V c (n + 1) h).2.1 = k1_pay10 (k1_pay3 (iblk1 V c 0 ⟨n + 1, h⟩)) (k1_pay4 (iblk1 V c 1 ⟨n + 1, h⟩)) (k1_pay7 (grid1.coords ⟨n + 1, h⟩) (iblk1 V c 2 ⟨n + 1, h⟩) (iblk1 V c 4 ⟨n + 1, h⟩)) (k1_pay8 (grid1.coords ⟨n + 1, h⟩) (iblk1 V c 2 ⟨n + 1, h⟩) (iblk1 V c 3 ⟨n + 1, h⟩)) (outsAt1 V c n (Nat.lt_of_succ_lt h)).2.1
    ∧ (outsAt1 V c (n + 1) h).2.2 = k1_pay11 (k1_pay7 (grid1.coords ⟨n + 1, h⟩) (iblk1 V c 2 ⟨n + 1, h⟩) (iblk1 V c 4 ⟨n + 1, h⟩)) (k1_pay8 (grid1.coords ⟨n + 1, h⟩) (iblk1 V c 2 ⟨n + 1, h⟩) (iblk1 V c 3 ⟨n + 1, h⟩)) (outsAt1 V c n (Nat.lt_of_succ_lt h)).2.2 :=
  ⟨acc_succ_hinge V c n h, acc_succ_count V c n h⟩

/-- At a last point (one whose position is 255 modulo 256) the first output block is the hinge accumulator: both hold
    the payload of the one store, the output by reading it back. Stated at a symbolic point. -/
theorem out_last_hinge_at (c : Dev nD) (n : ℕ) (h : n < cfg1.N) (hn : n % 256 = 255) :
    (outsAt1 V c n h).1.1 = (outsAt1 V c n h).2.1 := by
  have h0 : ¬(⟨n, h⟩ : Fin cfg1.N).val % 256 = 0 := by dsimp only; omega
  have h1 : (⟨n, h⟩ : Fin cfg1.N).val % 256 = 255 := hn
  have e : outsAt1 V c n h = _ := outsAt1_C V c ⟨n, h⟩ h0 h1
  rw [e]
  exact (last_out_hinge c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) scM1_0 (Memref.isWhole_whole _) scM1_1 (Memref.isWhole_whole _) (fun hh => h0 ((hcond1_0 ⟨n, h⟩).mp hh)) ((hcond1_1 ⟨n, h⟩).mpr h1) (iblk1 V c 0 ⟨n, h⟩) (iblk1 V c 1 ⟨n, h⟩) (iblk1 V c 2 ⟨n, h⟩) (iblk1 V c 3 ⟨n, h⟩) (iblk1 V c 4 ⟨n, h⟩) (outsAt1 V c (n - 1) (Nat.lt_of_le_of_lt (Nat.sub_le _ _) h)).2.1 (outsAt1 V c (n - 1) (Nat.lt_of_le_of_lt (Nat.sub_le _ _) h)).2.2).trans
    (last_hinge c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) scM1_0 (Memref.isWhole_whole _) scM1_1 (Memref.isWhole_whole _) (fun hh => h0 ((hcond1_0 ⟨n, h⟩).mp hh)) ((hcond1_1 ⟨n, h⟩).mpr h1) (iblk1 V c 0 ⟨n, h⟩) (iblk1 V c 1 ⟨n, h⟩) (iblk1 V c 2 ⟨n, h⟩) (iblk1 V c 3 ⟨n, h⟩) (iblk1 V c 4 ⟨n, h⟩) (outsAt1 V c (n - 1) (Nat.lt_of_le_of_lt (Nat.sub_le _ _) h)).2.1 (outsAt1 V c (n - 1) (Nat.lt_of_le_of_lt (Nat.sub_le _ _) h)).2.2).symm

/-- At a last point the second output block is the count accumulator. -/
theorem out_last_count_at (c : Dev nD) (n : ℕ) (h : n < cfg1.N) (hn : n % 256 = 255) :
    (outsAt1 V c n h).1.2 = (outsAt1 V c n h).2.2 := by
  have h0 : ¬(⟨n, h⟩ : Fin cfg1.N).val % 256 = 0 := by dsimp only; omega
  have h1 : (⟨n, h⟩ : Fin cfg1.N).val % 256 = 255 := hn
  have e : outsAt1 V c n h = _ := outsAt1_C V c ⟨n, h⟩ h0 h1
  rw [e]
  exact (last_out_count c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) scM1_0 (Memref.isWhole_whole _) scM1_1 (Memref.isWhole_whole _) (fun hh => h0 ((hcond1_0 ⟨n, h⟩).mp hh)) ((hcond1_1 ⟨n, h⟩).mpr h1) (iblk1 V c 0 ⟨n, h⟩) (iblk1 V c 1 ⟨n, h⟩) (iblk1 V c 2 ⟨n, h⟩) (iblk1 V c 3 ⟨n, h⟩) (iblk1 V c 4 ⟨n, h⟩) (outsAt1 V c (n - 1) (Nat.lt_of_le_of_lt (Nat.sub_le _ _) h)).2.1 (outsAt1 V c (n - 1) (Nat.lt_of_le_of_lt (Nat.sub_le _ _) h)).2.2).trans
    (last_count c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) scM1_0 (Memref.isWhole_whole _) scM1_1 (Memref.isWhole_whole _) (fun hh => h0 ((hcond1_0 ⟨n, h⟩).mp hh)) ((hcond1_1 ⟨n, h⟩).mpr h1) (iblk1 V c 0 ⟨n, h⟩) (iblk1 V c 1 ⟨n, h⟩) (iblk1 V c 2 ⟨n, h⟩) (iblk1 V c 3 ⟨n, h⟩) (iblk1 V c 4 ⟨n, h⟩) (outsAt1 V c (n - 1) (Nat.lt_of_le_of_lt (Nat.sub_le _ _) h)).2.1 (outsAt1 V c (n - 1) (Nat.lt_of_le_of_lt (Nat.sub_le _ _) h)).2.2).symm

/-- After the last point, 255: both output blocks are the accumulators. -/
theorem out_last (c : Dev nD) (h : 255 < cfg1.N) :
    (outsAt1 V c 255 h).1.1 = (outsAt1 V c 255 h).2.1 ∧ (outsAt1 V c 255 h).1.2 = (outsAt1 V c 255 h).2.2 :=
  ⟨out_last_hinge_at V c 255 h (by decide), out_last_count_at V c 255 h (by decide)⟩

end Cert.KernelIdeal.Hand

end
-- ==== Proof.LibOuterLayout.lean ====
/-
  The casts and broadcasts by which two matrices and a table of weights are combined into one rank-3
  array, read at coordinates.

  A kernel that forms  out[i, j, k] = d[i, j] * (p[i, k] + q[j, k])  from matrices p, q : [a, c] / [b, c]
  and d : [a, b] gives each a unit axis and broadcasts it along that axis:
      p : [a, c] -> [a, 1, c] -> [a, b, c]   read at (i, j, k) is p (i, k)
      q : [b, c] -> [1, b, c] -> [a, b, c]   read at (i, j, k) is q (j, k)
      d : [a, b] -> [a, b, 1] -> [a, b, c]   read at (i, j, k) is d (i, j)
  Each lemma reads one such operation at an index written by coordinates; also the cast that drops two
  leading unit axes of a [1, 1, a, b] slab.  Generic in the extents and in the element type.
-/
import Idealize.ShloMosaic.Lib.Pipeline.Value
import Idealize.ShloMosaic.Lib.ValueIdx

noncomputable section

namespace OuterLayout

open Idealize.ShloMosaic Idealize.ShloMosaic.ValueIdx

variable {α : Type}

/-- A [1, 1, a, b] slab cast to [a, b] reads, at (i, j), the slab at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end OuterLayout

end
-- ==== Proof.LibAdjacentSquares.lean ====
/-
  Sums of squared differences of adjacent slices of a rank-3 array, read index by index on the extended reals.

  A tiled program forms, from a slab t of m consecutive slices along one axis, the n = m - 1 differences of
  adjacent slices (a slice of t from offset 1 minus the slice from offset 0), squares them and adds the squares
  over the two other axes, one axis at a time.  Entry p of the result is the double sum, over the two other
  coordinates, of (t at slice p+1 minus t at slice p) squared.  The three lemmas `adj0`, `adj1`, `adj2` say
  this for a slab cut along the first, second and third axis, for any extents; the order of the two sums is the
  order in which the program adds (inner sum first).  After them \`chain0\`, \`chain1\`, \`chain2\`: the same with the slab loaded as a block [1, 1, ·, ·, ·] and the
  result stored as a block [1, 1, n].  Before them: a sum of a rank-3 or rank-2 array over one
  axis, a slice of a rank-3 array, and the casts [1,1,a,b,c] -> [a,b,c] and [n] -> [1,1,n], each read at
  coordinates.  Nothing is assumed finite.
-/
import Idealize.ShloMosaic.PureOps.Ideal.Laws
import Idealize.ShloMosaic.Lib.ValueIdx
import Idealize.ShloMosaic.Lib.Pipeline.Value

noncomputable section

namespace AdjacentSquares

open Idealize.ShloMosaic Idealize.ShloMosaic.ValueIdx

/-! ## Sums over one axis -/

/-- The sum of a rank-3 array over its last axis, at (p, q). -/
theorem sum3_axis2 {n0 n1 n2 : Nat} (v : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (p : Fin n0) (q : Fin n1) :
    multiReduction .add [2] ⟨2, ![n0, n1]⟩ v 0x00000000#32 h hφ hacc (ix2 p q) = ∑ k : Fin n2, v (ix3 p q k) :=
  (Ideal.multiReduction_add_single v 0x00000000#32 h hφ hacc (ix2 p q)).trans
    (Finset.sum_congr rfl fun k _ => congrArg v (funext fun a => Fin.ext (by
      match a with
      | ⟨0, _⟩ => rfl
      | ⟨1, _⟩ => rfl
      | ⟨2, _⟩ => rfl)))

/-- The sum of a rank-3 array over its first axis, at (q, r). -/
theorem sum3_axis0 {n0 n1 n2 : Nat} (v : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (q : Fin n1) (r : Fin n2) :
    multiReduction .add [0] ⟨2, ![n1, n2]⟩ v 0x00000000#32 h hφ hacc (ix2 q r) = ∑ k : Fin n0, v (ix3 k q r) :=
  (Ideal.multiReduction_add_single v 0x00000000#32 h hφ hacc (ix2 q r)).trans
    (Finset.sum_congr rfl fun k _ => congrArg v (funext fun a => Fin.ext (by
      match a with
      | ⟨0, _⟩ => rfl
      | ⟨1, _⟩ => rfl
      | ⟨2, _⟩ => rfl)))

/-- The sum of a rank-2 array over its last axis, at p. -/
theorem sum2_axis1 {n0 n1 : Nat} (v : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction .add [1] ⟨1, ![n0]⟩ v 0x00000000#32 h hφ hacc (ix1 p) = ∑ k : Fin n1, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- The sum of a rank-2 array over its first axis, at q. -/
theorem sum2_axis0 {n0 n1 : Nat} (v : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ v 0x00000000#32 h hφ hacc (ix1 q) = ∑ k : Fin n0, v (ix2 k q) :=
  (Ideal.multiReduction_add_single v 0x00000000#32 h hφ hacc (ix1 q)).trans
    (Finset.sum_congr rfl fun k _ => congrArg v (funext fun a => Fin.ext (by
      match a with
      | ⟨0, _⟩ => rfl
      | ⟨1, _⟩ => rfl)))

/-! ## A slice and two casts -/

/-- A unit-stride slice of a rank-3 array at (j0, j1, j2) is the array at the offsets plus the coordinates. -/
theorem slice3 {α : Type} {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (j0 : Fin m0) (j1 : Fin m1) (j2 : Fin m2) (k0 : Fin n0) (k1 : Fin n1) (k2 : Fin n2)
    (h0 : k0.val = o0 + j0.val) (h1 : k1.val = o1 + j1.val) (h2 : k2.val = o2 + j2.val) :
    extractStridedSlice ⟨3, ![m0, m1, m2]⟩ ![o0, o1, o2] X h (ix3 j0 j1 j2) = X (ix3 k0 k1 k2) :=
  extractStridedSlice_apply _ _ _ _ _ (fun ax => by
    match ax with
    | ⟨0, _⟩ => exact h0
    | ⟨1, _⟩ => exact h1
    | ⟨2, _⟩ => exact h2)

/-- A block [1, 1, a, b, c] viewed as [a, b, c] reads (0, 0, i, j, k) at (i, j, k). -/
theorem cast5_3 {α : Type} {a b c : Nat} (v : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ v h (ix3 i j k) = v (ix5 0 0 i j k) :=
  shapeCast_apply v h (ix3 i j k) (ix5 0 0 i j k) (by
    rw [Shape.rowMajor_val_three, Shape.rowMajor_val_five]
    show ((((0 * 1 + 0) * a + i.val) * b + j.val) * c + k.val) = (i.val * b + j.val) * c + k.val
    simp)

/-- A vector [n] stored as a block [1, 1, n] reads p at (0, 0, p). -/
theorem cast1_3 {α : Type} {n : Nat} (v : (⟨1, ![n]⟩ : Shape).Idx → α)
    (h : (⟨1, ![n]⟩ : Shape).ShapeCasts ⟨3, ![1, 1, n]⟩) (u0 u1 : Fin 1) (p : Fin n) :
    shapeCast ⟨3, ![1, 1, n]⟩ v h (ix3 u0 u1 p) = v (ix1 p) :=
  shapeCast_apply v h (ix3 u0 u1 p) (ix1 p) (by
    rw [Shape.rowMajor_val_three, Shape.rowMajor_val_one]
    show p.val = (u0.val * 1 + u1.val) * n + p.val
    have h0 : u0.val = 0 := by have := u0.isLt; omega
    have h1 : u1.val = 0 := by have := u1.isLt; omega
    rw [h0, h1]; simp)

/-! ## Squared adjacent differences summed over the two other axes -/

/-- Slab cut along the FIRST axis, [m, a, b], n ≤ m - 1 pairs: summed over the last axis, then over the middle one. -/
theorem adj0 {m n a b : Nat} (hm : n + 1 ≤ m) (t : FVec Ideal ⟨3, ![m, a, b]⟩ .f32)
    (hs1 : (⟨3, ![m, a, b]⟩ : Shape).Slices ![1, 0, 0] ⟨3, ![n, a, b]⟩)
    (hs0 : (⟨3, ![m, a, b]⟩ : Shape).Slices ![0, 0, 0] ⟨3, ![n, a, b]⟩)
    (h2 : (⟨3, ![n, a, b]⟩ : Shape).Reduces [2] ⟨2, ![n, a]⟩) (h1 : (⟨2, ![n, a]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [1] ⟨1, ![n]⟩
      (multiReduction .add [2] ⟨2, ![n, a]⟩
        (mulf (subf (extractStridedSlice ⟨3, ![n, a, b]⟩ ![1, 0, 0] t hs1) (extractStridedSlice ⟨3, ![n, a, b]⟩ ![0, 0, 0] t hs0))
              (subf (extractStridedSlice ⟨3, ![n, a, b]⟩ ![1, 0, 0] t hs1) (extractStridedSlice ⟨3, ![n, a, b]⟩ ![0, 0, 0] t hs0)))
        0x00000000#32 h2 hφ hacc) 0x00000000#32 h1 hφ' hacc' (ix1 p)
    = ∑ k : Fin a, ∑ l : Fin b,
        (t (ix3 ⟨p.val + 1, by have := p.isLt; omega⟩ k l) - t (ix3 ⟨p.val, by have := p.isLt; omega⟩ k l))
          * (t (ix3 ⟨p.val + 1, by have := p.isLt; omega⟩ k l) - t (ix3 ⟨p.val, by have := p.isLt; omega⟩ k l)) := by
  refine (sum2_axis1 _ h1 hφ' hacc' p).trans (Finset.sum_congr rfl fun k _ => ?_)
  refine (sum3_axis2 _ h2 hφ hacc p k).trans (Finset.sum_congr rfl fun l _ => ?_)
  have e1 := slice3 1 0 0 t hs1 p k l ⟨p.val + 1, by have := p.isLt; omega⟩ k l
    (by show p.val + 1 = 1 + p.val; omega) (Nat.zero_add _).symm (Nat.zero_add _).symm
  have e0 := slice3 0 0 0 t hs0 p k l ⟨p.val, by have := p.isLt; omega⟩ k l
    (Nat.zero_add _).symm (Nat.zero_add _).symm (Nat.zero_add _).symm
  show (extractStridedSlice _ _ t hs1 (ix3 p k l) - extractStridedSlice _ _ t hs0 (ix3 p k l))
      * (extractStridedSlice _ _ t hs1 (ix3 p k l) - extractStridedSlice _ _ t hs0 (ix3 p k l)) = _
  rw [e1, e0]

/-- Slab cut along the MIDDLE axis, [a, m, b]: summed over the first axis, then over the last one. -/
theorem adj1 {m n a b : Nat} (hm : n + 1 ≤ m) (t : FVec Ideal ⟨3, ![a, m, b]⟩ .f32)
    (hs1 : (⟨3, ![a, m, b]⟩ : Shape).Slices ![0, 1, 0] ⟨3, ![a, n, b]⟩)
    (hs0 : (⟨3, ![a, m, b]⟩ : Shape).Slices ![0, 0, 0] ⟨3, ![a, n, b]⟩)
    (h0 : (⟨3, ![a, n, b]⟩ : Shape).Reduces [0] ⟨2, ![n, b]⟩) (h1 : (⟨2, ![n, b]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [1] ⟨1, ![n]⟩
      (multiReduction .add [0] ⟨2, ![n, b]⟩
        (mulf (subf (extractStridedSlice ⟨3, ![a, n, b]⟩ ![0, 1, 0] t hs1) (extractStridedSlice ⟨3, ![a, n, b]⟩ ![0, 0, 0] t hs0))
              (subf (extractStridedSlice ⟨3, ![a, n, b]⟩ ![0, 1, 0] t hs1) (extractStridedSlice ⟨3, ![a, n, b]⟩ ![0, 0, 0] t hs0)))
        0x00000000#32 h0 hφ hacc) 0x00000000#32 h1 hφ' hacc' (ix1 p)
    = ∑ l : Fin b, ∑ k : Fin a,
        (t (ix3 k ⟨p.val + 1, by have := p.isLt; omega⟩ l) - t (ix3 k ⟨p.val, by have := p.isLt; omega⟩ l))
          * (t (ix3 k ⟨p.val + 1, by have := p.isLt; omega⟩ l) - t (ix3 k ⟨p.val, by have := p.isLt; omega⟩ l)) := by
  refine (sum2_axis1 _ h1 hφ' hacc' p).trans (Finset.sum_congr rfl fun l _ => ?_)
  refine (sum3_axis0 _ h0 hφ hacc p l).trans (Finset.sum_congr rfl fun k _ => ?_)
  have e1 := slice3 0 1 0 t hs1 k p l k ⟨p.val + 1, by have := p.isLt; omega⟩ l
    (Nat.zero_add _).symm (by show p.val + 1 = 1 + p.val; omega) (Nat.zero_add _).symm
  have e0 := slice3 0 0 0 t hs0 k p l k ⟨p.val, by have := p.isLt; omega⟩ l
    (Nat.zero_add _).symm (Nat.zero_add _).symm (Nat.zero_add _).symm
  show (extractStridedSlice _ _ t hs1 (ix3 k p l) - extractStridedSlice _ _ t hs0 (ix3 k p l))
      * (extractStridedSlice _ _ t hs1 (ix3 k p l) - extractStridedSlice _ _ t hs0 (ix3 k p l)) = _
  rw [e1, e0]

/-- Slab cut along the LAST axis, [a, b, m]: summed over the first axis, then over the (former) middle one. -/
theorem adj2 {m n a b : Nat} (hm : n + 1 ≤ m) (t : FVec Ideal ⟨3, ![a, b, m]⟩ .f32)
    (hs1 : (⟨3, ![a, b, m]⟩ : Shape).Slices ![0, 0, 1] ⟨3, ![a, b, n]⟩)
    (hs0 : (⟨3, ![a, b, m]⟩ : Shape).Slices ![0, 0, 0] ⟨3, ![a, b, n]⟩)
    (h0 : (⟨3, ![a, b, n]⟩ : Shape).Reduces [0] ⟨2, ![b, n]⟩) (h0' : (⟨2, ![b, n]⟩ : Shape).Reduces [0] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [0] ⟨1, ![n]⟩
      (multiReduction .add [0] ⟨2, ![b, n]⟩
        (mulf (subf (extractStridedSlice ⟨3, ![a, b, n]⟩ ![0, 0, 1] t hs1) (extractStridedSlice ⟨3, ![a, b, n]⟩ ![0, 0, 0] t hs0))
              (subf (extractStridedSlice ⟨3, ![a, b, n]⟩ ![0, 0, 1] t hs1) (extractStridedSlice ⟨3, ![a, b, n]⟩ ![0, 0, 0] t hs0)))
        0x00000000#32 h0 hφ hacc) 0x00000000#32 h0' hφ' hacc' (ix1 p)
    = ∑ l : Fin b, ∑ k : Fin a,
        (t (ix3 k l ⟨p.val + 1, by have := p.isLt; omega⟩) - t (ix3 k l ⟨p.val, by have := p.isLt; omega⟩))
          * (t (ix3 k l ⟨p.val + 1, by have := p.isLt; omega⟩) - t (ix3 k l ⟨p.val, by have := p.isLt; omega⟩)) := by
  refine (sum2_axis0 _ h0' hφ' hacc' p).trans (Finset.sum_congr rfl fun l _ => ?_)
  refine (sum3_axis0 _ h0 hφ hacc l p).trans (Finset.sum_congr rfl fun k _ => ?_)
  have e1 := slice3 0 0 1 t hs1 k l p k l ⟨p.val + 1, by have := p.isLt; omega⟩
    (Nat.zero_add _).symm (Nat.zero_add _).symm (by show p.val + 1 = 1 + p.val; omega)
  have e0 := slice3 0 0 0 t hs0 k l p k l ⟨p.val, by have := p.isLt; omega⟩
    (Nat.zero_add _).symm (Nat.zero_add _).symm (Nat.zero_add _).symm
  show (extractStridedSlice _ _ t hs1 (ix3 k l p) - extractStridedSlice _ _ t hs0 (ix3 k l p))
      * (extractStridedSlice _ _ t hs1 (ix3 k l p) - extractStridedSlice _ _ t hs0 (ix3 k l p)) = _
  rw [e1, e0]

/-! ## The whole chain, from a loaded slab [1, 1, ·, ·, ·] to the stored block [1, 1, n] -/

/-- Slab [1, 1, m, a, b] cut along its third axis: entry (0, 0, p) of the stored block. -/
theorem chain0 {m n a b : Nat} (hm : n + 1 ≤ m) (v : FVec Ideal ⟨5, ![1, 1, m, a, b]⟩ .f32)
    (hc5 : (⟨5, ![1, 1, m, a, b]⟩ : Shape).ShapeCasts ⟨3, ![m, a, b]⟩)
    (hs1 : (⟨3, ![m, a, b]⟩ : Shape).Slices ![1, 0, 0] ⟨3, ![n, a, b]⟩)
    (hs0 : (⟨3, ![m, a, b]⟩ : Shape).Slices ![0, 0, 0] ⟨3, ![n, a, b]⟩)
    (h2 : (⟨3, ![n, a, b]⟩ : Shape).Reduces [2] ⟨2, ![n, a]⟩) (h1 : (⟨2, ![n, a]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [1] ⟨1, ![n]⟩
        (multiReduction .add [2] ⟨2, ![n, a]⟩
          (mulf (subf (extractStridedSlice ⟨3, ![n, a, b]⟩ ![1, 0, 0] (shapeCast ⟨3, ![m, a, b]⟩ v hc5) hs1)
                      (extractStridedSlice ⟨3, ![n, a, b]⟩ ![0, 0, 0] (shapeCast ⟨3, ![m, a, b]⟩ v hc5) hs0))
                (subf (extractStridedSlice ⟨3, ![n, a, b]⟩ ![1, 0, 0] (shapeCast ⟨3, ![m, a, b]⟩ v hc5) hs1)
                      (extractStridedSlice ⟨3, ![n, a, b]⟩ ![0, 0, 0] (shapeCast ⟨3, ![m, a, b]⟩ v hc5) hs0)))
          0x00000000#32 h2 hφ hacc) 0x00000000#32 h1 hφ' hacc') hc1 (ix3 u0 u1 p)
    = ∑ k : Fin a, ∑ l : Fin b,
        (v (ix5 0 0 ⟨p.val + 1, by have := p.isLt; omega⟩ k l) - v (ix5 0 0 ⟨p.val, by have := p.isLt; omega⟩ k l))
          * (v (ix5 0 0 ⟨p.val + 1, by have := p.isLt; omega⟩ k l) - v (ix5 0 0 ⟨p.val, by have := p.isLt; omega⟩ k l)) := by
  refine (cast1_3 _ hc1 u0 u1 p).trans ?_
  refine (adj0 hm _ hs1 hs0 h2 h1 hφ hφ' hacc hacc' p).trans ?_
  refine Finset.sum_congr rfl fun k _ => Finset.sum_congr rfl fun l _ => ?_
  rw [cast5_3, cast5_3]

/-- Slab [1, 1, a, m, b] cut along its fourth axis. -/
theorem chain1 {m n a b : Nat} (hm : n + 1 ≤ m) (v : FVec Ideal ⟨5, ![1, 1, a, m, b]⟩ .f32)
    (hc5 : (⟨5, ![1, 1, a, m, b]⟩ : Shape).ShapeCasts ⟨3, ![a, m, b]⟩)
    (hs1 : (⟨3, ![a, m, b]⟩ : Shape).Slices ![0, 1, 0] ⟨3, ![a, n, b]⟩)
    (hs0 : (⟨3, ![a, m, b]⟩ : Shape).Slices ![0, 0, 0] ⟨3, ![a, n, b]⟩)
    (h0 : (⟨3, ![a, n, b]⟩ : Shape).Reduces [0] ⟨2, ![n, b]⟩) (h1 : (⟨2, ![n, b]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [1] ⟨1, ![n]⟩
        (multiReduction .add [0] ⟨2, ![n, b]⟩
          (mulf (subf (extractStridedSlice ⟨3, ![a, n, b]⟩ ![0, 1, 0] (shapeCast ⟨3, ![a, m, b]⟩ v hc5) hs1)
                      (extractStridedSlice ⟨3, ![a, n, b]⟩ ![0, 0, 0] (shapeCast ⟨3, ![a, m, b]⟩ v hc5) hs0))
                (subf (extractStridedSlice ⟨3, ![a, n, b]⟩ ![0, 1, 0] (shapeCast ⟨3, ![a, m, b]⟩ v hc5) hs1)
                      (extractStridedSlice ⟨3, ![a, n, b]⟩ ![0, 0, 0] (shapeCast ⟨3, ![a, m, b]⟩ v hc5) hs0)))
          0x00000000#32 h0 hφ hacc) 0x00000000#32 h1 hφ' hacc') hc1 (ix3 u0 u1 p)
    = ∑ l : Fin b, ∑ k : Fin a,
        (v (ix5 0 0 k ⟨p.val + 1, by have := p.isLt; omega⟩ l) - v (ix5 0 0 k ⟨p.val, by have := p.isLt; omega⟩ l))
          * (v (ix5 0 0 k ⟨p.val + 1, by have := p.isLt; omega⟩ l) - v (ix5 0 0 k ⟨p.val, by have := p.isLt; omega⟩ l)) := by
  refine (cast1_3 _ hc1 u0 u1 p).trans ?_
  refine (adj1 hm _ hs1 hs0 h0 h1 hφ hφ' hacc hacc' p).trans ?_
  refine Finset.sum_congr rfl fun l _ => Finset.sum_congr rfl fun k _ => ?_
  rw [cast5_3, cast5_3]

/-- Slab [1, 1, a, b, m] cut along its fifth axis. -/
theorem chain2 {m n a b : Nat} (hm : n + 1 ≤ m) (v : FVec Ideal ⟨5, ![1, 1, a, b, m]⟩ .f32)
    (hc5 : (⟨5, ![1, 1, a, b, m]⟩ : Shape).ShapeCasts ⟨3, ![a, b, m]⟩)
    (hs1 : (⟨3, ![a, b, m]⟩ : Shape).Slices ![0, 0, 1] ⟨3, ![a, b, n]⟩)
    (hs0 : (⟨3, ![a, b, m]⟩ : Shape).Slices ![0, 0, 0] ⟨3, ![a, b, n]⟩)
    (h0 : (⟨3, ![a, b, n]⟩ : Shape).Reduces [0] ⟨2, ![b, n]⟩) (h0' : (⟨2, ![b, n]⟩ : Shape).Reduces [0] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [0] ⟨1, ![n]⟩
        (multiReduction .add [0] ⟨2, ![b, n]⟩
          (mulf (subf (extractStridedSlice ⟨3, ![a, b, n]⟩ ![0, 0, 1] (shapeCast ⟨3, ![a, b, m]⟩ v hc5) hs1)
                      (extractStridedSlice ⟨3, ![a, b, n]⟩ ![0, 0, 0] (shapeCast ⟨3, ![a, b, m]⟩ v hc5) hs0))
                (subf (extractStridedSlice ⟨3, ![a, b, n]⟩ ![0, 0, 1] (shapeCast ⟨3, ![a, b, m]⟩ v hc5) hs1)
                      (extractStridedSlice ⟨3, ![a, b, n]⟩ ![0, 0, 0] (shapeCast ⟨3, ![a, b, m]⟩ v hc5) hs0)))
          0x00000000#32 h0 hφ hacc) 0x00000000#32 h0' hφ' hacc') hc1 (ix3 u0 u1 p)
    = ∑ l : Fin b, ∑ k : Fin a,
        (v (ix5 0 0 k l ⟨p.val + 1, by have := p.isLt; omega⟩) - v (ix5 0 0 k l ⟨p.val, by have := p.isLt; omega⟩))
          * (v (ix5 0 0 k l ⟨p.val + 1, by have := p.isLt; omega⟩) - v (ix5 0 0 k l ⟨p.val, by have := p.isLt; omega⟩)) := by
  refine (cast1_3 _ hc1 u0 u1 p).trans ?_
  refine (adj2 hm _ hs1 hs0 h0 h0' hφ hφ' hacc hacc' p).trans ?_
  refine Finset.sum_congr rfl fun l _ => Finset.sum_congr rfl fun k _ => ?_
  rw [cast5_3, cast5_3]

end AdjacentSquares

end
-- ==== Proof.IdealPayloads.lean ====
/-
  The second kernel's arithmetic, read at an index on the extended reals.

  At a grid point (bi, bk) the body holds the rows bi·8 … bi·8+7 of the distance matrix against all 512 columns
  (x0) and against the 128 columns of lane block bk (x1), the labels of its 8 anchors (x2), all 512 labels (x3)
  and the 128 labels of the lane block (x4). It builds two masks and adds two totals to its accumulators:

  * the positive mask at (r, p): column p is not the anchor's own position bi·8 + r, and carries the anchor's
    label; as a float it is the number 1 or 0;
  * the negative mask at (r, k): column bk·128 + k is not the anchor's own position, and does not carry the
    anchor's label (the complement of "equal" is taken by exclusive-or with the all-ones bit);
  * the hinge total: the sum over r, p, k of max (x0 (r, p) − x1 (r, k) + 1) 0 times the two masks' numbers;
  * the count: the sum over r of (number of positives of r) · (number of negatives of r in the lane block).

  The positions are formed as 32-bit words (a coordinate plus the block's offset); all of them are below 512, so
  nothing wraps and comparing the words is comparing the numbers.
-/
import proofs.«147143_j19576460935202_2_alg».proof.Proof.Gen.KernelIdeal.Skeleton
import proofs.«147143_j19576460935202_2_alg».proof.Proof.LibTripletLoss
import proofs.«147143_j19576460935202_2_alg».proof.Proof.LibOuterLayout
import proofs.«147143_j19576460935202_2_alg».proof.Proof.LibAdjacentSquares
import proofs.«147143_j19576460935202_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.Affine

noncomputable section

namespace Cert.KernelIdeal.Hand

open Cert.KernelIdeal Cert.KernelIdeal.Gen Idealize.ShloMosaic Idealize.ShloMosaic.ValueIdx

/-! ## Words -/

/-- The number of a proposition depends on the proposition only up to equivalence. -/
theorem ind_congr {P Q : Prop} {dP : Decidable P} {dQ : Decidable Q} (h : P ↔ Q) :
    @TripletLoss.ind P dP = @TripletLoss.ind Q dQ := by
  unfold TripletLoss.ind
  by_cases hp : P
  · rw [if_pos hp, if_pos (h.mp hp)]
  · rw [if_neg hp, if_neg (fun hq => hp (h.mpr hq))]

/-- A bit widened to a 32-bit word, read signed and converted to a float, is the number 1 or 0 of "the bit is set". -/
theorem sitofp_bit (c : BitVec 1) :
    (FloatOps.sitofp (F := Ideal) .f32 (c.setWidth 32) : Ideal .f32) = TripletLoss.ind (c = 1#1) := by
  show ((((c.setWidth 32).toInt : ℤ) : ℝ) : EReal) = _
  rcases BitVec.eq_zero_or_eq_one c with h | h <;> subst h
  · have h0 : ((0#1 : BitVec 1).setWidth 32).toInt = 0 := by decide
    rw [h0, Int.cast_zero, EReal.coe_zero]
    exact (if_neg (by decide)).symm
  · have h1 : ((1#1 : BitVec 1).setWidth 32).toInt = 1 := by decide
    rw [h1, Int.cast_one, EReal.coe_one]
    exact (if_pos rfl).symm

/-- Exclusive-or with the set bit is set exactly when the bit is not. -/
theorem xori_one_eq_one_iff : ∀ c : BitVec 1, IntOp.xori c 1#1 = 1#1 ↔ ¬ c = 1#1 := by decide

/-- Below 2³² two numbers are equal as 32-bit words exactly when they are equal. -/
theorem ofNat_inj_lt {a b : ℕ} (ha : a < 2 ^ 32) (hb : b < 2 ^ 32) :
    BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-- A coordinate plus a block's offset, formed as words, is the word of the position. -/
theorem ofNat_add_mul (c b n : ℕ) :
    IntOp.addi (BitVec.ofNat 32 c) (Scalar.muli (BitVec.ofNat 32 b) (BitVec.ofNat 32 n)) = BitVec.ofNat 32 (b * n + c) := by
  show BitVec.ofNat 32 c + BitVec.ofNat 32 b * BitVec.ofNat 32 n = _
  rw [BitVec.ofNat_add, BitVec.ofNat_mul, BitVec.add_comm]

/-! ## The identity casts and the two position vectors -/

theorem pay3_eq (x0 : Vec Ideal S8x512 .f32) : k1_pay3 (F := Ideal) x0 = x0 := shapeCast_self x0 _
theorem pay4_eq (x1 : Vec Ideal S8x128 .f32) : k1_pay4 (F := Ideal) x1 = x1 := shapeCast_self x1 _
theorem pay5_eq (x2 : Vec Ideal S8x1 .i32) : k1_pay5 (F := Ideal) x2 = x2 := shapeCast_self x2 _

/-- The anchors' positions: row r of row block (i 0) is position (i 0) · 8 + r. -/
theorem pay6_apply (i : grid1.Coords) (r : Fin 8) (u : Fin 1) :
    k1_pay6 i (ix2 r u) = BitVec.ofNat 32 ((i 0).val * 8 + r.val) := by
  have h1 : k1_pay6 i (ix2 r u)
      = IntOp.addi (iota .tc S8x1 32 [0] iota_S8x1_d0_w32 (ix2 r u)) (Scalar.muli (BitVec.ofNat 32 (i 0).val) (BitVec.ofNat 32 8)) := rfl
  rw [h1, iota_single_apply]
  exact ofNat_add_mul r.val (i 0).val 8

/-- The lane block's positions: lane k of lane block (i 1) is position (i 1) · 128 + k. -/
theorem lane_apply (i : grid1.Coords) (u : Fin 1) (k : Fin 128) :
    addi (iota .tc S1x128 32 [1] iota_S1x128_d1_w32) (broadcast S1x128 (Scalar.muli (BitVec.ofNat 32 (i 1).val) 128#32)) (ix2 u k)
      = BitVec.ofNat 32 ((i 1).val * 128 + k.val) := by
  have h1 : addi (iota .tc S1x128 32 [1] iota_S1x128_d1_w32) (broadcast S1x128 (Scalar.muli (BitVec.ofNat 32 (i 1).val) 128#32)) (ix2 u k)
      = IntOp.addi (iota .tc S1x128 32 [1] iota_S1x128_d1_w32 (ix2 u k)) (Scalar.muli (BitVec.ofNat 32 (i 1).val) (BitVec.ofNat 32 128)) := rfl
  rw [h1, iota_single_apply]
  exact ofNat_add_mul k.val (i 1).val 128

/-! ## The two masks -/

/-- The positive mask as a float, at row r and column p: 1 when p is not the anchor's own position and carries
    the anchor's label, else 0. -/
theorem pay8_apply (i : grid1.Coords) (x2 : Vec Ideal S8x1 .i32) (x3 : Vec Ideal S1x512 .i32) (r : Fin 8) (p : Fin 512) :
    k1_pay8 (F := Ideal) i x2 x3 (ix2 r p)
      = TripletLoss.ind (p.val ≠ (i 0).val * 8 + r.val ∧ x3 (ix2 0 p) = x2 (ix2 r 0)) := by
  have h1 : k1_pay8 (F := Ideal) i x2 x3 (ix2 r p)
      = FloatOps.sitofp (F := Ideal) .f32 ((IntOp.andi
          (IntOp.cmpi .ne (broadcastTo S8x512 (iota .tc S1x512 32 [1] iota_S1x512_d1_w32) broadcasts_S1x512_S8x512 (ix2 r p))
                          (broadcastTo S8x512 (k1_pay6 i) broadcasts_S8x1_S8x512 (ix2 r p)))
          (IntOp.cmpi .eq (broadcastTo S8x512 (shapeCast S1x512 x3 shapeCasts_S1x512_S1x512) broadcasts_S1x512_S8x512 (ix2 r p))
                          (broadcastTo S8x512 (k1_pay5 (F := Ideal) x2) broadcasts_S8x1_S8x512 (ix2 r p)))).setWidth 32) := rfl
  rw [h1, sitofp_bit, broadcastTo_1b_ab_apply, Keepdims.broadcastTo_a1_ab_apply, broadcastTo_1b_ab_apply,
    Keepdims.broadcastTo_a1_ab_apply, iota_single_apply, pay6_apply, shapeCast_self, pay5_eq]
  refine ind_congr ?_
  rw [IntOp.andi_eq_one, IntOp.cmpi_ne, IntOp.cmpi_eq]
  have h0 : (i 0).val < 64 := (i 0).isLt
  have hp : p.val < 512 := p.isLt
  have hr : r.val < 8 := r.isLt
  exact Iff.and (not_congr (ofNat_inj_lt (show p.val < 2 ^ 32 by omega) (by omega))) Iff.rfl

/-- The negative mask as a float, at row r and lane k: 1 when lane k's position is not the anchor's own and its
    label is not the anchor's, else 0. -/
theorem pay9_pay7_apply (i : grid1.Coords) (x2 : Vec Ideal S8x1 .i32) (x4 : Vec Ideal S1x128 .i32) (r : Fin 8) (k : Fin 128) :
    k1_pay9 (F := Ideal) (k1_pay7 (F := Ideal) i x2 x4) (ix2 r k)
      = TripletLoss.ind ((i 1).val * 128 + k.val ≠ (i 0).val * 8 + r.val ∧ x4 (ix2 0 k) ≠ x2 (ix2 r 0)) := by
  have h1 : k1_pay9 (F := Ideal) (k1_pay7 (F := Ideal) i x2 x4) (ix2 r k)
      = FloatOps.sitofp (F := Ideal) .f32 ((IntOp.andi
          (IntOp.cmpi .ne (broadcastTo S8x128 (addi (iota .tc S1x128 32 [1] iota_S1x128_d1_w32)
                              (broadcast S1x128 (Scalar.muli (BitVec.ofNat 32 (i 1).val) 128#32))) broadcasts_S1x128_S8x128 (ix2 r k))
                          (broadcastTo S8x128 (k1_pay6 i) broadcasts_S8x1_S8x128 (ix2 r k)))
          (IntOp.xori (IntOp.cmpi .eq (broadcastTo S8x128 (shapeCast S1x128 x4 shapeCasts_S1x128_S1x128) broadcasts_S1x128_S8x128 (ix2 r k))
                                      (broadcastTo S8x128 (k1_pay5 (F := Ideal) x2) broadcasts_S8x1_S8x128 (ix2 r k))) 1#1)).setWidth 32) := rfl
  rw [h1, sitofp_bit, broadcastTo_1b_ab_apply, Keepdims.broadcastTo_a1_ab_apply, broadcastTo_1b_ab_apply,
    Keepdims.broadcastTo_a1_ab_apply, lane_apply, pay6_apply, shapeCast_self, pay5_eq]
  refine ind_congr ?_
  rw [IntOp.andi_eq_one, IntOp.cmpi_ne, xori_one_eq_one_iff, IntOp.cmpi_eq]
  have h0 : (i 0).val < 64 := (i 0).isLt
  have h1' : (i 1).val < 4 := (i 1).isLt
  have hk : k.val < 128 := k.isLt
  have hr : r.val < 8 := r.isLt
  exact Iff.and (not_congr (ofNat_inj_lt (by omega) (by omega))) Iff.rfl

/-! ## The accumulators' start -/

theorem pay1_apply : k1_pay1 (F := Ideal) (ix2 0 0) = 0 := by
  have h : k1_pay1 (F := Ideal) = broadcast S1x1 (Scalar.ofBits (F := Ideal) .f32 0x00000000#32) := shapeCast_self _ _
  rw [h]
  exact Ideal.ofBits_zero_f32

theorem pay2_apply : k1_pay2 (F := Ideal) (ix2 0 0) = 0 := by
  have h : k1_pay2 (F := Ideal) = broadcast S1x1 (Scalar.ofBits (F := Ideal) .f32 0x00000000#32) := shapeCast_self _ _
  rw [h]
  exact Ideal.ofBits_zero_f32

end Cert.KernelIdeal.Hand

end
-- ==== Proof.IdealPayloadSums.lean ====
/-
  The second kernel's two totals, read on the extended reals.

  At a grid point the body adds to its first accumulator the block's hinge total — the sum over its 8 anchors r,
  all 512 columns p and the 128 lanes k of its lane block of  max (x0 (r, p) − x1 (r, k) + 1) 0  times the
  positive mask's number at (r, p) and the negative mask's number at (r, k) — and to its second accumulator the
  block's count — the sum over r of (the sum over p of the positive mask) · (the sum over k of the negative
  mask). The program forms the rank-3 array of the terms by giving each matrix a unit axis and broadcasting it
  along that axis, and adds it up one axis at a time, lanes first; each one-axis sum from the zero word is the
  plain sum, and the casts and broadcasts only rename coordinates.
-/
import proofs.«147143_j19576460935202_2_alg».proof.Proof.IdealPayloads

noncomputable section

namespace Cert.KernelIdeal.Hand

open Cert.KernelIdeal Cert.KernelIdeal.Gen Idealize.ShloMosaic Idealize.ShloMosaic.ValueIdx

/-- A matrix over (row, column), given a trailing unit axis and broadcast along the lanes, reads its (r, p) entry
    at (r, p, k). -/
theorem rowsTo3_apply (v : FVec Ideal S8x512 .f32) (r : Fin 8) (p : Fin 512) (k : Fin 128) :
    broadcastTo S8x512x128 (shapeCast S8x512x1 (shapeCast S8x512x1 v shapeCasts_S8x512_S8x512x1) shapeCasts_S8x512x1_S8x512x1)
      broadcasts_S8x512x1_S8x512x128 (ix3 r p k) = v (ix2 r p) := by
  rw [shapeCast_self]
  exact (OuterLayout.broadcastTo_ab1_abc_apply _ _ r p k).trans (OuterLayout.shapeCast_ab_ab1_apply v _ r p 0)

/-- A matrix over (row, lane), given a middle unit axis and broadcast along the columns, reads its (r, k) entry
    at (r, p, k). -/
theorem lanesTo3_apply (v : FVec Ideal S8x128 .f32) (r : Fin 8) (p : Fin 512) (k : Fin 128) :
    broadcastTo S8x512x128 (shapeCast S8x1x128 (shapeCast S8x1x128 v shapeCasts_S8x128_S8x1x128) shapeCasts_S8x1x128_S8x1x128)
      broadcasts_S8x1x128_S8x512x128 (ix3 r p k) = v (ix2 r k) := by
  rw [shapeCast_self]
  exact (OuterLayout.broadcastTo_a1c_abc_apply _ _ r p k).trans (OuterLayout.shapeCast_ab_a1b_apply v _ r 0 k)

/-- The first accumulator after the point: the old value plus the block's hinge total, over any operands. -/
theorem pay10_apply' (v8 : FVec Ideal S8x512 .f32) (v10 : FVec Ideal S8x128 .f32) (v38 : IVec S8x128 1)
    (v40 : FVec Ideal S8x512 .f32) (v74 : Vec Ideal S1x1 .f32) :
    k1_pay10 (F := Ideal) v8 v10 v38 v40 v74 (ix2 0 0)
      = v74 (ix2 0 0) + ∑ r : Fin 8, ∑ p : Fin 512, ∑ k : Fin 128,
          (max (v8 (ix2 r p) - v10 (ix2 r k) + 1) 0 * v40 (ix2 r p)) * k1_pay9 (F := Ideal) v38 (ix2 r k) := by
  unfold k1_pay10
  refine (congrFun (shapeCast_self _ _) _).trans ?_
  refine (addf_apply _ _ _).trans ?_
  refine congrArg (v74 (ix2 0 0) + ·) ?_
  refine (shapeCast_a_1a_apply _ _ 0 0).trans ?_
  refine (AdjacentSquares.sum2_axis0 _ _ _ _ 0).trans ?_
  refine Finset.sum_congr rfl fun r _ => ?_
  refine (Keepdims.shapeCast_a_a1_apply _ _ r 0).trans ?_
  refine (AdjacentSquares.sum2_axis1 _ _ _ _ r).trans ?_
  refine Finset.sum_congr rfl fun p _ => ?_
  refine (AdjacentSquares.sum3_axis2 _ _ _ _ r p).trans ?_
  refine Finset.sum_congr rfl fun k _ => ?_
  simp only [mulf_apply, maximumf_apply, addf_apply, subf_apply, broadcast_apply, rowsTo3_apply, lanesTo3_apply]
  show (max (v8 (ix2 r p) - v10 (ix2 r k) + Ideal.ofBits .f32 0x3F800000#32) (Ideal.ofBits .f32 0x00000000#32) * v40 (ix2 r p))
      * k1_pay9 (F := Ideal) v38 (ix2 r k) = _
  rw [Ideal.ofBits_one_f32, Ideal.ofBits_zero_f32]

/-- The second accumulator after the point: the old value plus the block's count, over any operands. -/
theorem pay11_apply' (v38 : IVec S8x128 1) (v40 : FVec Ideal S8x512 .f32) (v79 : Vec Ideal S1x1 .f32) :
    k1_pay11 (F := Ideal) v38 v40 v79 (ix2 0 0)
      = v79 (ix2 0 0) + ∑ r : Fin 8, (∑ p : Fin 512, v40 (ix2 r p)) * (∑ k : Fin 128, k1_pay9 (F := Ideal) v38 (ix2 r k)) := by
  unfold k1_pay11
  refine (congrFun (shapeCast_self _ _) _).trans ?_
  refine (addf_apply _ _ _).trans ?_
  refine congrArg (v79 (ix2 0 0) + ·) ?_
  refine (shapeCast_a_1a_apply _ _ 0 0).trans ?_
  refine (AdjacentSquares.sum2_axis0 _ _ _ _ 0).trans ?_
  refine Finset.sum_congr rfl fun r _ => ?_
  refine (mulf_apply _ _ _).trans ?_
  refine congrArg₂ (· * ·) ?_ ?_
  · exact (Keepdims.shapeCast_a_a1_apply _ _ r 0).trans (AdjacentSquares.sum2_axis1 _ _ _ _ r)
  · exact (Keepdims.shapeCast_a_a1_apply _ _ r 0).trans (AdjacentSquares.sum2_axis1 _ _ _ _ r)

/-- The first accumulator after the point (bi, bk), over the loaded blocks. -/
theorem pay10_apply (i : grid1.Coords) (x0 : Vec Ideal S8x512 .f32) (x1 : Vec Ideal S8x128 .f32) (x2 : Vec Ideal S8x1 .i32)
    (x3 : Vec Ideal S1x512 .i32) (x4 : Vec Ideal S1x128 .i32) (v74 : Vec Ideal S1x1 .f32) :
    k1_pay10 (F := Ideal) (k1_pay3 (F := Ideal) x0) (k1_pay4 (F := Ideal) x1) (k1_pay7 (F := Ideal) i x2 x4)
        (k1_pay8 (F := Ideal) i x2 x3) v74 (ix2 0 0)
      = v74 (ix2 0 0) + ∑ r : Fin 8, ∑ p : Fin 512, ∑ k : Fin 128,
          (max (x0 (ix2 r p) - x1 (ix2 r k) + 1) 0 * k1_pay8 (F := Ideal) i x2 x3 (ix2 r p))
            * k1_pay9 (F := Ideal) (k1_pay7 (F := Ideal) i x2 x4) (ix2 r k) := by
  rw [pay10_apply', pay3_eq, pay4_eq]

/-- The second accumulator after the point (bi, bk), over the loaded blocks. -/
theorem pay11_apply (i : grid1.Coords) (x2 : Vec Ideal S8x1 .i32) (x3 : Vec Ideal S1x512 .i32) (x4 : Vec Ideal S1x128 .i32)
    (v79 : Vec Ideal S1x1 .f32) :
    k1_pay11 (F := Ideal) (k1_pay7 (F := Ideal) i x2 x4) (k1_pay8 (F := Ideal) i x2 x3) v79 (ix2 0 0)
      = v79 (ix2 0 0) + ∑ r : Fin 8, (∑ p : Fin 512, k1_pay8 (F := Ideal) i x2 x3 (ix2 r p))
          * (∑ k : Fin 128, k1_pay9 (F := Ideal) (k1_pay7 (F := Ideal) i x2 x4) (ix2 r k)) :=
  pay11_apply' _ _ v79

end Cert.KernelIdeal.Hand

end
-- ==== Proof.IdealBlocks1.lean ====
/-
  The second pallas_call's input blocks, read at an index.

  The grid has 64 × 4 points in row-major order: point t has coordinates (t / 4, t % 4). At point t with coordinates
  (bi, bk) the five input windows hold
    window 0: rows 8·bi … 8·bi + 7, all 512 columns, of the distance array;
    window 1: the same rows, columns 128·bk … 128·bk + 127, of the distance array;
    window 2: the same rows of the label column;
    window 3: the whole label row;
    window 4: columns 128·bk … 128·bk + 127 of the label row.
  A block's element sits in its array, on each axis, at the block index times the block's size plus its own coordinate;
  the block indices are the printed index maps, whose values over the grid are decided once.
-/
import proofs.«147143_j19576460935202_2_alg».proof.Proof.IdealRegion1Runs
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-! ## The grid's coordinates in closed form -/

/-- Point t's first coordinate is t / 4 … -/
theorem coords1_0 : ∀ t : Fin cfg1.N, (grid1.coords t 0).val = t.val / 4 :=
  (by decide +kernel : ∀ t : Fin grid1.N, (grid1.coords t 0).val = t.val / 4)
/-- … and its second is t % 4. -/
theorem coords1_1 : ∀ t : Fin cfg1.N, (grid1.coords t 1).val = t.val % 4 :=
  (by decide +kernel : ∀ t : Fin grid1.N, (grid1.coords t 1).val = t.val % 4)
/-- The coordinates' ranges, as literals. -/
theorem coords1_lt : ∀ t : Fin cfg1.N, (grid1.coords t 0).val < 64 ∧ (grid1.coords t 1).val < 4 :=
  (by decide +kernel : ∀ t : Fin grid1.N, (grid1.coords t 0).val < 64 ∧ (grid1.coords t 1).val < 4)

/-! ## The printed index maps over the grid -/

theorem idx_facts1_0 : ∀ t : Fin cfg1.N, win1_0.index t (0 : Fin 2) = (grid1.coords t 0).val ∧ win1_0.index t (1 : Fin 2) = 0 :=
  (by decide +kernel : ∀ t : Fin grid1.N, win1_0.index t (0 : Fin 2) = (grid1.coords t 0).val ∧ win1_0.index t (1 : Fin 2) = 0)
theorem idx_facts1_1 : ∀ t : Fin cfg1.N, win1_1.index t (0 : Fin 2) = (grid1.coords t 0).val
    ∧ win1_1.index t (1 : Fin 2) = (grid1.coords t 1).val :=
  (by decide +kernel : ∀ t : Fin grid1.N, win1_1.index t (0 : Fin 2) = (grid1.coords t 0).val
    ∧ win1_1.index t (1 : Fin 2) = (grid1.coords t 1).val)
theorem idx_facts1_2 : ∀ t : Fin cfg1.N, win1_2.index t (0 : Fin 2) = (grid1.coords t 0).val ∧ win1_2.index t (1 : Fin 2) = 0 :=
  (by decide +kernel : ∀ t : Fin grid1.N, win1_2.index t (0 : Fin 2) = (grid1.coords t 0).val ∧ win1_2.index t (1 : Fin 2) = 0)
theorem idx_facts1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_facts1_4 : ∀ t : Fin cfg1.N, win1_4.index t (0 : Fin 2) = 0 ∧ win1_4.index t (1 : Fin 2) = (grid1.coords t 1).val :=
  (by decide +kernel : ∀ t : Fin grid1.N, win1_4.index t (0 : Fin 2) = 0 ∧ win1_4.index t (1 : Fin 2) = (grid1.coords t 1).val)

/-! ## Rows and columns of a point's blocks -/

/-- Row r of point t's block of 8 rows, as a row of the array. -/
abbrev row1 (t : Fin cfg1.N) (r : Fin 8) : Fin 512 :=
  ⟨(grid1.coords t 0).val * 8 + r.val, by have := (coords1_lt t).1; have := r.isLt; omega⟩
/-- Column k of point t's block of 128 columns, as a column of the array. -/
abbrev col1 (t : Fin cfg1.N) (k : Fin 128) : Fin 512 :=
  ⟨(grid1.coords t 1).val * 128 + k.val, by have := (coords1_lt t).2; have := k.isLt; omega⟩

/-! ## The blocks at an index -/

/-- Window 0 at (r, p): the distance array at row 8·bi + r, column p. -/
theorem iblk1_0_apply (c : Dev nD) (t : Fin cfg1.N) (r : Fin 8) (p : Fin 512) :
    (iblk1 V c 0 t : S8x512.Idx → Elt F .f32) (ix2 r p)
      = (V c main_v0 : S512x512.Idx → Elt F .f32) (ix2 (row1 t r) p) := by
  obtain ⟨e0, e1⟩ := idx_facts1_0 t
  unfold iblk1
  rw [View.read_apply]
  show (V c main_v0 : S512x512.Idx → Elt F .f32) _ = _
  refine congrArg (V c main_v0 : S512x512.Idx → Elt F .f32) (funext fun a => Fin.ext ?_)
  match a with
  | ⟨0, _⟩ => show win1_0.index t (0 : Fin 2) * 8 + 1 * r.val = (grid1.coords t 0).val * 8 + r.val; rw [e0]; omega
  | ⟨1, _⟩ => show win1_0.index t (1 : Fin 2) * 512 + 1 * p.val = p.val; rw [e1]; omega

/-- Window 1 at (r, k): the distance array at row 8·bi + r, column 128·bk + k. -/
theorem iblk1_1_apply (c : Dev nD) (t : Fin cfg1.N) (r : Fin 8) (k : Fin 128) :
    (iblk1 V c 1 t : S8x128.Idx → Elt F .f32) (ix2 r k)
      = (V c main_v0 : S512x512.Idx → Elt F .f32) (ix2 (row1 t r) (col1 t k)) := by
  obtain ⟨e0, e1⟩ := idx_facts1_1 t
  unfold iblk1
  rw [View.read_apply]
  show (V c main_v0 : S512x512.Idx → Elt F .f32) _ = _
  refine congrArg (V c main_v0 : S512x512.Idx → Elt F .f32) (funext fun a => Fin.ext ?_)
  match a with
  | ⟨0, _⟩ => show win1_1.index t (0 : Fin 2) * 8 + 1 * r.val = (grid1.coords t 0).val * 8 + r.val; rw [e0]; omega
  | ⟨1, _⟩ => show win1_1.index t (1 : Fin 2) * 128 + 1 * k.val = (grid1.coords t 1).val * 128 + k.val; rw [e1]; omega

/-- Window 2 at (r, 0): the label column at row 8·bi + r. -/
theorem iblk1_2_apply (c : Dev nD) (t : Fin cfg1.N) (r : Fin 8) :
    (iblk1 V c 2 t : S8x1.Idx → Elt F .i32) (ix2 r (0 : Fin 1))
      = (V c main_v1 : S512x1.Idx → Elt F .i32) (ix2 (row1 t r) (0 : Fin 1)) := by
  obtain ⟨e0, e1⟩ := idx_facts1_2 t
  unfold iblk1
  rw [View.read_apply]
  show (V c main_v1 : S512x1.Idx → Elt F .i32) _ = _
  refine congrArg (V c main_v1 : S512x1.Idx → Elt F .i32) (funext fun a => Fin.ext ?_)
  match a with
  | ⟨0, _⟩ => show win1_2.index t (0 : Fin 2) * 8 + 1 * r.val = (grid1.coords t 0).val * 8 + r.val; rw [e0]; omega
  | ⟨1, _⟩ => show win1_2.index t (1 : Fin 2) * 1 + 1 * 0 = 0; rw [e1]

/-- Window 3 at (0, p): the label row at column p. -/
theorem iblk1_3_apply (c : Dev nD) (t : Fin cfg1.N) (p : Fin 512) :
    (iblk1 V c 3 t : S1x512.Idx → Elt F .i32) (ix2 (0 : Fin 1) p)
      = (V c main_v2 : S1x512.Idx → Elt F .i32) (ix2 (0 : Fin 1) p) := by
  obtain ⟨e0, e1⟩ := idx_facts1_3 t
  unfold iblk1
  rw [View.read_apply]
  show (V c main_v2 : S1x512.Idx → Elt F .i32) _ = _
  refine congrArg (V c main_v2 : S1x512.Idx → Elt F .i32) (funext fun a => Fin.ext ?_)
  match a with
  | ⟨0, _⟩ => show win1_3.index t (0 : Fin 2) * 1 + 1 * 0 = 0; rw [e0]
  | ⟨1, _⟩ => show win1_3.index t (1 : Fin 2) * 512 + 1 * p.val = p.val; rw [e1]; omega

/-- Window 4 at (0, k): the label row at column 128·bk + k. -/
theorem iblk1_4_apply (c : Dev nD) (t : Fin cfg1.N) (k : Fin 128) :
    (iblk1 V c 4 t : S1x128.Idx → Elt F .i32) (ix2 (0 : Fin 1) k)
      = (V c main_v2 : S1x512.Idx → Elt F .i32) (ix2 (0 : Fin 1) (col1 t k)) := by
  obtain ⟨e0, e1⟩ := idx_facts1_4 t
  unfold iblk1
  rw [View.read_apply]
  show (V c main_v2 : S1x512.Idx → Elt F .i32) _ = _
  refine congrArg (V c main_v2 : S1x512.Idx → Elt F .i32) (funext fun a => Fin.ext ?_)
  match a with
  | ⟨0, _⟩ => show win1_4.index t (0 : Fin 2) * 1 + 1 * 0 = 0; rw [e0]
  | ⟨1, _⟩ => show win1_4.index t (1 : Fin 2) * 128 + 1 * k.val = (grid1.coords t 1).val * 128 + k.val; rw [e1]; omega

end Cert.KernelIdeal.Hand

end
-- ==== Proof.LibSquareExpand.lean ====
/-
  The expansion of a squared Euclidean distance, on the extended reals.

  For two finite families a, b of extended reals ALL OF WHOSE ENTRIES ARE REAL NUMBERS,

      (z + sum a_k * a_k) + (z + sum b_k * b_k) - two * (sum a_k * b_k)  =  z + sum (a_k - b_k) * (a_k - b_k)

  where z = 0 and two = 2 are handed in as the programs spell them (a sum started from the zero word; the f32 pattern
  of 2.0), so that the statement meets a kernel's "norms minus twice the inner product" and a reference's "sum of
  squared differences" as they are printed. The law moves a factor across a sum and cancels, which fails at infinite
  entries (inf - inf): hence the hypothesis that every entry is real. Generic in the index type. Also `coe_sum`: the
  inclusion of the reals in the extended reals commutes with finite sums.
-/
import Idealize.ShloMosaic.PureOps.Ideal

noncomputable section

namespace SquareExpand

/-- The inclusion of the reals in the extended reals commutes with finite sums. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The expansion of a squared Euclidean distance, on real entries: (|a|^2 + |b|^2) - 2 <a, b> = sum of (a - b)^2,
    each sum started from zero as both programs start theirs. -/
theorem sq_expand {ι : Type} [Fintype ι] (a b : ι → EReal) (z two : EReal) (hz : z = 0) (h2 : two = ((2 : ℝ) : EReal))
    (ha : ∀ k, ∃ r : ℝ, a k = r) (hb : ∀ k, ∃ r : ℝ, b k = r) :
    ((z + ∑ k, a k * a k) + (z + ∑ k, b k * b k)) - two * (∑ k, a k * b k)
      = z + ∑ k, (a k - b k) * (a k - b k) := by
  choose ra hra using ha
  choose rb hrb using hb
  simp only [hra, hrb, h2, hz, zero_add]
  simp only [← EReal.coe_mul, ← EReal.coe_sub, ← coe_sum, ← EReal.coe_add]
  refine congrArg _ ?_
  rw [Finset.mul_sum, ← Finset.sum_add_distrib, ← Finset.sum_sub_distrib]
  exact Finset.sum_congr rfl fun k _ => by ring

end SquareExpand

end
-- ==== Proof.LibTripletLossLaw.lean ====
/-
  The two arrangements of the batch-all triplet loss agree.

  On embeddings all of whose entries are real numbers:

  * the distance as norms minus twice the inner product, floored at zero, is the sum of squared differences
    (the expansion |a|² + |b|² − 2⟨a, b⟩ = Σ (a − b)² cancels terms, which fails at infinite entries, hence the
    hypothesis; the sum of squares is a nonnegative real, so the floor at zero changes nothing);
  * multiplying a term by the numbers 1 or 0 of two masks is selecting it when both masks hold (x · 1 = x and
    x · 0 = 0 for every extended real x), so the fused sum is the textbook sum;
  * the sum over anchors of (number of positives) · (number of negatives) is the number of valid triplets
    (no hypothesis on the embeddings: only the labels enter);
  * hence the fused quotient is the mean hinge term over the valid triplets.

  Generic in the finite index types.
-/
import proofs.«147143_j19576460935202_2_alg».proof.Proof.LibTripletLoss
import proofs.«147143_j19576460935202_2_alg».proof.Proof.LibSquareExpand

noncomputable section

namespace TripletLoss

open Idealize.ShloMosaic

variable {ι κ : Type} [Fintype ι] [DecidableEq ι] [Fintype κ]

/-- On real entries the squared distance is nonnegative: each summand is the square of a real number. -/
theorem dist_nonneg {e : ι → κ → EReal} (h : ∀ i d, ∃ r : ℝ, e i d = r) (i j : ι) : 0 ≤ dist e i j := by
  unfold dist
  refine Finset.sum_nonneg fun d _ => ?_
  obtain ⟨a, ha⟩ := h i d
  obtain ⟨b, hb⟩ := h j d
  rw [ha, hb, ← EReal.coe_sub, ← EReal.coe_mul]
  exact EReal.coe_nonneg.mpr (mul_self_nonneg _)

/-- On real entries, norms minus twice the inner product, floored at zero, is the sum of squared differences. -/
theorem kdist_eq {e : ι → κ → EReal} (h : ∀ i d, ∃ r : ℝ, e i d = r) (i j : ι) : kdist e i j = dist e i j := by
  have hx := SquareExpand.sq_expand (e i) (e j) 0 2 rfl (by norm_cast) (h i) (h j)
  simp only [zero_add] at hx
  unfold kdist nrm cross
  rw [hx]
  exact max_eq_left (dist_nonneg h i j)

/-- Multiplying by the numbers of two masks is selecting the term when both masks hold. -/
theorem mul_ind_ind (x : EReal) (P Q : Prop) [Decidable P] [Decidable Q] :
    (x * ind P) * ind Q = if P ∧ Q then x else 0 := by
  by_cases hp : P <;> by_cases hq : Q <;> simp [ind, hp, hq]

/-- On real entries the fused sum is the textbook sum of the hinge terms over the valid triplets. -/
theorem kloss_eq {e : ι → κ → EReal} (h : ∀ i d, ∃ r : ℝ, e i d = r) (lab : ι → BitVec 32) :
    kloss e lab = loss e lab := by
  unfold kloss loss term
  refine Finset.sum_congr rfl fun i _ => Finset.sum_congr rfl fun p _ => Finset.sum_congr rfl fun k _ => ?_
  rw [mul_ind_ind, kdist_eq h, kdist_eq h]

/-- The number of a mask, as the inclusion of a natural number. -/
theorem ind_eq_cast (P : Prop) [Decidable P] : ind P = (((if P then 1 else 0 : ℕ) : ℝ) : EReal) := by
  unfold ind
  split_ifs <;> simp

/-- The number of valid triplets, anchor by anchor: (number of positives) · (number of negatives). -/
theorem cnt_eq_sum (lab : ι → BitVec 32) :
    cnt lab = ∑ i, (∑ p, if pos lab i p then 1 else 0) * (∑ k, if neg lab i k then 1 else 0) := by
  unfold cnt
  rw [Finset.card_filter, Fintype.sum_prod_type]
  refine Finset.sum_congr rfl fun i _ => ?_
  rw [Fintype.sum_prod_type, Finset.sum_mul_sum]
  refine Finset.sum_congr rfl fun p _ => Finset.sum_congr rfl fun k _ => ?_
  by_cases hp : pos lab i p <;> by_cases hn : neg lab i k <;> simp [hp, hn]

/-- The fused count is the number of valid triplets. -/
theorem kcnt_eq (lab : ι → BitVec 32) : kcnt lab = (((cnt lab : ℕ) : ℝ) : EReal) := by
  rw [cnt_eq_sum]
  unfold kcnt
  simp only [ind_eq_cast, ← SquareExpand.coe_sum, ← Nat.cast_sum, ← EReal.coe_mul, ← Nat.cast_mul]

/-- On real entries the fused quotient is the mean hinge term over the valid triplets. -/
theorem fused_eq {e : ι → κ → EReal} (h : ∀ i d, ∃ r : ℝ, e i d = r) (lab : ι → BitVec 32) :
    Ideal.div (kloss e lab) (kcnt lab) = result e lab := by
  unfold result
  rw [kloss_eq h, kcnt_eq]

end TripletLoss

end
-- ==== Proof.LibTripletBlocks.lean ====
/-
  The fused triplet sums, block by block.

  The anchors are cut into nI blocks of tI rows and the negatives into nK blocks of tK lanes (equivalences
  eI : Fin nI × Fin tI ≃ ι and eK : Fin nK × Fin tK ≃ ι). The fused sum and the fused count are then the sums,
  over the grid of block pairs, of the block totals; and a running total that starts from zero and adds the
  grid's entries in row-major order ends at the sum over the grid.

  * The fused sum only needs that addition of extended reals is commutative and associative.
  * The fused count moves a factor across a sum, (Σ_p a) · (Σ_bk Σ_k b) = Σ_bk (Σ_p a) · (Σ_k b), which is not
    a law of the extended reals in general; every summand here is the number 0 or 1, so the identity is proved
    on the natural numbers and carried over by the inclusion.
  * Also the two concrete cuttings of 512 indices: 64 blocks of 8 and 4 blocks of 128, block-major.

  Generic in the index types, the block sizes and the equivalences.
-/
import proofs.«147143_j19576460935202_2_alg».proof.Proof.LibTripletLoss
import proofs.«147143_j19576460935202_2_alg».proof.Proof.LibTripletLossLaw

noncomputable section

namespace TripletLoss

open Idealize.ShloMosaic

variable {ι κ : Type} [Fintype ι] [DecidableEq ι] [Fintype κ] {nI tI nK tK : ℕ}

/-- The fused sum restricted to the anchors of block bi and the negatives of block bk (all positives). -/
def blockLoss (e : ι → κ → EReal) (lab : ι → BitVec 32) (eI : Fin nI × Fin tI ≃ ι) (eK : Fin nK × Fin tK ≃ ι)
    (bi : Fin nI) (bk : Fin nK) : EReal :=
  ∑ r : Fin tI, ∑ p : ι, ∑ k : Fin tK,
    (max (kdist e (eI (bi, r)) p - kdist e (eI (bi, r)) (eK (bk, k)) + 1) 0 * ind (pos lab (eI (bi, r)) p))
      * ind (neg lab (eI (bi, r)) (eK (bk, k)))

/-- The fused count restricted to the anchors of block bi and the negatives of block bk. -/
def blockCnt (lab : ι → BitVec 32) (eI : Fin nI × Fin tI ≃ ι) (eK : Fin nK × Fin tK ≃ ι)
    (bi : Fin nI) (bk : Fin nK) : EReal :=
  ∑ r : Fin tI, (∑ p : ι, ind (pos lab (eI (bi, r)) p)) * (∑ k : Fin tK, ind (neg lab (eI (bi, r)) (eK (bk, k))))

/-- A sum over an index type cut into n blocks of t is the sum over the blocks of the sums inside each block. -/
theorem sum_blocks {M : Type} [AddCommMonoid M] {n t : ℕ} (eq : Fin n × Fin t ≃ ι) (f : ι → M) :
    ∑ i, f i = ∑ b, ∑ r, f (eq (b, r)) := by
  rw [← Equiv.sum_comp eq f, Fintype.sum_prod_type]

/-- The fused sum is the sum over the grid of the block sums: a reordering of a finite sum. -/
theorem kloss_blocks (e : ι → κ → EReal) (lab : ι → BitVec 32) (eI : Fin nI × Fin tI ≃ ι)
    (eK : Fin nK × Fin tK ≃ ι) : kloss e lab = ∑ bi, ∑ bk, blockLoss e lab eI eK bi bk := by
  unfold kloss blockLoss
  rw [sum_blocks eI]
  refine Finset.sum_congr rfl fun bi _ => ?_
  symm
  rw [Finset.sum_comm]
  refine Finset.sum_congr rfl fun r _ => ?_
  rw [Finset.sum_comm]
  refine Finset.sum_congr rfl fun p _ => ?_
  exact (sum_blocks eK (fun k => (max (kdist e (eI (bi, r)) p - kdist e (eI (bi, r)) k + 1) 0
    * ind (pos lab (eI (bi, r)) p)) * ind (neg lab (eI (bi, r)) k))).symm

/-- In a semiring: a sum of products a_i · (Σ_k n_{i,k}), with both indices cut into blocks, block pair by
    block pair. The factor a_i moves across the sum over the blocks of k. -/
theorem sum_mul_blocks {R : Type} [NonUnitalNonAssocSemiring R] (eI : Fin nI × Fin tI ≃ ι)
    (eK : Fin nK × Fin tK ≃ ι) (a : ι → R) (n : ι → ι → R) :
    ∑ i, a i * (∑ k, n i k)
      = ∑ bi, ∑ bk, ∑ r, a (eI (bi, r)) * (∑ k', n (eI (bi, r)) (eK (bk, k'))) := by
  rw [sum_blocks eI]
  refine Finset.sum_congr rfl fun bi _ => ?_
  symm
  rw [Finset.sum_comm]
  refine Finset.sum_congr rfl fun r _ => ?_
  rw [← Finset.mul_sum]
  exact congrArg _ (sum_blocks eK (fun k => n (eI (bi, r)) k)).symm

/-- The fused count is the sum over the grid of the block counts. -/
theorem kcnt_blocks (lab : ι → BitVec 32) (eI : Fin nI × Fin tI ≃ ι) (eK : Fin nK × Fin tK ≃ ι) :
    kcnt lab = ∑ bi, ∑ bk, blockCnt lab eI eK bi bk := by
  rw [kcnt_eq, cnt_eq_sum, sum_mul_blocks eI eK]
  unfold blockCnt
  simp only [ind_eq_cast, ← SquareExpand.coe_sum, ← Nat.cast_sum, ← EReal.coe_mul, ← Nat.cast_mul]

/-- A running total over an nI × nK grid visited in row-major order: started from zero, and adding at step n the
    entry in row n / nK and column n % nK, it ends at the sum of all the entries. -/
theorem running_total {M : Type} [AddCommMonoid M] {nI nK : ℕ} (hK : 0 < nK) (g : Fin nI → Fin nK → M)
    (acc : ℕ → M) (h0 : acc 0 = 0)
    (hs : ∀ n (h : n < nI * nK), acc (n + 1) = acc n +
      g ⟨n / nK, Nat.div_lt_of_lt_mul (by rw [Nat.mul_comm]; exact h)⟩ ⟨n % nK, Nat.mod_lt n hK⟩) :
    acc (nI * nK) = ∑ bi, ∑ bk, g bi bk := by
  let G : ℕ → M := fun t => if h : t < nI * nK then
      g ⟨t / nK, Nat.div_lt_of_lt_mul (by rw [Nat.mul_comm]; exact h)⟩ ⟨t % nK, Nat.mod_lt t hK⟩ else 0
  have hacc : ∀ n, n ≤ nI * nK → acc n = ∑ t ∈ Finset.range n, G t := by
    intro n
    induction n with
    | zero => intro _; simpa using h0
    | succ n ih =>
      intro hle
      have hlt : n < nI * nK := hle
      rw [hs n hlt, ih (Nat.le_of_lt hlt), Finset.sum_range_succ]
      congr 1
      simp only [G, dif_pos hlt]
  calc acc (nI * nK) = ∑ t ∈ Finset.range (nI * nK), G t := hacc _ le_rfl
    _ = ∑ x : Fin (nI * nK), G x := (Fin.sum_univ_eq_sum_range G (nI * nK)).symm
    _ = ∑ x : Fin (nI * nK), (fun p : Fin nI × Fin nK => g p.1 p.2) (finProdFinEquiv.symm x) :=
        Finset.sum_congr rfl fun x _ => by simp only [G, dif_pos x.isLt]; rfl
    _ = ∑ p : Fin nI × Fin nK, g p.1 p.2 :=
        Equiv.sum_comp finProdFinEquiv.symm (fun p : Fin nI × Fin nK => g p.1 p.2)
    _ = ∑ bi, ∑ bk, g bi bk := Fintype.sum_prod_type _

/-- Entry b of block a, among m blocks of n, sits at position a · n + b < m · n. -/
theorem block_lt {m n a b : ℕ} (ha : a < m) (hb : b < n) : a * n + b < m * n :=
  calc a * n + b < a * n + n := Nat.add_lt_add_left hb _
    _ = (a + 1) * n := by ring
    _ ≤ m * n := Nat.mul_le_mul_right n ha

/-- If m · n = N has an index below it, the block size n is positive. -/
theorem block_pos {m n N : ℕ} (hN : m * n = N) (x : Fin N) : 0 < n := by
  rcases Nat.eq_zero_or_pos n with h | h
  · have hx : x.val < m * n := lt_of_lt_of_eq x.isLt hN.symm
    rw [h, Nat.mul_zero] at hx
    exact absurd hx (Nat.not_lt_zero _)
  · exact h

/-- N = m · n indices as m blocks of n, block-major: the pair (a, b) is the index a · n + b, and the index x is
    the pair (x / n, x % n). -/
def blockEquiv (m n N : ℕ) (hN : m * n = N) : Fin m × Fin n ≃ Fin N where
  toFun p := ⟨p.1.val * n + p.2.val, (block_lt p.1.isLt p.2.isLt).trans_eq hN⟩
  invFun x := (⟨x.val / n, Nat.div_lt_of_lt_mul (by rw [Nat.mul_comm, hN]; exact x.isLt)⟩,
    ⟨x.val % n, Nat.mod_lt _ (block_pos hN x)⟩)
  left_inv p := by
    have hn : 0 < n := (Nat.zero_le _).trans_lt p.2.isLt
    refine Prod.ext (Fin.ext ?_) (Fin.ext ?_)
    · show (p.1.val * n + p.2.val) / n = p.1.val
      rw [Nat.add_comm, Nat.add_mul_div_right _ _ hn, Nat.div_eq_of_lt p.2.isLt, Nat.zero_add]
    · show (p.1.val * n + p.2.val) % n = p.2.val
      rw [Nat.add_comm, Nat.add_mul_mod_self_right, Nat.mod_eq_of_lt p.2.isLt]
  right_inv x := Fin.ext (Nat.div_add_mod' x.val n)

@[simp] theorem blockEquiv_val (m n N : ℕ) (hN : m * n = N) (a : Fin m) (b : Fin n) :
    (blockEquiv m n N hN (a, b)).val = a.val * n + b.val := rfl

@[simp] theorem blockEquiv_symm_fst_val (m n N : ℕ) (hN : m * n = N) (x : Fin N) :
    ((blockEquiv m n N hN).symm x).1.val = x.val / n := rfl

@[simp] theorem blockEquiv_symm_snd_val (m n N : ℕ) (hN : m * n = N) (x : Fin N) :
    ((blockEquiv m n N hN).symm x).2.val = x.val % n := rfl

/-- 512 rows as 64 blocks of 8: row r of block bi is row bi · 8 + r. -/
def rowEquiv : Fin 64 × Fin 8 ≃ Fin 512 := blockEquiv 64 8 512 (by norm_num)

/-- 512 lanes as 4 blocks of 128: lane k of block bk is lane bk · 128 + k. -/
def laneEquiv : Fin 4 × Fin 128 ≃ Fin 512 := blockEquiv 4 128 512 (by norm_num)

@[simp] theorem rowEquiv_val (bi : Fin 64) (r : Fin 8) : (rowEquiv (bi, r)).val = bi.val * 8 + r.val := rfl

@[simp] theorem rowEquiv_apply (bi : Fin 64) (r : Fin 8) :
    rowEquiv (bi, r) = ⟨bi.val * 8 + r.val, (block_lt bi.isLt r.isLt).trans_eq (by norm_num)⟩ := rfl

@[simp] theorem rowEquiv_symm_fst_val (x : Fin 512) : (rowEquiv.symm x).1.val = x.val / 8 := rfl

@[simp] theorem rowEquiv_symm_snd_val (x : Fin 512) : (rowEquiv.symm x).2.val = x.val % 8 := rfl

@[simp] theorem laneEquiv_val (bk : Fin 4) (k : Fin 128) : (laneEquiv (bk, k)).val = bk.val * 128 + k.val := rfl

@[simp] theorem laneEquiv_apply (bk : Fin 4) (k : Fin 128) :
    laneEquiv (bk, k) = ⟨bk.val * 128 + k.val, (block_lt bk.isLt k.isLt).trans_eq (by norm_num)⟩ := rfl

@[simp] theorem laneEquiv_symm_fst_val (x : Fin 512) : (laneEquiv.symm x).1.val = x.val / 128 := rfl

@[simp] theorem laneEquiv_symm_snd_val (x : Fin 512) : (laneEquiv.symm x).2.val = x.val % 128 := rfl

end TripletLoss

end
-- ==== Proof.IdealBlockTotals.lean ====
/-
  One grid point's block totals of the second kernel, as the specification's block sums.

  At the grid point (bi, bk) the body adds to its first accumulator the sum over its 8 anchors r, all 512 columns p
  and its 128 lanes k of max (x0 (r, p) − x1 (r, k) + 1) 0 times the positive mask's number at (r, p) times the
  negative mask's number at (r, k), and to its second accumulator the sum over r of (number of positives of r) ·
  (number of negatives of r in the lane block). When the blocks hold the fused distances and the labels — x0 the
  distances of anchor bi·8 + r to every column, x1 to the lane block's columns bk·128 + k, x2 the anchors' labels, x3
  all labels, x4 the lane block's labels — the masks are the numbers of "valid positive pair" and "valid negative
  pair", and the two totals are the block sum and the block count of the specification's fused arrangement.
-/
import proofs.«147143_j19576460935202_2_alg».proof.Proof.IdealPayloads
import proofs.«147143_j19576460935202_2_alg».proof.Proof.LibTripletBlocks

noncomputable section

open scoped BigOperators

namespace Cert.KernelIdeal.Hand

open Cert.KernelIdeal Cert.KernelIdeal.Gen Idealize.ShloMosaic Idealize.ShloMosaic.ValueIdx

section
variable (e : Fin 512 → Fin 128 → EReal) (lab : Fin 512 → BitVec 32)
  (i : grid1.Coords) (BI : Fin 64) (BK : Fin 4) (hi0 : (i 0).val = BI.val) (hi1 : (i 1).val = BK.val)
  (x2 : Vec Ideal S8x1 .i32) (x3 : Vec Ideal S1x512 .i32) (x4 : Vec Ideal S1x128 .i32)
  (h2 : ∀ r : Fin 8, x2 (ix2 r 0) = lab (TripletLoss.rowEquiv (BI, r)))
  (h3 : ∀ p : Fin 512, x3 (ix2 0 p) = lab p)
  (h4 : ∀ k : Fin 128, x4 (ix2 0 k) = lab (TripletLoss.laneEquiv (BK, k)))

include hi0 h2 h3 in
/-- The positive mask's number at (r, p) is the number of "(anchor, p) is a valid positive pair". -/
theorem pay8_pos (r : Fin 8) (p : Fin 512) :
    k1_pay8 (F := Ideal) i x2 x3 (ix2 r p) = TripletLoss.ind (TripletLoss.pos lab (TripletLoss.rowEquiv (BI, r)) p) := by
  rw [pay8_apply, h2, h3]
  refine ind_congr ?_
  unfold TripletLoss.pos
  rw [← Fin.val_ne_iff, TripletLoss.rowEquiv_val, hi0]

include hi0 hi1 h2 h4 in
/-- The negative mask's number at (r, k) is the number of "(anchor, lane k of the block) is a valid negative pair". -/
theorem pay9_neg (r : Fin 8) (k : Fin 128) :
    k1_pay9 (F := Ideal) (k1_pay7 (F := Ideal) i x2 x4) (ix2 r k)
      = TripletLoss.ind (TripletLoss.neg lab (TripletLoss.rowEquiv (BI, r)) (TripletLoss.laneEquiv (BK, k))) := by
  rw [pay9_pay7_apply, h2, h4]
  refine ind_congr ?_
  unfold TripletLoss.neg
  rw [← Fin.val_ne_iff, TripletLoss.rowEquiv_val, TripletLoss.laneEquiv_val, hi0, hi1]

variable (x0 : Vec Ideal S8x512 .f32) (x1 : Vec Ideal S8x128 .f32)
  (h0 : ∀ (r : Fin 8) (p : Fin 512), x0 (ix2 r p) = TripletLoss.kdist e (TripletLoss.rowEquiv (BI, r)) p)
  (h1 : ∀ (r : Fin 8) (k : Fin 128), x1 (ix2 r k)
    = TripletLoss.kdist e (TripletLoss.rowEquiv (BI, r)) (TripletLoss.laneEquiv (BK, k)))

include hi0 hi1 h0 h1 h2 h3 h4 in
/-- THE HINGE TOTAL of the point is the specification's block sum. -/
theorem hinge_block_eq :
    ∑ r : Fin 8, ∑ p : Fin 512, ∑ k : Fin 128,
        (max (x0 (ix2 r p) - x1 (ix2 r k) + 1) 0 * k1_pay8 (F := Ideal) i x2 x3 (ix2 r p))
          * k1_pay9 (F := Ideal) (k1_pay7 (F := Ideal) i x2 x4) (ix2 r k)
      = TripletLoss.blockLoss e lab TripletLoss.rowEquiv TripletLoss.laneEquiv BI BK := by
  unfold TripletLoss.blockLoss
  refine Finset.sum_congr rfl fun r _ => Finset.sum_congr rfl fun p _ => Finset.sum_congr rfl fun k _ => ?_
  rw [pay8_pos lab i BI hi0 x2 x3 h2 h3, pay9_neg lab i BI BK hi0 hi1 x2 x4 h2 h4, h0, h1]

include hi0 hi1 h2 h3 h4 in
/-- THE COUNT TOTAL of the point is the specification's block count. -/
theorem cnt_block_eq :
    ∑ r : Fin 8, (∑ p : Fin 512, k1_pay8 (F := Ideal) i x2 x3 (ix2 r p))
        * (∑ k : Fin 128, k1_pay9 (F := Ideal) (k1_pay7 (F := Ideal) i x2 x4) (ix2 r k))
      = TripletLoss.blockCnt lab TripletLoss.rowEquiv TripletLoss.laneEquiv BI BK := by
  unfold TripletLoss.blockCnt
  refine Finset.sum_congr rfl fun r _ => ?_
  rw [Finset.sum_congr rfl fun p _ => pay8_pos lab i BI hi0 x2 x3 h2 h3 r p,
    Finset.sum_congr rfl fun k _ => pay9_neg lab i BI BK hi0 hi1 x2 x4 h2 h4 r k]

end

end Cert.KernelIdeal.Hand

end
-- ==== Proof.LibGridSteps.lean ====
/-
  A total accumulated over the 64 × 4 grid, point by point.

  A quantity is given after each of the 256 points of the grid, visited in row-major order: after the first point it
  is the first entry, and after every further point it is what it was plus that point's entry (the entry in row n / 4
  and column n % 4 at point n). After the last point it is the sum of all the entries.
-/
import proofs.«147143_j19576460935202_2_alg».proof.Proof.LibTripletBlocks

noncomputable section

open scoped BigOperators

namespace TripletLoss

/-- The value after the last of the 256 points is the sum over the grid. -/
theorem last_of_steps {M : Type} [AddCommMonoid M] (a : (n : ℕ) → n < 256 → M) (g : Fin 64 → Fin 4 → M)
    (hz : ∀ h : 0 < 256, a 0 h = g ⟨0 / 4, by omega⟩ ⟨0 % 4, by omega⟩)
    (hs : ∀ n (h : n + 1 < 256), a (n + 1) h = a n (Nat.lt_of_succ_lt h) + g ⟨(n + 1) / 4, by omega⟩ ⟨(n + 1) % 4, by omega⟩)
    (h255 : 255 < 256) :
    a 255 h255 = ∑ bi, ∑ bk, g bi bk := by
  let S : ℕ → M := fun n => match n with
    | 0 => 0
    | m + 1 => if h : m < 256 then a m h else 0
  have hS0 : S 0 = 0 := rfl
  have hSs : ∀ m (h : m < 256), S (m + 1) = a m h := fun m h => dif_pos h
  have key := running_total (nI := 64) (nK := 4) (by omega) g S hS0 (fun n h => by
    have hn : n < 256 := h
    rw [hSs n hn]
    cases n with
    | zero => rw [hS0, zero_add]; exact hz hn
    | succ m => rw [hSs m (by omega)]; exact hs m hn)
  exact (hSs 255 h255).symm.trans key

end TripletLoss

end
-- ==== Proof.IdealValue.lean ====
/-
  The second pallas_call's accumulators after the last grid point, on the extended reals.

  The region finds the fused distances in its first array and the labels in its second (as a column) and third (as a
  row). Its grid has 64 × 4 points in row-major order; at point n, with block coordinates (n / 4, n % 4), the body adds
  to its first accumulator the hinge total of the point's blocks and to its second the count total. Read over the
  arrays, those totals are the specification's block sum and block count at (n / 4, n % 4); the accumulators start
  from zero at the first point; so after the last point they hold the sums over the whole grid, which are the fused
  sum and the fused count of the specification. At the last point the two output blocks receive the accumulators.
-/
import proofs.«147143_j19576460935202_2_alg».proof.Proof.IdealAccum
import proofs.«147143_j19576460935202_2_alg».proof.Proof.IdealPayloadSums
import proofs.«147143_j19576460935202_2_alg».proof.Proof.IdealBlocks1
import proofs.«147143_j19576460935202_2_alg».proof.Proof.LibTripletBlocks
import proofs.«147143_j19576460935202_2_alg».proof.Proof.IdealBlockTotals
import proofs.«147143_j19576460935202_2_alg».proof.Proof.LibGridSteps

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b)) (c : Dev nD)
  (e : Fin 512 → Fin 128 → EReal) (lab : Fin 512 → BitVec 32)
  (hD : ∀ i j : Fin 512, (V c main_v0 : S512x512.Idx → EReal) (ix2 i j) = TripletLoss.kdist e i j)
  (hL1 : ∀ i : Fin 512, (V c main_v1 : S512x1.Idx → BitVec 32) (ix2 i 0) = lab i)
  (hL2 : ∀ j : Fin 512, (V c main_v2 : S1x512.Idx → BitVec 32) (ix2 0 j) = lab j)

/-! ## The five blocks of a point, by their literal shapes -/

/-- The anchors' distances to every column. -/
def xb0 (t : Fin cfg1.N) : Vec Ideal S8x512 .f32 := iblk1 V c 0 t
/-- The anchors' distances to the lane block's columns. -/
def xb1 (t : Fin cfg1.N) : Vec Ideal S8x128 .f32 := iblk1 V c 1 t
/-- The anchors' labels. -/
def xb2 (t : Fin cfg1.N) : Vec Ideal S8x1 .i32 := iblk1 V c 2 t
/-- All labels. -/
def xb3 (t : Fin cfg1.N) : Vec Ideal S1x512 .i32 := iblk1 V c 3 t
/-- The lane block's labels. -/
def xb4 (t : Fin cfg1.N) : Vec Ideal S1x128 .i32 := iblk1 V c 4 t

/-- The first accumulator after a point, from its value before. -/
def hingeStep (t : Fin cfg1.N) (v : Vec Ideal S1x1 .f32) : FVec Ideal S1x1 .f32 :=
  k1_pay10 (F := Ideal) (k1_pay3 (F := Ideal) (xb0 V c t)) (k1_pay4 (F := Ideal) (xb1 V c t))
    (k1_pay7 (F := Ideal) (grid1.coords t) (xb2 V c t) (xb4 V c t))
    (k1_pay8 (F := Ideal) (grid1.coords t) (xb2 V c t) (xb3 V c t)) v
/-- The second accumulator after a point, from its value before. -/
def cntStep (t : Fin cfg1.N) (v : Vec Ideal S1x1 .f32) : FVec Ideal S1x1 .f32 :=
  k1_pay11 (F := Ideal) (k1_pay7 (F := Ideal) (grid1.coords t) (xb2 V c t) (xb4 V c t))
    (k1_pay8 (F := Ideal) (grid1.coords t) (xb2 V c t) (xb3 V c t)) v

/-! ## A point of the grid by its number -/

/-- A number below 256 is a point of the grid. -/
theorem ltN {n : ℕ} (h : n < 256) : n < cfg1.N := lt_of_lt_of_eq h (show 256 = cfg1.N from N_1.symm)

/-- Row r of point n's row block is row r of block n / 4 among 64 blocks of 8. -/
theorem row1_eq (n : ℕ) (h : n < 256) (r : Fin 8) :
    row1 ⟨n, ltN h⟩ r = TripletLoss.rowEquiv (⟨n / 4, by omega⟩, r) :=
  Fin.ext (by
    rw [TripletLoss.rowEquiv_val]
    show (grid1.coords ⟨n, ltN h⟩ 0).val * 8 + r.val = n / 4 * 8 + r.val
    rw [coords1_0])

/-- Lane k of point n's lane block is lane k of block n % 4 among 4 blocks of 128. -/
theorem col1_eq (n : ℕ) (h : n < 256) (k : Fin 128) :
    col1 ⟨n, ltN h⟩ k = TripletLoss.laneEquiv (⟨n % 4, by omega⟩, k) :=
  Fin.ext (by
    rw [TripletLoss.laneEquiv_val]
    show (grid1.coords ⟨n, ltN h⟩ 1).val * 128 + k.val = n % 4 * 128 + k.val
    rw [coords1_1])

/-! ## What the blocks hold -/

include hD in
theorem xb0_at (n : ℕ) (h : n < 256) (r : Fin 8) (p : Fin 512) :
    xb0 V c ⟨n, ltN h⟩ (ix2 r p) = TripletLoss.kdist e (TripletLoss.rowEquiv (⟨n / 4, by omega⟩, r)) p :=
  (iblk1_0_apply V c ⟨n, ltN h⟩ r p).trans (by rw [hD, row1_eq n h])
include hD in
theorem xb1_at (n : ℕ) (h : n < 256) (r : Fin 8) (k : Fin 128) :
    xb1 V c ⟨n, ltN h⟩ (ix2 r k)
      = TripletLoss.kdist e (TripletLoss.rowEquiv (⟨n / 4, by omega⟩, r)) (TripletLoss.laneEquiv (⟨n % 4, by omega⟩, k)) :=
  (iblk1_1_apply V c ⟨n, ltN h⟩ r k).trans (by rw [hD, row1_eq n h, col1_eq n h])
include hL1 in
theorem xb2_at (n : ℕ) (h : n < 256) (r : Fin 8) :
    xb2 V c ⟨n, ltN h⟩ (ix2 r 0) = lab (TripletLoss.rowEquiv (⟨n / 4, by omega⟩, r)) :=
  (iblk1_2_apply V c ⟨n, ltN h⟩ r).trans (by rw [hL1, row1_eq n h])
include hL2 in
theorem xb3_at (n : ℕ) (h : n < 256) (p : Fin 512) : xb3 V c ⟨n, ltN h⟩ (ix2 0 p) = lab p :=
  (iblk1_3_apply V c ⟨n, ltN h⟩ p).trans (hL2 p)
include hL2 in
theorem xb4_at (n : ℕ) (h : n < 256) (k : Fin 128) :
    xb4 V c ⟨n, ltN h⟩ (ix2 0 k) = lab (TripletLoss.laneEquiv (⟨n % 4, by omega⟩, k)) :=
  (iblk1_4_apply V c ⟨n, ltN h⟩ k).trans (by rw [hL2, col1_eq n h])

/-! ## A point's two steps -/

include hD hL1 hL2 in
/-- Point n adds the specification's block sum at (n / 4, n % 4) to the first accumulator's element. -/
theorem hingeStep_apply (n : ℕ) (h : n < 256) (v : Vec Ideal S1x1 .f32) :
    hingeStep V c ⟨n, ltN h⟩ v (ix2 0 0) = v (ix2 0 0)
      + TripletLoss.blockLoss e lab TripletLoss.rowEquiv TripletLoss.laneEquiv ⟨n / 4, by omega⟩ ⟨n % 4, by omega⟩ := by
  unfold hingeStep
  rw [pay10_apply]
  exact congrArg (v (ix2 0 0) + ·) (hinge_block_eq e lab (grid1.coords ⟨n, ltN h⟩) ⟨n / 4, by omega⟩ ⟨n % 4, by omega⟩
    (coords1_0 _) (coords1_1 _) (xb2 V c ⟨n, ltN h⟩) (xb3 V c ⟨n, ltN h⟩) (xb4 V c ⟨n, ltN h⟩)
    (xb2_at V c lab hL1 n h) (xb3_at V c lab hL2 n h) (xb4_at V c lab hL2 n h)
    (xb0 V c ⟨n, ltN h⟩) (xb1 V c ⟨n, ltN h⟩) (xb0_at V c e hD n h) (xb1_at V c e hD n h))

include hL1 hL2 in
/-- Point n adds the specification's block count at (n / 4, n % 4) to the second accumulator's element. -/
theorem cntStep_apply (n : ℕ) (h : n < 256) (v : Vec Ideal S1x1 .f32) :
    cntStep V c ⟨n, ltN h⟩ v (ix2 0 0) = v (ix2 0 0)
      + TripletLoss.blockCnt lab TripletLoss.rowEquiv TripletLoss.laneEquiv ⟨n / 4, by omega⟩ ⟨n % 4, by omega⟩ := by
  unfold cntStep
  rw [pay11_apply]
  exact congrArg (v (ix2 0 0) + ·) (cnt_block_eq lab (grid1.coords ⟨n, ltN h⟩) ⟨n / 4, by omega⟩ ⟨n % 4, by omega⟩
    (coords1_0 _) (coords1_1 _) (xb2 V c ⟨n, ltN h⟩) (xb3 V c ⟨n, ltN h⟩) (xb4 V c ⟨n, ltN h⟩)
    (xb2_at V c lab hL1 n h) (xb3_at V c lab hL2 n h) (xb4_at V c lab hL2 n h))

/-! ## The accumulators' elements after each point -/

/-- The accumulation's first step, over the typed blocks. -/
theorem acc_first (h : 0 < 256) :
    (outsAt1 V c 0 (ltN h)).2.1 = hingeStep V c ⟨0, ltN h⟩ (k1_pay1 (F := Ideal))
      ∧ (outsAt1 V c 0 (ltN h)).2.2 = cntStep V c ⟨0, ltN h⟩ (k1_pay2 (F := Ideal)) :=
  acc_zero V c (ltN h)
/-- The accumulation's further steps, over the typed blocks. -/
theorem acc_next (n : ℕ) (h : n + 1 < 256) :
    (outsAt1 V c (n + 1) (ltN h)).2.1 = hingeStep V c ⟨n + 1, ltN h⟩ (outsAt1 V c n (Nat.lt_of_succ_lt (ltN h))).2.1
      ∧ (outsAt1 V c (n + 1) (ltN h)).2.2 = cntStep V c ⟨n + 1, ltN h⟩ (outsAt1 V c n (Nat.lt_of_succ_lt (ltN h))).2.2 :=
  acc_succ V c n (ltN h)

/-- The first accumulator's element after point n. -/
def lossAt (n : ℕ) (h : n < 256) : EReal := ((outsAt1 V c n (ltN h)).2.1 : Vec Ideal S1x1 .f32) (ix2 0 0)
/-- The second accumulator's element after point n. -/
def cntAt (n : ℕ) (h : n < 256) : EReal := ((outsAt1 V c n (ltN h)).2.2 : Vec Ideal S1x1 .f32) (ix2 0 0)

include hD hL1 hL2 in
theorem lossAt_zero (h : 0 < 256) :
    lossAt V c 0 h = TripletLoss.blockLoss e lab TripletLoss.rowEquiv TripletLoss.laneEquiv ⟨0 / 4, by omega⟩ ⟨0 % 4, by omega⟩ := by
  unfold lossAt
  rw [(acc_first V c h).1, hingeStep_apply V c e lab hD hL1 hL2 0 h, pay1_apply, zero_add]

include hD hL1 hL2 in
theorem lossAt_succ (n : ℕ) (h : n + 1 < 256) :
    lossAt V c (n + 1) h = lossAt V c n (Nat.lt_of_succ_lt h)
      + TripletLoss.blockLoss e lab TripletLoss.rowEquiv TripletLoss.laneEquiv ⟨(n + 1) / 4, by omega⟩ ⟨(n + 1) % 4, by omega⟩ := by
  unfold lossAt
  rw [(acc_next V c n h).1, hingeStep_apply V c e lab hD hL1 hL2 (n + 1) h]

include hL1 hL2 in
theorem cntAt_zero (h : 0 < 256) :
    cntAt V c 0 h = TripletLoss.blockCnt lab TripletLoss.rowEquiv TripletLoss.laneEquiv ⟨0 / 4, by omega⟩ ⟨0 % 4, by omega⟩ := by
  unfold cntAt
  rw [(acc_first V c h).2, cntStep_apply V c lab hL1 hL2 0 h, pay2_apply, zero_add]

include hL1 hL2 in
theorem cntAt_succ (n : ℕ) (h : n + 1 < 256) :
    cntAt V c (n + 1) h = cntAt V c n (Nat.lt_of_succ_lt h)
      + TripletLoss.blockCnt lab TripletLoss.rowEquiv TripletLoss.laneEquiv ⟨(n + 1) / 4, by omega⟩ ⟨(n + 1) % 4, by omega⟩ := by
  unfold cntAt
  rw [(acc_next V c n h).2, cntStep_apply V c lab hL1 hL2 (n + 1) h]

/-- The elements by any proof that the number is a point. -/
theorem lossAt_eq (n : ℕ) (h : n < 256) (h' : n < cfg1.N) :
    ((outsAt1 V c n h').2.1 : Vec Ideal S1x1 .f32) (ix2 0 0) = lossAt V c n h := rfl
theorem cntAt_eq (n : ℕ) (h : n < 256) (h' : n < cfg1.N) :
    ((outsAt1 V c n h').2.2 : Vec Ideal S1x1 .f32) (ix2 0 0) = cntAt V c n h := rfl

/-! ## After the last point -/

include hD hL1 hL2 in
/-- THE ACCUMULATORS after the last point: the fused sum and the fused count of the specification. -/
theorem acc_value (h : 255 < cfg1.N) :
    ((outsAt1 V c 255 h).2.1 : Vec Ideal S1x1 .f32) (ix2 0 0) = TripletLoss.kloss e lab
      ∧ ((outsAt1 V c 255 h).2.2 : Vec Ideal S1x1 .f32) (ix2 0 0) = TripletLoss.kcnt lab := by
  have h255 : 255 < 256 := by omega
  rw [lossAt_eq V c 255 h255 h, cntAt_eq V c 255 h255 h, TripletLoss.kloss_blocks e lab TripletLoss.rowEquiv TripletLoss.laneEquiv,
    TripletLoss.kcnt_blocks lab TripletLoss.rowEquiv TripletLoss.laneEquiv]
  exact ⟨TripletLoss.last_of_steps (lossAt V c)
      (fun bi bk => TripletLoss.blockLoss e lab TripletLoss.rowEquiv TripletLoss.laneEquiv bi bk)
      (lossAt_zero V c e lab hD hL1 hL2) (lossAt_succ V c e lab hD hL1 hL2) h255,
    TripletLoss.last_of_steps (cntAt V c)
      (fun bi bk => TripletLoss.blockCnt lab TripletLoss.rowEquiv TripletLoss.laneEquiv bi bk)
      (cntAt_zero V c lab hL1 hL2) (cntAt_succ V c lab hL1 hL2) h255⟩

include hD hL1 hL2 in
/-- THE OUTPUT BLOCKS after the last point hold the same two numbers. -/
theorem out_value (h : 255 < cfg1.N) :
    ((outsAt1 V c 255 h).1.1 : Vec Ideal S1x1 .f32) (ix2 0 0) = TripletLoss.kloss e lab
      ∧ ((outsAt1 V c 255 h).1.2 : Vec Ideal S1x1 .f32) (ix2 0 0) = TripletLoss.kcnt lab := by
  rw [(out_last V c h).1, (out_last V c h).2]
  exact acc_value V c e lab hD hL1 hL2 h

end Cert.KernelIdeal.Hand

end
-- ==== Proof.IdealResult.lean ====
/-
  The idealized kernel program's result is the batch-all triplet loss of its arguments.

  The program's last buffer holds, at its one index, the quotient of the second region's two outputs. The first
  region leaves the fused squared distances of the rows of the first argument; the two reshapes between the
  regions leave the label vector as a column and as a row; from these the second region leaves the fused sum and
  the fused count; and, when every entry of the first argument is a real number, the fused quotient is the mean
  hinge term over the valid triplets. Here the pieces are joined along the boundaries between the program's
  items: what each buffer holds when the second region is entered, and what the last buffer holds at the end.
-/
import proofs.«147143_j19576460935202_2_alg».proof.Proof.IdealFrame
import proofs.«147143_j19576460935202_2_alg».proof.Proof.IdealHostGlue
import proofs.«147143_j19576460935202_2_alg».proof.Proof.IdealDist
import proofs.«147143_j19576460935202_2_alg».proof.Proof.IdealOut1
import proofs.«147143_j19576460935202_2_alg».proof.Proof.IdealValue
import proofs.«147143_j19576460935202_2_alg».proof.Proof.LibTripletLossLaw

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The embeddings as launched on core c: row i, coordinate d. -/
def rows (c : Dev nD) : Fin 512 → Fin 128 → EReal :=
  fun i d => (m ((c : Thread nD τ).loc main_arg0) : S512x128.Idx → EReal) (ix2 i d)

/-- The labels as launched on core c. -/
def labels (c : Dev nD) : Fin 512 → BitVec 32 :=
  fun i => (m ((c : Thread nD τ).loc main_arg1) : S512.Idx → BitVec 32) (ix1 i)

theorem rows_apply (c : Dev nD) (i : Fin 512) (d : Fin 128) :
    rows m c i d = (m ((c : Thread nD τ).loc main_arg0) : S512x128.Idx → EReal) (ix2 i d) := rfl
theorem labels_apply (c : Dev nD) (i : Fin 512) :
    labels m c i = (m ((c : Thread nD τ).loc main_arg1) : S512.Idx → BitVec 32) (ix1 i) := rfl

/-! ## What the second region is entered from -/

/-- The distance buffer holds the fused squared distances of the launched rows: the reshapes do not write it, and
    the first region leaves in it its body's result on the embeddings as launched. -/
theorem E1_dist (c : Dev nD) (i j : Fin 512) :
    (E1 m ρ c main_v0 : S512x512.Idx → EReal) (ix2 i j) = TripletLoss.kdist (rows m c) i j := by
  have h1 : E1 m ρ c main_v0 = (dat0 (E0 m ρ) c).arrAt 1 cfg0.N :=
    (after_hostOps1_of (B1 m ρ c) main_v0 (by decide)).trans (B1_arr m ρ c 1)
  rw [h1]
  exact arr_out_apply (E0 m ρ) c i j

/-- The label vector is untouched by the first region: none of its windows sits on it. -/
theorem B1_main_arg1 (c : Dev nD) :
    B1 m ρ c (Proc.devRef .tc main_arg1) = m ((c : Thread nD τ).loc main_arg1) :=
  B1_of_ne m ρ c main_arg1 (by decide)

/-- The column of labels at (i, 0) is the launched label i. -/
theorem E1_lab_col (c : Dev nD) (i : Fin 512) :
    (E1 m ρ c main_v1 : S512x1.Idx → BitVec 32) (ix2 i 0) = labels m c i := by
  refine (after_hostOps1_main_v1_apply (B1 m ρ c) i).trans ?_
  rw [B1_main_arg1]
  rfl

/-- The row of labels at (0, j) is the launched label j. -/
theorem E1_lab_row (c : Dev nD) (j : Fin 512) :
    (E1 m ρ c main_v2 : S1x512.Idx → BitVec 32) (ix2 0 j) = labels m c j := by
  refine (after_hostOps1_main_v2_apply (B1 m ρ c) j).trans ?_
  rw [B1_main_arg1]
  rfl

/-! ## The last buffer -/

/-- The grid of the second region has 256 points; the last is point 255. -/
theorem last_lt : 255 < cfg1.N := lt_of_lt_of_eq (by norm_num : (255 : ℕ) < 256) (show (256 : ℕ) = cfg1.N from N_1.symm)

/-- The last buffer at its one index is the quotient of what the second region's last point left in its two
    output windows. -/
theorem B4_main_v5_apply (c : Dev nD) :
    (B4 m ρ c (Proc.devRef .tc main_v5) : S_.Idx → EReal) ix0
      = Ideal.div (((outsAt1 (E1 m ρ) c 255 last_lt).1.1 : S1x1.Idx → EReal) (ix2 0 0))
          (((outsAt1 (E1 m ρ) c 255 last_lt).1.2 : S1x1.Idx → EReal) (ix2 0 0)) := by
  have h5 : B3 m ρ c (Proc.devRef .tc main_v3_0) = (outsAt1 (E1 m ρ) c 255 last_lt).1.1 :=
    (hG1 m ρ c 5).symm.trans (arr_out5 (E1 m ρ) c last_lt)
  have h6 : B3 m ρ c (Proc.devRef .tc main_v3_1) = (outsAt1 (E1 m ρ) c 255 last_lt).1.2 :=
    (hG1 m ρ c 6).symm.trans (arr_out6 (E1 m ρ) c last_lt)
  refine (after_hostOps2_main_v5_apply (B3 m ρ c)).trans ?_
  rw [h5, h6]

/-- From the fused sum and the fused count in the second region's outputs to the textbook value: on real
    entries the last buffer holds the mean hinge term over the valid triplets. -/
theorem kernel_value_of (c : Dev nD) (hfin : ∀ i d, ∃ r : ℝ, rows m c i d = r)
    (hout : ((outsAt1 (E1 m ρ) c 255 last_lt).1.1 : S1x1.Idx → EReal) (ix2 0 0) = TripletLoss.kloss (rows m c) (labels m c)
      ∧ ((outsAt1 (E1 m ρ) c 255 last_lt).1.2 : S1x1.Idx → EReal) (ix2 0 0) = TripletLoss.kcnt (labels m c)) :
    (B4 m ρ c (Proc.devRef .tc main_v5) : S_.Idx → EReal) = fun _ => TripletLoss.result (rows m c) (labels m c) := by
  funext j
  obtain rfl : j = ix0 := eq_ix0 j
  rw [B4_main_v5_apply, hout.1, hout.2]
  exact TripletLoss.fused_eq hfin (labels m c)

/-- THE KERNEL'S RESULT: when every launched entry of the embeddings is a real number, the program's last buffer
    holds, on every core, the batch-all triplet loss of the launched embeddings and labels. -/
theorem kernel_value (hfin : ∀ (c : Dev nD) (i : Fin 512) (d : Fin 128), ∃ r : ℝ, rows m c i d = r) (c : Dev nD) :
    (B4 m ρ c (Proc.devRef .tc main_v5) : S_.Idx → EReal) = fun _ => TripletLoss.result (rows m c) (labels m c) :=
  kernel_value_of m ρ c (hfin c)
    (out_value (E1 m ρ) c (rows m c) (labels m c) (E1_dist m ρ c) (E1_lab_col m ρ c) (E1_lab_row m ρ c) last_lt)

end Cert.KernelIdeal.Hand

end
-- ==== Proof.RefWords.lean ====
/-
  Words and index sets met when a masked sum over triples is read one element at a time.

  * A rank-3 index set is the product of its three coordinate ranges, so a sum over it is the triple sum over the
    coordinates and a count over it is the count over the triples.
  * An integer comparison for equality is the bit 1 exactly when the two words are equal; a coordinate below 512,
    written as a 32-bit word and increased by zero, equals another such word exactly when the coordinates are equal.
  * The conjunction of two "other index" bits with a "same label" bit and the complement of another is the bit of the
    conjunction of the four conditions.
  * A sum of 32-bit words each of which is 1 or 0, from 0, is the number of ones as a word; a number below 2^31 written
    as a 32-bit word and read back signed is itself.
-/
import Idealize.ShloMosaic.Lib.ValueIdx
import Idealize.ShloMosaic.PureOps.Reduce

noncomputable section

open scoped BigOperators

namespace Cert.ReferenceIdeal.RefValue

open Idealize.ShloMosaic Idealize.ShloMosaic.ValueIdx

/-! ## A rank-3 index set as a product -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates … -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- … and the indices whose triple of coordinates satisfies a condition are as many as the triples that do. -/
theorem card_filter_idx3 {n0 n1 n2 : Nat} (P : Fin n0 × Fin n1 × Fin n2 → Prop) [DecidablePred P] :
    (Finset.univ.filter fun j : (⟨3, ![n0, n1, n2]⟩ : Shape).Idx => P (idxEquiv3 j)).card = (Finset.univ.filter P).card :=
  Finset.card_equiv idxEquiv3 fun j => by
    simp only [Finset.mem_filter, Finset.mem_univ, true_and]

/-! ## Comparisons and coordinates as words -/

/-- An integer comparison for equality is the bit 1 exactly when the words are equal. -/
theorem cmpi_eq_ite {w : Nat} (a b : BitVec w) : IntOp.cmpi .eq a b = if a = b then 1#1 else 0#1 := by
  unfold IntOp.cmpi
  by_cases h : a = b
  · subst h; simp
  · have hb : (a == b) = false := by simpa using h
    simp [h, hb]

/-- Two coordinates below 512, as 32-bit words, the first increased by the zero word: equal words, equal coordinates. -/
theorem coord_word_eq_iff (i p : Fin 512) :
    IntOp.addi (BitVec.ofNat 32 i.val) 0#32 = BitVec.ofNat 32 p.val ↔ p = i := by
  unfold IntOp.addi
  rw [BitVec.add_zero]
  constructor
  · intro h
    have h' := congrArg BitVec.toNat h
    simp only [BitVec.toNat_ofNat] at h'
    have := i.isLt
    have := p.isLt
    exact Fin.ext (by omega)
  · rintro rfl; rfl

/-- The bit "other index, same label" and the bit "other index, other label", multiplied: the bit of the four conditions
    together. -/
theorem mask_word (a b c d : Prop) [Decidable a] [Decidable b] [Decidable c] [Decidable d] :
    IntOp.andi (IntOp.andi (~~~(if a then 1#1 else 0#1)) (if b then 1#1 else 0#1))
        (IntOp.andi (~~~(if c then 1#1 else 0#1)) (~~~(if d then 1#1 else 0#1)))
      = if (¬a ∧ b) ∧ (¬c ∧ ¬d) then 1#1 else 0#1 := by
  unfold IntOp.andi
  by_cases ha : a <;> by_cases hb : b <;> by_cases hc : c <;> by_cases hd : d <;>
    simp only [ha, hb, hc, hd, if_true, if_false, not_true_eq_false, not_false_eq_true, and_self, and_false, false_and,
      and_true, true_and] <;> decide

/-- A bit that is 1 or 0 by a condition, widened to 32 bits, is the word 1 or 0 by that condition. -/
theorem setWidth_ite (c : Prop) [Decidable c] : (if c then 1#1 else 0#1 : BitVec 1).setWidth 32 = if c then 1#32 else 0#32 := by
  by_cases h : c <;> simp only [h, if_true, if_false] <;> decide

/-! ## A sum of words that are 1 or 0 -/

/-- The fold by integer addition, from the zero word, of words each 1 or 0 by a condition, is the number of indices that
    satisfy the condition, as a word. -/
theorem fold_addi_ite {ι : Type} [DecidableEq ι] (s : Finset ι) (P : ι → Prop) [DecidablePred P] (f : ι → BitVec 32)
    (hf : ∀ i, f i = if P i then 1#32 else 0#32) :
    s.fold IntOp.addi 0#32 f = BitVec.ofNat 32 (s.filter P).card := by
  induction s using Finset.induction_on with
  | empty => rfl
  | insert a s ha ih =>
    rw [Finset.fold_insert ha, ih, hf a, Finset.filter_insert]
    unfold IntOp.addi
    by_cases h : P a
    · rw [if_pos h, if_pos h, Finset.card_insert_of_notMem (fun hm => ha (Finset.mem_of_mem_filter a hm)),
        Nat.add_comm, BitVec.ofNat_add]
    · rw [if_neg h, if_neg h, BitVec.zero_add]

/-- A number below 2^31, written as a 32-bit word and read back as a signed integer, is itself. -/
theorem toInt_ofNat_of_lt {n : Nat} (h : n < 2 ^ 31) : (BitVec.ofNat 32 n).toInt = (n : Int) := by
  rw [BitVec.toInt_eq_toNat_cond, BitVec.toNat_ofNat]
  have : n % 2 ^ 32 = n := Nat.mod_eq_of_lt (by omega)
  rw [this, if_pos (by omega)]

end Cert.ReferenceIdeal.RefValue

end
-- ==== Proof.RefMask.lean ====
/-
  The reference's mask of valid triplets, read at one triple of coordinates.

  The reference builds, over pairs, the bit "the two indices differ" (the complement of an equality of two iotas), the bit
  "the two labels are equal", their conjunction (a valid positive pair) and the conjunction of the first with the
  complement of the second (a valid negative pair); over triples, the conjunction of the positive bit at (i, p) and the
  negative bit at (i, k). At the triple (i, p, k) that is the bit of "(i, p) is a valid positive pair and (i, k) a valid
  negative pair", and widened to 32 bits it is the word 1 or 0 by that condition.
-/
import proofs.«147143_j19576460935202_2_alg».proof.Proof.Gen.ReferenceIdeal.Read
import proofs.«147143_j19576460935202_2_alg».proof.Proof.LibTripletLoss
import proofs.«147143_j19576460935202_2_alg».proof.Proof.RefWords

noncomputable section

namespace Cert.ReferenceIdeal.RefValue

open Cert.ReferenceIdeal Cert.ReferenceIdeal.Read Idealize.ShloMosaic Idealize.ShloMosaic.ValueIdx

variable {F : FTy → Type} [FloatOps F]

/-- The labels as a function of the row. -/
def labels (x1 : (⟨S512, .i32⟩ : BufTy).Contents (Elt F)) : Fin 512 → BitVec 32 := fun i => x1 (ix1 i)

/-- The bit "the two indices differ" at the pair (i, p). -/
theorem differ_apply (i p : Fin 512) :
    val_main_v12 (F := F) (ix2 i p) = ~~~(if p = i then 1#1 else 0#1) := by
  rw [val_main_v12_apply, val_main_v11_apply, val_main_v10_apply, val_main_v7_apply, val_main_v8_apply, val_main_v9_apply,
    val_main_c_apply, cmpi_eq_ite]
  show ~~~(if IntOp.addi (BitVec.ofNat 32 i.val) 0#32 = BitVec.ofNat 32 p.val then 1#1 else 0#1) = _
  simp only [coord_word_eq_iff]

/-- The bit "the two labels are equal" at the pair (i, p). -/
theorem same_apply (x1 : (⟨S512, .i32⟩ : BufTy).Contents (Elt F)) (i p : Fin 512) :
    val_main_v17 (F := F) x1 (ix2 i p) = if labels x1 p = labels x1 i then 1#1 else 0#1 := by
  have e1 : idx_main_v13 (idx_main_v15 (ix2 i p)) = ix1 i := funext fun a => Fin.ext (by match a with | ⟨0, _⟩ => rfl)
  have e2 : idx_main_v14 (idx_main_v16 (ix2 i p)) = ix1 p := funext fun a => Fin.ext (by match a with | ⟨0, _⟩ => rfl)
  rw [val_main_v17_apply, val_main_v15_apply, val_main_v13_apply, val_main_v16_apply, val_main_v14_apply, e1, e2, cmpi_eq_ite]
  unfold labels
  exact if_congr eq_comm rfl rfl

/-- THE MASK AT A TRIPLE: the bit of "(i, p) is a valid positive pair and (i, k) a valid negative pair". -/
theorem mask_apply (x1 : (⟨S512, .i32⟩ : BufTy).Contents (Elt F)) (i p k : Fin 512) :
    val_main_v25 (F := F) x1 (ix3 i p k)
      = if TripletLoss.pos (labels x1) i p ∧ TripletLoss.neg (labels x1) i k then 1#1 else 0#1 := by
  have e1 : idx_main_v21 (idx_main_v23 (ix3 i p k)) = ix2 i p :=
    funext fun a => Fin.ext (by match a with | ⟨0, _⟩ => rfl | ⟨1, _⟩ => rfl)
  have e2 : idx_main_v22 (idx_main_v24 (ix3 i p k)) = ix2 i k :=
    funext fun a => Fin.ext (by match a with | ⟨0, _⟩ => rfl | ⟨1, _⟩ => rfl)
  rw [val_main_v25_apply, val_main_v23_apply, val_main_v21_apply, e1, val_main_v24_apply, val_main_v22_apply, e2,
    val_main_v18_apply, val_main_v20_apply, val_main_v19_apply, differ_apply, differ_apply, same_apply, same_apply, mask_word]
  exact if_congr (by unfold TripletLoss.pos TripletLoss.neg; exact Iff.rfl) rfl rfl

/-- The condition "a valid triplet" on a triple of rows. -/
def valid (lab : Fin 512 → BitVec 32) (t : Fin 512 × Fin 512 × Fin 512) : Prop :=
  TripletLoss.pos lab t.1 t.2.1 ∧ TripletLoss.neg lab t.1 t.2.2

instance (lab : Fin 512 → BitVec 32) : DecidablePred (valid lab) := fun t => by unfold valid; infer_instance

/-- The mask widened to 32 bits, at any index of the triples' shape: the word 1 or 0 by the same condition on the
    index's triple of coordinates. -/
theorem mask_word_apply (x1 : (⟨S512, .i32⟩ : BufTy).Contents (Elt F)) (j : S512x512x512.Idx) :
    val_main_v36 (F := F) x1 j = if valid (labels x1) (idxEquiv3 j) then 1#32 else 0#32 := by
  obtain ⟨a, b, c, rfl⟩ : ∃ (a b c : Fin 512), j = ix3 a b c := ⟨j 0, j 1, j 2, eq_ix3 j⟩
  rw [val_main_v36_apply, mask_apply, setWidth_ite]
  exact if_congr Iff.rfl rfl rfl

end Cert.ReferenceIdeal.RefValue

end
-- ==== Proof.RefDist.lean ====
/-
  The reference's squared distances, read at one pair of rows.

  The reference broadcasts the embeddings along a new middle axis and along a new leading axis, subtracts, squares and
  sums over the last axis from the zero word. At the pair (i, p) that is the sum over the 128 coordinates d of
  (e i d − e p d)², the squared Euclidean distance of rows i and p.
-/
import proofs.«147143_j19576460935202_2_alg».proof.Proof.Gen.ReferenceIdeal.Read
import proofs.«147143_j19576460935202_2_alg».proof.Proof.LibTripletLoss
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- The embeddings as a function of the row and the coordinate. -/
def rows (x0 : (⟨S512x128, .f32⟩ : BufTy).Contents (Elt Ideal)) : Fin 512 → Fin 128 → EReal := fun i d => x0 (ix2 i d)

/-- One squared difference: the reference's product at (i, p, d). -/
theorem sqdiff_apply (x0 : (⟨S512x128, .f32⟩ : BufTy).Contents (Elt Ideal)) (i p : Fin 512) (d : Fin 128) :
    val_main_v5 (F := Ideal) x0 (ix3 i p d) = (rows x0 i d - rows x0 p d) * (rows x0 i d - rows x0 p d) := by
  have e1 : idx_main_v0 (idx_main_v2 (ix3 i p d)) = ix2 i d :=
    funext fun a => Fin.ext (by match a with | ⟨0, _⟩ => rfl | ⟨1, _⟩ => rfl)
  have e2 : idx_main_v1 (idx_main_v3 (ix3 i p d)) = ix2 p d :=
    funext fun a => Fin.ext (by match a with | ⟨0, _⟩ => rfl | ⟨1, _⟩ => rfl)
  rw [val_main_v5_apply, val_main_v4_apply, val_main_v2_apply, val_main_v0_apply, e1, val_main_v3_apply, val_main_v1_apply, e2]
  rfl

/-- THE DISTANCE AT A PAIR: the reference's reduced array at (i, p) is the squared distance of rows i and p. -/
theorem dist_apply (x0 : (⟨S512x128, .f32⟩ : BufTy).Contents (Elt Ideal)) (i p : Fin 512) :
    val_main_v6 (F := Ideal) x0 (ix2 i p) = TripletLoss.dist (rows x0) i p := by
  have e : ∀ d : Fin 128, idx_main_v6 (ix2 i p) d = ix3 i p d := fun d =>
    funext fun a => Fin.ext (by match a with | ⟨0, _⟩ => rfl | ⟨1, _⟩ => rfl | ⟨2, _⟩ => rfl)
  rw [val_main_v6_apply, val_main_cst_apply, Ideal.ofBits_def, Ideal.ofBits_zero_f32, zero_add]
  unfold TripletLoss.dist
  exact Finset.sum_congr rfl fun d _ => by rw [e d, sqdiff_apply]

end Cert.ReferenceIdeal.RefValue

end
-- ==== Proof.RefSum.lean ====
/-
  The reference's sum of hinge terms over the valid triplets.

  At the triple (i, p, k) the reference's hinge array is max (dist i p − dist i k + 1) 0, its masked array is that term
  where the mask's bit is 1 and the zero word elsewhere, and its sum over all three axes, from the zero word, is the
  triple sum over the coordinates: the loss of the specification.
-/
import proofs.«147143_j19576460935202_2_alg».proof.Proof.Gen.ReferenceIdeal.Read
import proofs.«147143_j19576460935202_2_alg».proof.Proof.LibTripletLoss
import proofs.«147143_j19576460935202_2_alg».proof.Proof.RefWords
import proofs.«147143_j19576460935202_2_alg».proof.Proof.RefMask
import proofs.«147143_j19576460935202_2_alg».proof.Proof.RefDist
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The hinge term at a triple: max (dist i p − dist i k + 1) 0. -/
theorem hinge_apply (x0 : (⟨S512x128, .f32⟩ : BufTy).Contents (Elt Ideal)) (i p k : Fin 512) :
    val_main_v33 (F := Ideal) x0 (ix3 i p k) = TripletLoss.term (rows x0) i p k := by
  have e1 : idx_main_v26 (idx_main_v28 (ix3 i p k)) = ix2 i p :=
    funext fun a => Fin.ext (by match a with | ⟨0, _⟩ => rfl | ⟨1, _⟩ => rfl)
  have e2 : idx_main_v27 (idx_main_v29 (ix3 i p k)) = ix2 i k :=
    funext fun a => Fin.ext (by match a with | ⟨0, _⟩ => rfl | ⟨1, _⟩ => rfl)
  rw [val_main_v33_apply, val_main_v32_apply, val_main_v30_apply, val_main_v28_apply, val_main_v26_apply, e1,
    val_main_v29_apply, val_main_v27_apply, e2, dist_apply, dist_apply, val_main_v31_apply, val_main_cst_0_apply,
    val_main_call0_v0_apply, val_main_call0_cst_apply]
  simp only [Ideal.ofBits_def, Ideal.ofBits_zero_f32, Ideal.ofBits_one_f32, Ideal.addf_def, Ideal.subf_def,
    Ideal.maximumf_def]
  rfl

/-- The masked hinge term at a triple: the term on a valid triplet, zero elsewhere. -/
theorem masked_apply (x0 : (⟨S512x128, .f32⟩ : BufTy).Contents (Elt Ideal)) (x1 : (⟨S512, .i32⟩ : BufTy).Contents (Elt Ideal))
    (i p k : Fin 512) :
    val_main_v34 (F := Ideal) x0 x1 (ix3 i p k)
      = if TripletLoss.pos (labels (F := Ideal) x1) i p ∧ TripletLoss.neg (labels (F := Ideal) x1) i k
          then TripletLoss.term (rows x0) i p k else 0 := by
  rw [val_main_v34_apply, mask_apply, hinge_apply, val_main_call1_v1_apply, val_main_call1_v0_apply, val_main_cst_1_apply,
    Ideal.ofBits_def, Ideal.ofBits_zero_f32]
  by_cases h : TripletLoss.pos (labels (F := Ideal) x1) i p ∧ TripletLoss.neg (labels (F := Ideal) x1) i k
  · rw [if_pos h, if_pos h, select_one]
  · rw [if_neg h, if_neg h, select_zero]

/-- THE SUM: the reference's reduced scalar is the specification's loss. -/
theorem loss_apply (x0 : (⟨S512x128, .f32⟩ : BufTy).Contents (Elt Ideal)) (x1 : (⟨S512, .i32⟩ : BufTy).Contents (Elt Ideal))
    (j : S_.Idx) :
    val_main_v35 (F := Ideal) x0 x1 j = TripletLoss.loss (rows x0) (labels (F := Ideal) x1) := by
  rw [val_main_v35_apply, val_main_cst_2_apply, Ideal.ofBits_def, Ideal.ofBits_zero_f32, zero_add,
    sum_idx3 (n0 := 512) (n1 := 512) (n2 := 512)]
  unfold TripletLoss.loss
  exact Finset.sum_congr rfl fun i _ => Finset.sum_congr rfl fun p _ => Finset.sum_congr rfl fun k _ =>
    masked_apply x0 x1 i p k

end Cert.ReferenceIdeal.RefValue

end
-- ==== Proof.RefCount.lean ====
/-
  The reference's count of valid triplets.

  The mask's bits, widened to 32-bit words, are summed over all three axes by integer addition from the zero word: the
  result is the number of valid triplets written as a 32-bit word. That number is at most 512³ = 2²⁷, below 2³¹, so the
  word read as a signed integer is the number itself, and its conversion to a float is the number as a real.
-/
import proofs.«147143_j19576460935202_2_alg».proof.Proof.Gen.ReferenceIdeal.Read
import proofs.«147143_j19576460935202_2_alg».proof.Proof.LibTripletLoss
import proofs.«147143_j19576460935202_2_alg».proof.Proof.RefWords
import proofs.«147143_j19576460935202_2_alg».proof.Proof.RefMask
import Idealize.ShloMosaic.PureOps.Reduce

noncomputable section

namespace Cert.ReferenceIdeal.RefValue

open Cert.ReferenceIdeal Cert.ReferenceIdeal.Read Idealize.ShloMosaic Idealize.ShloMosaic.ValueIdx

variable {F : FTy → Type} [FloatOps F]

/-- The number of valid triplets is below 2³¹: there are only 512³ = 2²⁷ triples. -/
theorem cnt_lt (lab : Fin 512 → BitVec 32) : TripletLoss.cnt lab < 2 ^ 31 := by
  unfold TripletLoss.cnt
  refine lt_of_le_of_lt (Finset.card_filter_le _ _) ?_
  rw [Finset.card_univ]
  simp only [Fintype.card_prod, Fintype.card_fin]
  norm_num

/-- A fold by integer addition over every index of the triples' shape, from the zero word, of words that are 1 on the
    valid triplets and 0 elsewhere, is the number of valid triplets as a word. -/
theorem fold_valid (lab : Fin 512 → BitVec 32) (y : S512x512x512.Idx → BitVec 32)
    (hy : ∀ j, y j = if valid lab (idxEquiv3 j) then 1#32 else 0#32) :
    (Finset.univ : Finset S512x512x512.Idx).fold IntOp.addi 0#32 y = BitVec.ofNat 32 (TripletLoss.cnt lab) := by
  rw [fold_addi_ite Finset.univ (fun j => valid lab (idxEquiv3 j)) y hy, card_filter_idx3 (valid lab)]
  rfl

/-- THE COUNT AS A WORD: the reference's integer sum of the widened mask is the number of valid triplets as a word. -/
theorem count_word (x1 : (⟨S512, .i32⟩ : BufTy).Contents (Elt F)) (j : S_.Idx) :
    val_main_v37 (F := F) x1 j = BitVec.ofNat 32 (TripletLoss.cnt (labels x1)) := by
  unfold val_main_v37
  have hy := mask_word_apply (F := F) x1
  generalize val_main_v36 (F := F) x1 = y at hy ⊢
  rw [Host.reduce_eq_fold, val_main_c_3_apply,
    Finset.filter_true_of_mem (fun i _ => funext fun a => a.elim0)]
  exact fold_valid (labels x1) y hy

/-- THE COUNT AS A FLOAT: converted to a float it is the number of valid triplets as a real. -/
theorem count_apply (x1 : (⟨S512, .i32⟩ : BufTy).Contents (Elt Ideal)) (j : S_.Idx) :
    val_main_v38 (F := Ideal) x1 j = (((TripletLoss.cnt (labels (F := Ideal) x1) : ℕ) : ℝ) : EReal) := by
  rw [val_main_v38_apply, count_word]
  show ((((BitVec.ofNat 32 (TripletLoss.cnt (labels (F := Ideal) x1))).toInt : ℤ) : ℝ) : EReal) = _
  rw [toInt_ofNat_of_lt (cnt_lt _), Int.cast_natCast]

end Cert.ReferenceIdeal.RefValue

end
-- ==== Proof.RefValue.lean ====
import proofs.«147143_j19576460935202_2_alg».proof.Defs
import proofs.«147143_j19576460935202_2_alg».proof.Proof.Gen.ReferenceIdeal.Run
import proofs.«147143_j19576460935202_2_alg».proof.Proof.Gen.ReferenceIdeal.Read
import proofs.«147143_j19576460935202_2_alg».proof.Proof.LibTripletLoss
import proofs.«147143_j19576460935202_2_alg».proof.Proof.RefSum
import proofs.«147143_j19576460935202_2_alg».proof.Proof.RefCount
import Idealize.ShloMosaic.Lib.ValueIdx

/-
  The reference's value: the batch-all triplet loss of the specification.

  The reference divides its sum of the hinge terms over the valid triplets by its count of the valid triplets converted
  to a float. The sum is the specification's loss, the converted count is the number of valid triplets as a real, and
  the host's quotient at the ideal instance is the ideal division: the result is the specification's mean hinge term.
-/

noncomputable section

namespace Cert.ReferenceIdeal.RefValue

open Cert.ReferenceIdeal Cert.ReferenceIdeal.Read Idealize.ShloMosaic Idealize.ShloMosaic.ValueIdx

/-- THE REFERENCE'S VALUE: its one result element is the specification's result on the embeddings' rows and the labels. -/
theorem ref_eq (x0 : (⟨S512x128, .f32⟩ : BufTy).Contents (Elt Ideal)) (x1 : (⟨S512, .i32⟩ : BufTy).Contents (Elt Ideal)) :
    Cert.ReferenceIdeal.Read.val_main_v39 (F := Ideal) x0 x1
      = fun _ => TripletLoss.result (ι := Fin 512) (κ := Fin 128) (fun i d => x0 (ValueIdx.ix2 i d))
          (fun i => x1 (ValueIdx.ix1 i)) := by
  funext j
  rw [val_main_v39_apply, Ideal.hostDivf_def, loss_apply, count_apply]
  rfl

end Cert.ReferenceIdeal.RefValue

end
-- ==== Proof.Finite.lean ====
/-
  Finiteness of the inputs from the precondition: when the predicate "every entry of the
  f32[512,128] array has absolute value below +∞" evaluates to true over the extended reals,
  every entry of the array is a real number.
-/
import proofs.«147143_j19576460935202_2_alg».proof.Defs
import proofs.«147143_j19576460935202_2_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx

/-- The scalar shape has exactly one index. -/
instance : Subsingleton Cert.Pre_finite_inputs.S_.Idx := ⟨fun a b => funext fun d => d.elim0⟩

/-- The f32 pattern 0x7F800000 denotes +∞. -/
theorem ofBits_inf_f32 : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < (⊤ : EReal)) : ∃ r : ℝ, x = ((r : ℝ) : EReal) := by
  induction x using EReal.rec with
  | bot => simp at h
  | coe r => exact ⟨r, rfl⟩
  | top => simp at h

theorem entries_real [hPre : Cert.Pre_finite_inputs.Facts]
    (x : FVec Ideal Cert.Pre_finite_inputs.S512x128 .f32) (l : IVec Cert.Pre_finite_inputs.S512 32)
    (h : Cert.Pre_finite_inputs.fn (F := Ideal) x l = fun _ => 1#1) :
    ∀ (i : Fin 512) (d : Fin 128), ∃ r : ℝ, x (ix2 i d) = ((r : ℝ) : EReal) := by
  intro i d
  have h0 := congrFun h ix0
  dsimp only [Cert.Pre_finite_inputs.fn] at h0
  have h1 := Host.reduce_andi_all _ _ _ _ _ h0 (ix2 i d)
  have h2 : Ideal.cmp .olt (max (x (ix2 i d)) (-(x (ix2 i d)))) (Ideal.ofBits .f32 0x7F800000#32) = 1#1 := h1
  rw [ofBits_inf_f32] at h2
  have h3 : max (x (ix2 i d)) (-(x (ix2 i d))) < (⊤ : EReal) := by
    by_contra hn
    simp [Ideal.cmp, hn] at h2
  exact real_of_abs_lt_top _ h3

end Cert.Proof.Finite

end
-- ==== Proof.lean ====
/-
  The certificate of a batch-all triplet loss computed by two chained kernels against its textbook reference.

  The kernel computes the table of squared distances between the 512 embeddings as norms minus twice the inner
  products, floored at zero (first call), and then, tiling the anchors in 64 blocks of 8 rows and the negatives in 4
  blocks of 128 lanes, adds up over the 256 grid points the hinge terms max(d(a,p) − d(a,n) + 1, 0) multiplied by the
  0/1 masks "p is another index with a's label" and "n is another index with a different label", together with the
  number of valid triplets as a sum of products of row counts (second call); the result is the quotient of the two
  totals. The reference forms the squared distances as sums of squared differences, selects the hinge terms by the
  conjunction of the two masks, sums them in one go, counts the valid triplets as a sum of 32-bit words and divides.

  On the extended reals the two agree when every embedding entry is a real number: the norm expansion needs it
  (infinity minus infinity otherwise), and it makes each distance a nonnegative real, so the floor at zero is the
  identity; a hinge term times a 0/1 mask is the selected term for every extended real; the count's product of row
  sums distributes because every mask entry is 0 or 1; and the count is below 2^31, so the word sum does not wrap.

  The three frames: each kernel region's body is run once per control case (the first point zeroes the two
  accumulators, every point adds its block totals, the last point copies them out), the accumulators' contents are
  carried in the region's invariant, and the two arrays that the second call reads through two windows each are held
  by each pair of windows at the two halves of the full share. The reference's frame is its run with the result dropped.
-/
import proofs.«147143_j19576460935202_2_alg».proof.Defs
import proofs.«147143_j19576460935202_2_alg».proof.Proof.Gen.Kernel
import proofs.«147143_j19576460935202_2_alg».proof.Proof.Gen.KernelIdeal
import proofs.«147143_j19576460935202_2_alg».proof.Proof.Gen.ReferenceIdeal
import proofs.«147143_j19576460935202_2_alg».proof.Proof.Gen.Pre_finite_inputs
import proofs.«147143_j19576460935202_2_alg».proof.Proof.BitsFrame
import proofs.«147143_j19576460935202_2_alg».proof.Proof.IdealFrame
import proofs.«147143_j19576460935202_2_alg».proof.Proof.IdealResult
import proofs.«147143_j19576460935202_2_alg».proof.Proof.RefValue
import proofs.«147143_j19576460935202_2_alg».proof.Proof.Finite

noncomputable section

namespace Cert.Proof

open Idealize.ShloMosaic Idealize.SL.Sem

/-- The word-level kernel runs to the end, faults nowhere and leaves its arguments unchanged. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with every embedding entry finite, both programs end with the mean hinge
    term over the valid triplets of the launch embeddings and labels. -/
theorem algebraic : Cert.algebraic_KernelIdeal_ReferenceIdeal := by
  intro m ρ m' ρ' hpre hagree
  have hfin : ∀ c i d, ∃ r : ℝ, Cert.KernelIdeal.Hand.rows m c i d = r :=
    fun c i d => Cert.Proof.Finite.entries_real _ _ (hpre c) i d
  refine ⟨fun c => fun _ => TripletLoss.result (Cert.KernelIdeal.Hand.rows m c) (Cert.KernelIdeal.Hand.labels m c), ?_, ?_⟩
  · exact (θ_run Cert.KernelIdeal.defs _ _).mono
      (fun _ h c => ⟨(h c).1.trans (Cert.KernelIdeal.Hand.kernel_value m ρ hfin c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
